-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S512x512 : Shape := ⟨2, ![512, 512]⟩
abbrev S512 : Shape := ⟨1, ![512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S16x2048x512 .f32) (main_arg1 : FVec F S16x2048x512 .f32) (main_arg2 : FVec F S512x512 .f32) (main_arg3 : FVec F S512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S16x2048x512 : Shape := ⟨3, ![16, 2048, 512]⟩
abbrev S512x512 : Shape := ⟨2, ![512, 512]⟩
abbrev S512 : Shape := ⟨1, ![512]⟩
abbrev S1x512 : Shape := ⟨2, ![1, 512]⟩
abbrev S32768x512 : Shape := ⟨2, ![32768, 512]⟩
abbrev S2048x512 : Shape := ⟨2, ![2048, 512]⟩
abbrev S1x1024x512 : Shape := ⟨3, ![1, 1024, 512]⟩
abbrev S1x512x512 : Shape := ⟨3, ![1, 512, 512]⟩
abbrev S1024x1 : Shape := ⟨2, ![1024, 1]⟩
abbrev S1024x512 : Shape := ⟨2, ![1024, 512]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S1x512, .f32⟩
  | .hbm, ⟨6, _⟩ => ⟨S32768x512, .f32⟩
  | .hbm, ⟨7, _⟩ => ⟨S32768x512, .bf16⟩
  | .hbm, ⟨8, _⟩ => ⟨S16x2048x512, .bf16⟩
  | .hbm, ⟨9, _⟩ => ⟨S16x2048x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | .local _ .vmem, ⟨6, _⟩ => ⟨S1x1024x512, .f32⟩
  | .local _ .vmem, ⟨7, _⟩ => ⟨S1x1024x512, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .f32⟩
  | .local _ .vmem, ⟨11, _⟩ => ⟨S1x512x512, .f32⟩
  | .local _ .vmem, ⟨12, _⟩ => ⟨S1x1024x512, .f32⟩
  | .local _ .vmem, ⟨13, _⟩ => ⟨S1x1024x512, .f32⟩
  | .local _ .vmem, ⟨14, _⟩ => ⟨S1024x1, .f32⟩
  | .local _ .vmem, ⟨15, _⟩ => ⟨S1024x1, .f32⟩
  | .local _ .vmem, ⟨16, _⟩ => ⟨S1024x512, .f32⟩
  | .local _ .vmem, ⟨17, _⟩ => ⟨S1024x512, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![16, 2, 4], ![false, false, false]⟩

def k1_cond2 (i : grid1.Coords) : BitVec 1 :=
  let arg2 : BitVec 32 := BitVec.ofNat 32 (i 2).val
  let c3_i32 : BitVec 32 := 3#32
  let v41 : BitVec 1 := Scalar.cmpi .eq arg2 c3_i32
  let v42 : BitVec 32 := Scalar.extui v41
  let c0_i32_25 : BitVec 32 := 0#32
  let v43 : BitVec 1 := Scalar.cmpi .ne v42 c0_i32_25
  v43

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S512x512_S512x512_1_0 : S512x512.Transposes [1, 0] S512x512
  shapeCasts_S512_S1x512 : S512.ShapeCasts S1x512
  shapeCasts_S16x2048x512_S32768x512 : S16x2048x512.ShapeCasts S32768x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  packedbf16_S2048x512_S2048x512_0_0 : (Rect.unit (s := S2048x512) ![0, 0] S2048x512.size inb_S2048x512_S2048x512_0_0).PackedRows (EltTy.packing .bf16)
  shapeCasts_S32768x512_S16x2048x512 : S32768x512.ShapeCasts S16x2048x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  packedbf16_S1024x512_S1024x512_0_0 : (Rect.unit (s := S1024x512) ![0, 0] S1024x512.size inb_S1024x512_S1024x512_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  reduces_S1024x512_S1024 : S1024x512.Reduces [1] S1024
  shapeCasts_S1024_S1024x1 : S1024.ShapeCasts S1024x1
  broadcasts_S1024x1_S1024x512 : S1024x1.Broadcasts S1024x512
  shapeCasts_S1024x512_S1x1024x512 : S1024x512.ShapeCasts S1x1024x512
  dot_S2048x512_S512x512_S2048x512_1_0_0_1_n_n_wf : DotDims.WF S2048x512 S512x512 S2048x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .bf16 = 32 ∨ (Rect.block (s := S32768x512) S2048x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S16x2048x512.size a
  hwx1_0 : ∀ i : grid1.Coords, EltTy.bits .f32 = 32 ∨ (Rect.block (s := S16x2048x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S16x2048x512.size a
  hwx1_1 : ∀ i : grid1.Coords, EltTy.bits .bf16 = 32 ∨ (Rect.block (s := S16x2048x512) S1x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S16x2048x512.size a
  hwx1_2 : ∀ i : grid1.Coords, EltTy.bits .f32 = 32 ∨ (Rect.block (s := S16x2048x512) S1x512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S16x2048x512.size a
  hwx1_3 : ∀ i : grid1.Coords, EltTy.bits .f32 = 32 ∨ (Rect.block (s := S16x2048x512) S1x1024x512.size (cc1_transform_3 i) (hinb1_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16x2048x512 : Shape := ⟨3, ![16, 2048, 512]⟩
abbrev S512x512 : Shape := ⟨2, ![512, 512]⟩
abbrev S512 : Shape := ⟨1, ![512]⟩
abbrev S1x1x512 : Shape := ⟨3, ![1, 1, 512]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S512x512, .f32⟩
  | .hbm, ⟨3, _⟩ => ⟨S512, .f32⟩
  | .hbm, ⟨4, _⟩ => ⟨S16x2048x512, .f32⟩
  | .hbm, ⟨5, _⟩ => ⟨S1x1x512, .f32⟩
  | .hbm, ⟨6, _⟩ => ⟨S16x2048x512, .f32⟩
  | .hbm, ⟨7, _⟩ => ⟨S16x2048x512, .f32⟩
  | .hbm, ⟨8, _⟩ => ⟨S16x2048x512, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x512, .f32⟩
  | .hbm, ⟨25, _⟩ => ⟨S16x2048x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x512_S512x512_S16x2048x512_2_1_01_0_n_n_wf : DotDims.WF S16x2048x512 S512x512 S16x2048x512 [2] [1] [0, 1] [0] [] []
  dot_S16x2048x512_S16x2048x512_S16x2048x2048_2_2_1_1_0_0_wf : DotDims.WF S16x2048x512 S16x2048x512 S16x2048x2048 [2] [2] [1] [1] [0] [0]
  dot_S16x2048x2048_S16x2048x512_S16x2048x512_2_1_1_2_0_0_wf : DotDims.WF S16x2048x2048 S16x2048x512 S16x2048x512 [2] [1] [1] [2] [0] [0]

variable [Facts₀]

def dot_S16x2048x512_S512x512_S16x2048x512_2_1_01_0_n_n : DotDims S16x2048x512 S512x512 S16x2048x512 where
  lhsContracting := [2]
  rhsContracting := [1]
  lhsNonContracting := [0, 1]
  rhsNonContracting := [0]
  lhsBatch := []
  rhsBatch := []
  wf := dot_S16x2048x512_S512x512_S16x2048x512_2_1_01_0_n_n_wf
def dot_S16x2048x512_S16x2048x512_S16x2048x2048_2_2_1_1_0_0 : DotDims S16x2048x512 S16x2048x512 S16x2048x2048 where
  lhsContracting := [2]
  rhsContracting := [2]
  lhsNonContracting := [1]
  rhsNonContracting := [1]
  lhsBatch := [0]
  rhsBatch := [0]
  wf := dot_S16x2048x512_S16x2048x512_S16x2048x2048_2_2_1_1_0_0_wf
def dot_S16x2048x2048_S16x2048x512_S16x2048x512_2_1_1_2_0_0 : DotDims S16x2048x2048 S16x2048x512 S16x2048x512 where
  lhsContracting := [2]
  rhsContracting := [1]
  lhsNonContracting := [1]
  rhsNonContracting := [2]
  lhsBatch := [0]
  rhsBatch := [0]
  wf := dot_S16x2048x2048_S16x2048x512_S16x2048x512_2_1_1_2_0_0_wf

class Facts : Prop extends Facts₀ where

variable [Facts]
-- ==== Proof.K.Region0.lean ====
/-
  The first kernel region (the linear layer), on one core, at the buffer contents `V` the region is entered with.

  Its grid has 16 points; point `t` is handed rows `2048 t … 2048 t + 2047` of the flattened input (window 0), the whole
  transposed weight matrix (window 1) and the bias row (window 2), and stores into the output window's block ONE value,
  the product of the two plus the bias row broadcast down the rows. So the output buffer after the body is that one
  stored value, a function of the three input blocks; nothing is kept between points.
-/
import proofs.«142818_j42760694399404_2_alg».proof.Proof.Gen.Kernel.Launch
import proofs.«142818_j42760694399404_2_alg».proof.Proof.Gen.Kernel.Skeleton
import proofs.«142818_j42760694399404_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA : Rect S2048x512 := Rect.unit (s := S2048x512) ![0, 0] S2048x512.size inb_S2048x512_S2048x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- The output window's buffer after the body, from the three input blocks: its one store. -/
def out0_3 (x0 : Vec F S2048x512 .f32) (x1 : Vec F S512x512 .f32) (x2 : Vec F S1x512 .f32) : Vec F S2048x512 .bf16 :=
  View.canon [⟨rA, k0_pay1 (View.ld x0 rA) (View.ld x1 rW) (View.ld x2 rB)⟩]

/-- The one store covers the buffer. -/
theorem cover0_3 (p0 : Vec F S2048x512 .bf16) (y : S2048x512.Idx) :
    ∃ pc ∈ ([⟨rA, p0⟩] : List (View.Piece (Elt F) S2048x512 .bf16)), y ∈ pc.1.set :=
  View.cover_of_tiled [⟨rA, p0⟩] S2048x512.size (by rfl) y

/-! ## The body's triple -/

set_option maxHeartbeats 1000000 in
/-- On whole staging memrefs, the inputs' at contents `x0 x1 x2` and the output's at anything, the body runs to the
    continuation with the inputs' as they were and the output's at `out0_3` of them. -/
theorem sound_kernel0 (c : Dev nD) (E : Set ℕ) (i : grid0.Coords)
    (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's
    at `out0_3` of the input blocks; the invariant only the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1Kit.lean ====
/-
  The second kernel region (attention with a running softmax), on one core: what its three control cases share.

  The grid is 16 × 2 × 4: batch, query tile of 1024 rows, key/value tile of 512 rows, the last axis innermost. The body
  branches twice on the key/value coordinate `kv`: at `kv = 0` it resets its four scratch buffers (running maximum,
  running normaliser, running weighted sum, and tanh of the query tile); at `kv = 3` it divides, applies tanh and
  stores the output block, which is written back at those points only and left idle at the others. So a point is in
  one of three cases: first tile (reset, no output), middle tiles (neither), last tile (output).
-/
import proofs.«142818_j42760694399404_2_alg».proof.Proof.Gen.Kernel.Launch
import proofs.«142818_j42760694399404_2_alg».proof.Proof.Gen.Kernel.Skeleton
import proofs.«142818_j42760694399404_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved: the query tile is fetched once per four points). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "This is the first key/value tile" (`kv = 0`), as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key/value tile" (`kv = 3`). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last tile the output window is idle (the body stores nothing into it) -/
theorem idleAt1_3 : ∀ t : Fin cfg1.N, ¬cond1_1 (grid1.coords t) → cfg1.idle 3 (grid1.coords t) = true := by decide +kernel
/-- and is not written back; -/
theorem noFlush1_3 : ∀ t : Fin cfg1.N, ¬cond1_1 (grid1.coords t) → (cfg1.win 3).flush t = false := by decide +kernel
/-- on the last tile it is live. -/
theorem liveAt1_3 : ∀ t : Fin cfg1.N, cond1_1 (grid1.coords t) → cfg1.idle 3 (grid1.coords t) = false := by decide +kernel

/-! ## The memrefs the body is called with -/

/-- One staging buffer of the output window, through which its contents are stated (the choice does not matter). -/
abbrev VO1_3 : View sig .tc .vmem S1x1024x512 .f32 := (Memref.whole cc1_stg3_0 : Memref sig .tc .vmem S1x1024x512 .f32).view
abbrev ms1_0 (t : Fin cfg1.N) : Memref sig .tc .vmem S1x1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .f32 := win1_3.stage (cfg1.slots t 3)
abbrev hs1_3 (t : Fin cfg1.N) : (ms1_3 t).IsWhole := hstage1_3 ((cfg1.slots t 3).cast nbuf1_3)
/-- The four scratch operands: running maximum, running normaliser, running weighted sum, tanh of the query tile. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x512 .f32 := Memref.whole cc1_scratch2
abbrev scM1_3 : Memref sig .tc .vmem S1024x512 .bf16 := Memref.whole cc1_scratch3
abbrev VS1_0 : View sig .tc .vmem S1024x1 .f32 := scM1_0.view
abbrev VS1_1 : View sig .tc .vmem S1024x1 .f32 := scM1_1.view
abbrev VS1_2 : View sig .tc .vmem S1024x512 .f32 := scM1_2.view
abbrev VS1_3 : View sig .tc .vmem S1024x512 .bf16 := scM1_3.view

/-- The scoped rest of this region (every scoped buffer that is no staging buffer of it, each at some contents) with the
    four scratch buffers split off as memrefs owned at some contents, beside the other region's staging buffers. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Fr

end
-- ==== Proof.K.R1RunA.lean ====
/-
  The attention body at a FIRST key/value tile (`kv = 0`, not the last): it overwrites all four scratch buffers before
  reading any of them, so they may be handed to it at anything; it stores nothing into the output block, which it hands
  back as found. What each scratch buffer ends with is a list of whole-buffer stores, found by running the body.
-/
import proofs.«142818_j42760694399404_2_alg».proof.Proof.Gen.Kernel.Launch
import proofs.«142818_j42760694399404_2_alg».proof.Proof.Gen.Kernel.Skeleton
import proofs.«142818_j42760694399404_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.K.R1Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each scratch buffer ends with in this case, with the body's triple: on whole memrefs — the three inputs'
    at their contents, the output's at contents handed back untouched, the scratch buffers' at anything — the body runs
    to the continuation holding the inputs' and the output's as they were and each scratch with its pieces written. -/
noncomputable def kernelRun1_A (c : Dev nD) (i : grid1.Coords) (arg3 : Memref sig .tc .vmem S1x1024x512 .f32) (harg3 : arg3.IsWhole) (arg4 : Memref sig .tc .vmem S1x512x512 .bf16) (harg4 : arg4.IsWhole) (arg5 : Memref sig .tc .vmem S1x512x512 .f32) (harg5 : arg5.IsWhole) (arg6 : Memref sig .tc .vmem S1x1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (arg10 : Memref sig .tc .vmem S1024x512 .bf16) (harg10 : arg10.IsWhole) (hc0 : cond1_0 i) (hc1 : ¬cond1_1 i)
    (x0 : Vec F S1x1024x512 .f32) (x1 : Vec F S1x512x512 .bf16) (x2 : Vec F S1x512x512 .f32) :
    Σ' (LS0 : List (View.Piece (Elt F) S1024x1 .f32)) (LS1 : List (View.Piece (Elt F) S1024x1 .f32)) (LS2 : List (View.Piece (Elt F) S1024x512 .f32)), { LS3 : List (View.Piece (Elt F) S1024x512 .bf16) //
      ∀ (xi3 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    isplitl [HS2]; · iexists _; iexact HS2
    iexists _; iexact HS3

end Cert.Kernel.Fr

end
-- ==== Proof.K.R1RunB.lean ====
/-
  The attention body at a MIDDLE key/value tile (`kv` neither 0 nor 3): it reads the four scratch buffers as the tile
  before left them, rescales and adds this tile's contribution into the first three, leaves the fourth (tanh of the query
  tile) as it was, and stores nothing into the output block.
-/
import proofs.«142818_j42760694399404_2_alg».proof.Proof.Gen.Kernel.Launch
import proofs.«142818_j42760694399404_2_alg».proof.Proof.Gen.Kernel.Skeleton
import proofs.«142818_j42760694399404_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.K.R1Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the running maximum, normaliser and weighted sum end with in this case, with the body's triple: the
    scratch buffers enter at the contents `xs·` the tile before left; the fourth is handed back at `xs3`. -/
noncomputable def kernelRun1_B (c : Dev nD) (i : grid1.Coords) (arg3 : Memref sig .tc .vmem S1x1024x512 .f32) (harg3 : arg3.IsWhole) (arg4 : Memref sig .tc .vmem S1x512x512 .bf16) (harg4 : arg4.IsWhole) (arg5 : Memref sig .tc .vmem S1x512x512 .f32) (harg5 : arg5.IsWhole) (arg6 : Memref sig .tc .vmem S1x1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (arg10 : Memref sig .tc .vmem S1024x512 .bf16) (harg10 : arg10.IsWhole) (hc0 : ¬cond1_0 i) (hc1 : ¬cond1_1 i)
    (x0 : Vec F S1x1024x512 .f32) (x1 : Vec F S1x512x512 .bf16) (x2 : Vec F S1x512x512 .f32)
    (xs0 : Vec F S1024x1 .f32) (xs1 : Vec F S1024x1 .f32) (xs2 : Vec F S1024x512 .f32) (xs3 : Vec F S1024x512 .bf16) :
    Σ' (LS0 : List (View.Piece (Elt F) S1024x1 .f32)) (LS1 : List (View.Piece (Elt F) S1024x1 .f32)), { LS2 : List (View.Piece (Elt F) S1024x512 .f32) //
      ∀ (xi3 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    isplitl [HS2]; · iexists _; iexact HS2
    iexists _; isplitr; · ipureintro; exact harg10.read_unread _
    iexact HS3

end Cert.Kernel.Fr

end
-- ==== Proof.K.R1RunC.lean ====
/-
  The attention body at a LAST key/value tile (`kv = 3`): as at a middle tile, and then it divides the weighted sum by the
  normaliser, applies tanh and stores the result over the whole output block.
-/
import proofs.«142818_j42760694399404_2_alg».proof.Proof.Gen.Kernel.Launch
import proofs.«142818_j42760694399404_2_alg».proof.Proof.Gen.Kernel.Skeleton
import proofs.«142818_j42760694399404_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.K.R1Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output block and the first three scratch buffers end with in this case, with the body's triple: the
    output's memref enters at anything, the scratch buffers at the contents `xs·` the tile before left. -/
noncomputable def kernelRun1_C (c : Dev nD) (i : grid1.Coords) (arg3 : Memref sig .tc .vmem S1x1024x512 .f32) (harg3 : arg3.IsWhole) (arg4 : Memref sig .tc .vmem S1x512x512 .bf16) (harg4 : arg4.IsWhole) (arg5 : Memref sig .tc .vmem S1x512x512 .f32) (harg5 : arg5.IsWhole) (arg6 : Memref sig .tc .vmem S1x1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (arg10 : Memref sig .tc .vmem S1024x512 .bf16) (harg10 : arg10.IsWhole) (hc0 : ¬cond1_0 i) (hc1 : cond1_1 i)
    (x0 : Vec F S1x1024x512 .f32) (x1 : Vec F S1x512x512 .bf16) (x2 : Vec F S1x512x512 .f32)
    (xs0 : Vec F S1024x1 .f32) (xs1 : Vec F S1024x1 .f32) (xs2 : Vec F S1024x512 .f32) (xs3 : Vec F S1024x512 .bf16) :
    Σ' (L3 : List (View.Piece (Elt F) S1x1024x512 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    isplitl [HS2]; · iexists _; iexact HS2
    iexists _; isplitr; · ipureintro; exact harg10.read_unread _
    iexact HS3

end Cert.Kernel.Fr

end
-- ==== Proof.K.R1Frame.lean ====
/-
  The second kernel region (attention with a running softmax), on one core, at the buffer contents `V` the region is
  entered with: what its scratch buffers and its output block hold after every grid point, and the body's obligation.

  Point `t` is key/value tile `t mod 4` of query tile `t / 4`. At a first tile the four scratch buffers are reset and
  then updated from this tile alone; at a later tile they are updated from what the point before left (the scratch
  is the kernel's own and nothing else touches it between two points); at a last tile the output block is stored as
  well. So the contents are defined by recursion on the point, one clause per case, and the region's invariant before
  a point names the scratch buffers at what the point before left.
-/
import proofs.«142818_j42760694399404_2_alg».proof.Proof.Gen.Kernel.Launch
import proofs.«142818_j42760694399404_2_alg».proof.Proof.Gen.Kernel.Skeleton
import proofs.«142818_j42760694399404_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.K.R1RunA
import proofs.«142818_j42760694399404_2_alg».proof.Proof.K.R1RunB
import proofs.«142818_j42760694399404_2_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

/-- The body's run at a first tile, at the point's memrefs and input blocks. -/
def runA (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) h0 h1 (iblk1 V c 0 t) (iblk1 V c 1 t) (iblk1 V c 2 t)

/-- The body's run at a middle tile, the scratch buffers entering at `p`. -/
def runB (c : Dev nD) (t : Fin cfg1.N) (h0 : ¬cond1_0 (grid1.coords t)) (h1 : ¬cond1_1 (grid1.coords t)) (p : Vec F S1x1024x512 .f32 × Vec F S1024x1 .f32 × Vec F S1024x1 .f32 × Vec F S1024x512 .f32 × Vec F S1024x512 .bf16) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) h0 h1 (iblk1 V c 0 t) (iblk1 V c 1 t) (iblk1 V c 2 t) p.2.1 p.2.2.1 p.2.2.2.1 p.2.2.2.2

/-- The body's run at a last tile, the scratch buffers entering at `p`. -/
def runC (c : Dev nD) (t : Fin cfg1.N) (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) h0 h1 (iblk1 V c 0 t) (iblk1 V c 1 t) (iblk1 V c 2 t) p.2.1 p.2.2.1 p.2.2.2.1 p.2.2.2.2

/-! Each case's stores into a buffer are whole-buffer stores, so they cover it. -/
section covers
variable (c : Dev nD) (t : Fin cfg1.N)
theorem scovA_0 (h0 : cond1_0 (grid1.coords t)) (h1 : ¬cond1_1 (grid1.coords t)) (y : S1024x1.Idx) : ∃ pc ∈ (runA V c t h0 h1).1, y ∈ pc.1.set :=
  View.cover_of_tiledL (runA V c t h0 h1).1 S1024x1.size (by sl_kernel_rfl) y
theorem scovA_1 (h0 : cond1_0 (grid1.coords t)) (h1 : ¬cond1_1 (grid1.coords t)) (y : S1024x1.Idx) : ∃ pc ∈ (runA V c t h0 h1).2.1, y ∈ pc.1.set :=
  View.cover_of_tiledL (runA V c t h0 h1).2.1 S1024x1.size (by sl_kernel_rfl) y
theorem scovA_2 (h0 : cond1_0 (grid1.coords t)) (h1 : ¬cond1_1 (grid1.coords t)) (y : S1024x512.Idx) : ∃ pc ∈ (runA V c t h0 h1).2.2.1, y ∈ pc.1.set :=
  View.cover_of_tiledL (runA V c t h0 h1).2.2.1 S1024x512.size (by sl_kernel_rfl) y
theorem scovA_3 (h0 : cond1_0 (grid1.coords t)) (h1 : ¬cond1_1 (grid1.coords t)) (y : S1024x512.Idx) : ∃ pc ∈ (runA V c t h0 h1).2.2.2.1, y ∈ pc.1.set :=
  View.cover_of_tiledL (runA V c t h0 h1).2.2.2.1 S1024x512.size (by sl_kernel_rfl) y
theorem scovB_0 (h0 : ¬cond1_0 (grid1.coords t)) (h1 : ¬cond1_1 (grid1.coords t)) (p : Vec F S1x1024x512 .f32 × Vec F S1024x1 .f32 × Vec F S1024x1 .f32 × Vec F S1024x512 .f32 × Vec F S1024x512 .bf16) (y : S1024x1.Idx) : ∃ pc ∈ (runB V c t h0 h1 p).1, y ∈ pc.1.set :=
  View.cover_of_tiledL (runB V c t h0 h1 p).1 S1024x1.size (by sl_kernel_rfl) y
theorem scovB_1 (h0 : ¬cond1_0 (grid1.coords t)) (h1 : ¬cond1_1 (grid1.coords t)) (p : Vec F S1x1024x512 .f32 × Vec F S1024x1 .f32 × Vec F S1024x1 .f32 × Vec F S1024x512 .f32 × Vec F S1024x512 .bf16) (y : S1024x1.Idx) : ∃ pc ∈ (runB V c t h0 h1 p).2.1, y ∈ pc.1.set :=
  View.cover_of_tiledL (runB V c t h0 h1 p).2.1 S1024x1.size (by sl_kernel_rfl) y
theorem scovB_2 (h0 : ¬cond1_0 (grid1.coords t)) (h1 : ¬cond1_1 (grid1.coords t)) (p : Vec F S1x1024x512 .f32 × Vec F S1024x1 .f32 × Vec F S1024x1 .f32 × Vec F S1024x512 .f32 × Vec F S1024x512 .bf16) (y : S1024x512.Idx) : ∃ pc ∈ (runB V c t h0 h1 p).2.2.1, y ∈ pc.1.set :=
  View.cover_of_tiledL (runB V c t h0 h1 p).2.2.1 S1024x512.size (by sl_kernel_rfl) y
theorem covC_3 (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) (y : S1x1024x512.Idx) : ∃ pc ∈ (runC V c t h0 h1 p).1, y ∈ pc.1.set :=
  View.cover_of_tiledL (runC V c t h0 h1 p).1 S1x1024x512.size (by sl_kernel_rfl) y
theorem scovC_0 (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) (y : S1024x1.Idx) : ∃ pc ∈ (runC V c t h0 h1 p).2.1, y ∈ pc.1.set :=
  View.cover_of_tiledL (runC V c t h0 h1 p).2.1 S1024x1.size (by sl_kernel_rfl) y
theorem scovC_1 (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) (y : S1024x1.Idx) : ∃ pc ∈ (runC V c t h0 h1 p).2.2.1, y ∈ pc.1.set :=
  View.cover_of_tiledL (runC V c t h0 h1 p).2.2.1 S1024x1.size (by sl_kernel_rfl) y
theorem scovC_2 (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) (y : S1024x512.Idx) : ∃ pc ∈ (runC V c t h0 h1 p).2.2.2.1, y ∈ pc.1.set :=
  View.cover_of_tiledL (runC V c t h0 h1 p).2.2.2.1 S1024x512.size (by sl_kernel_rfl) y
end covers

/-- An output block nobody stored into: a placeholder nothing consults (at such a point the window is neither written
    back nor read at the next point). -/
def noOut : Vec F S1x1024x512 .f32 := VO1_3.read (Elt F) (VO1_3.writes (Elt F) VO1_3.junk [])

/-- After a first tile: the output block untouched, each scratch buffer its pieces read back. -/
def caseA (c : Dev nD) (t : Fin cfg1.N) (h0 : cond1_0 (grid1.coords t)) (h1 : ¬cond1_1 (grid1.coords t)) : Vec F S1x1024x512 .f32 × Vec F S1024x1 .f32 × Vec F S1024x1 .f32 × Vec F S1024x512 .f32 × Vec F S1024x512 .bf16 :=
  (noOut, VS1_0.read (Elt F) (VS1_0.writes (Elt F) VS1_0.junk (runA V c t h0 h1).1),
    VS1_1.read (Elt F) (VS1_1.writes (Elt F) VS1_1.junk (runA V c t h0 h1).2.1),
    VS1_2.read (Elt F) (VS1_2.writes (Elt F) VS1_2.junk (runA V c t h0 h1).2.2.1),
    VS1_3.read (Elt F) (VS1_3.writes (Elt F) VS1_3.junk (runA V c t h0 h1).2.2.2.1))

/-- After a middle tile, from what the point before left (`p`); tanh of the query tile stays. -/
def caseB (c : Dev nD) (t : Fin cfg1.N) (h0 : ¬cond1_0 (grid1.coords t)) (h1 : ¬cond1_1 (grid1.coords t)) (p : Vec F S1x1024x512 .f32 × Vec F S1024x1 .f32 × Vec F S1024x1 .f32 × Vec F S1024x512 .f32 × Vec F S1024x512 .bf16) : Vec F S1x1024x512 .f32 × Vec F S1024x1 .f32 × Vec F S1024x1 .f32 × Vec F S1024x512 .f32 × Vec F S1024x512 .bf16 :=
  (noOut, VS1_0.read (Elt F) (VS1_0.writes (Elt F) VS1_0.junk (runB V c t h0 h1 p).1),
    VS1_1.read (Elt F) (VS1_1.writes (Elt F) VS1_1.junk (runB V c t h0 h1 p).2.1),
    VS1_2.read (Elt F) (VS1_2.writes (Elt F) VS1_2.junk (runB V c t h0 h1 p).2.2.1),
    p.2.2.2.2)

/-- After a last tile, from what the point before left; the output block its store read back. -/
def caseC (c : Dev nD) (t : Fin cfg1.N) (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) : Vec F S1x1024x512 .f32 × Vec F S1024x1 .f32 × Vec F S1024x1 .f32 × Vec F S1024x512 .f32 × Vec F S1024x512 .bf16 :=
  (VO1_3.read (Elt F) (VO1_3.writes (Elt F) VO1_3.junk (runC V c t h0 h1 p).1),
    VS1_0.read (Elt F) (VS1_0.writes (Elt F) VS1_0.junk (runC V c t h0 h1 p).2.1),
    VS1_1.read (Elt F) (VS1_1.writes (Elt F) VS1_1.junk (runC V c t h0 h1 p).2.2.1),
    VS1_2.read (Elt F) (VS1_2.writes (Elt F) VS1_2.junk (runC V c t h0 h1 p).2.2.2.1),
    p.2.2.2.2)

/-! ## What the buffers hold after each point -/

/-- THE ACCUMULATION: the output block and the four scratch buffers after the body at position `n`. -/
def outsAt1 (c : Dev nD) : (n : ℕ) → n < cfg1.N → Vec F S1x1024x512 .f32 × Vec F S1024x1 .f32 × Vec F S1024x1 .f32 × Vec F S1024x512 .f32 × Vec F S1024x512 .bf16
  | 0, hn => caseA V c ⟨0, hn⟩ ((hcond1_0 ⟨0, hn⟩).mpr (Nat.zero_mod _)) (fun h => absurd ((hcond1_1 ⟨0, hn⟩).mp h) (show ¬((0 : ℕ) % 4 = 3) from by decide))
  | n + 1, hn =>
    if h0 : (n + 1) % 4 = 0 then
      caseA V c ⟨n + 1, hn⟩ ((hcond1_0 ⟨n + 1, hn⟩).mpr h0) (fun h => (by omega : ¬(n + 1) % 4 = 3) ((hcond1_1 ⟨n + 1, hn⟩).mp h))
    else if h3 : (n + 1) % 4 = 3 then
      caseC V c ⟨n + 1, hn⟩ (fun h => h0 ((hcond1_0 ⟨n + 1, hn⟩).mp h)) ((hcond1_1 ⟨n + 1, hn⟩).mpr h3) (outsAt1 c n (Nat.lt_of_succ_lt hn))
    else
      caseB V c ⟨n + 1, hn⟩ (fun h => h0 ((hcond1_0 ⟨n + 1, hn⟩).mp h)) (fun h => h3 ((hcond1_1 ⟨n + 1, hn⟩).mp h)) (outsAt1 c n (Nat.lt_of_succ_lt hn))

/-- The contents the point before `t` left (`t` not the first point). -/
abbrev prev1 (c : Dev nD) (t : Fin cfg1.N) : Vec F S1x1024x512 .f32 × Vec F S1024x1 .f32 × Vec F S1024x1 .f32 × Vec F S1024x512 .f32 × Vec F S1024x512 .bf16 := outsAt1 V c (t.val - 1) (Nat.lt_of_le_of_lt (Nat.sub_le _ _) t.isLt)

theorem outsAt1_A (c : Dev nD) (t : Fin cfg1.N) (h0 : t.val % 4 = 0) :
    outsAt1 V c t.val t.isLt = caseA V c t ((hcond1_0 t).mpr h0) (fun h => (by omega : ¬t.val % 4 = 3) ((hcond1_1 t).mp h)) := by
  obtain ⟨n, hn⟩ := t
  cases n with
  | zero => rfl
  | succ n => exact dif_pos h0

theorem outsAt1_B (c : Dev nD) (t : Fin cfg1.N) (h0 : ¬t.val % 4 = 0) (h3 : ¬t.val % 4 = 3) :
    outsAt1 V c t.val t.isLt = caseB V c t (fun h => h0 ((hcond1_0 t).mp h)) (fun h => h3 ((hcond1_1 t).mp h)) (prev1 V c t) := by
  obtain ⟨n, hn⟩ := t
  cases n with
  | zero => exact absurd (Nat.zero_mod _) h0
  | succ n => exact (dif_neg h0).trans ((dif_neg h3).trans rfl)

theorem outsAt1_C (c : Dev nD) (t : Fin cfg1.N) (h0 : ¬t.val % 4 = 0) (h3 : t.val % 4 = 3) :
    outsAt1 V c t.val t.isLt = caseC V c t (fun h => h0 ((hcond1_0 t).mp h)) ((hcond1_1 t).mpr h3) (prev1 V c t) := by
  obtain ⟨n, hn⟩ := t
  cases n with
  | zero => exact absurd (Nat.zero_mod _) h0
  | succ n => exact (dif_neg h0).trans ((dif_pos h3).trans rfl)

/-! ## The region's invariant -/

/-- The scoped rest of this region with the four scratch buffers stated as `P0 … P3`, and the generator register. -/
def PhiWith (c : Dev nD) (P0 P1 P2 P3 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P0 ∗ P1 ∗ P2 ∗ P3) ∗ (∃ r, prngReg c r))

theorem PhiA1_with (c : Dev nD) :
    (Pipeline.ΦA spec1 c : sProp 𝕄)
      = PhiWith c iprop(∃ d, owns (c : Thread nD τ) scM1_0 fullShare d) iprop(∃ d, owns (c : Thread nD τ) scM1_1 fullShare d)
          iprop(∃ d, owns (c : Thread nD τ) scM1_2 fullShare d) iprop(∃ d, owns (c : Thread nD τ) scM1_3 fullShare d) := by
  unfold PhiWith; exact PhiA1_eq c

/-- Before position `n`: before the first point every scratch buffer at anything; afterwards each at what the point
    before left in it. -/
def PhiS (c : Dev nD) : (n : ℕ) → n ≤ cfg1.N → sProp 𝕄
  | 0, _ => Pipeline.ΦA spec1 c
  | n + 1, hn => PhiWith c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2.1) (owns (c : Thread nD τ) scM1_3 fullShare (outsAt1 V c n hn).2.2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2.1) (owns (c : Thread nD τ) scM1_3 fullShare (outsAt1 V c n hn).2.2.2.2) := rfl

theorem PhiS_pos (c : Dev nD) (n : ℕ) (h : n ≤ cfg1.N) (hz : n ≠ 0) :
    PhiS V c n h = PhiWith c (owns (c : Thread nD τ) scM1_0 fullShare (outsAt1 V c (n - 1) (by omega)).2.1) (owns (c : Thread nD τ) scM1_1 fullShare (outsAt1 V c (n - 1) (by omega)).2.2.1)
      (owns (c : Thread nD τ) scM1_2 fullShare (outsAt1 V c (n - 1) (by omega)).2.2.2.1) (owns (c : Thread nD τ) scM1_3 fullShare (outsAt1 V c (n - 1) (by omega)).2.2.2.2) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Fr

end
-- ==== Proof.K.R1Body.lean ====
/-
  The second kernel region: the body's obligation at every grid point, and the hand-over of the region's invariant at its
  entry and exit.

  At a point the pipeline hands the body the three input blocks (each holding its block of the array, fetched there or
  not), the output block's buffer, and the region's invariant: the scratch buffers at anything before the first point,
  and at what the point before left afterwards. The point's residue mod 4 says which of the three cases it is in; the
  case's run applies, and what it leaves in the scratch buffers is, by definition, the contents the invariant names
  after the point. Off a last tile the output window is idle: its buffer is handed back as found.
-/
import proofs.«142818_j42760694399404_2_alg».proof.Proof.Gen.Kernel.Launch
import proofs.«142818_j42760694399404_2_alg».proof.Proof.Gen.Kernel.Skeleton
import proofs.«142818_j42760694399404_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.K.R1Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 128 := lt_of_lt_of_eq t.isLt (show cfg1.N = 128 from N_1)
  by_cases h0 : t.val % 4 = 0
  · -- a first tile
    have hn3 : ¬t.val % 4 = 3 := by omega
    have hcA0 : cond1_0 (grid1.coords t) := (hcond1_0 t).mpr h0
    have hcA1 : ¬cond1_1 (grid1.coords t) := fun h => hn3 ((hcond1_1 t).mp h)
    rw [Dat.leavesExact_idle (dat1 V c) 3 t (idleAt1_3 t (fun h => hn3 ((hcond1_1 t).mp h))) (noFlush1_3 t (fun h => hn3 ((hcond1_1 t).mp h)))]
    rw [outsAt1_A V c t h0]
    unfold caseA; dsimp only
    by_cases hz : t.val = 0
    · rw [PhiS_castSucc V c t, PhiS_zero V c _ _ hz, PhiA1_with]; unfold PhiWith
      iintro ⟨⟨⟨Ha1, Ha2, Ha3, Ha4, Ha5, Ha6, HS0, HS1, HS2, HS3⟩, Hg⟩, Ho, ⟨%d0, H0⟩, ⟨%d1, H1⟩, ⟨%d2, H2⟩, ⟨%d3, H3⟩⟩
      iapply ((runA V c t hcA0 hcA1).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%e0, HS0⟩, ⟨%e1, HS1⟩, ⟨%e2, HS2⟩, ⟨%e3, HS3⟩⟩
      isplitl [Ha1 Ha2 Ha3 Ha4 Ha5 Ha6 HS0 HS1 HS2 HS3 Hg]
      · isplitr [Hg]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [HS0]
          · unfold owns; iexists _; isplitr
            swap; · iexact HS0
            ipureintro; exact View.read_writes_of_cover _ _ _ _ _ (scovA_0 V c t hcA0 hcA1)
          isplitl [HS1]
          · unfold owns; iexists _; isplitr
            swap; · iexact HS1
            ipureintro; exact View.read_writes_of_cover _ _ _ _ _ (scovA_1 V c t hcA0 hcA1)
          isplitl [HS2]
          · unfold owns; iexists _; isplitr
            swap; · iexact HS2
            ipureintro; exact View.read_writes_of_cover _ _ _ _ _ (scovA_2 V c t hcA0 hcA1)
          unfold owns; iexists _; isplitr
          swap; · iexact HS3
          ipureintro; exact View.read_writes_of_cover _ _ _ _ _ (scovA_3 V c t hcA0 hcA1)
        · iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold PhiWith
      iintro ⟨⟨⟨Ha1, Ha2, Ha3, Ha4, Ha5, Ha6, HS0, HS1, HS2, HS3⟩, Hg⟩, Ho, ⟨%d0, H0⟩, ⟨%d1, H1⟩, ⟨%d2, H2⟩, ⟨%d3, H3⟩⟩
      iapply ((runA V c t hcA0 hcA1).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      isplitl [HS3]; · iexists _; iexact HS3
      iintro ⟨H0, H1, H2, H3, ⟨%e0, HS0⟩, ⟨%e1, HS1⟩, ⟨%e2, HS2⟩, ⟨%e3, HS3⟩⟩
      isplitl [Ha1 Ha2 Ha3 Ha4 Ha5 Ha6 HS0 HS1 HS2 HS3 Hg]
      · isplitr [Hg]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [HS0]
          · unfold owns; iexists _; isplitr
            swap; · iexact HS0
            ipureintro; exact View.read_writes_of_cover _ _ _ _ _ (scovA_0 V c t hcA0 hcA1)
          isplitl [HS1]
          · unfold owns; iexists _; isplitr
            swap; · iexact HS1
            ipureintro; exact View.read_writes_of_cover _ _ _ _ _ (scovA_1 V c t hcA0 hcA1)
          isplitl [HS2]
          · unfold owns; iexists _; isplitr
            swap; · iexact HS2
            ipureintro; exact View.read_writes_of_cover _ _ _ _ _ (scovA_2 V c t hcA0 hcA1)
          unfold owns; iexists _; isplitr
          swap; · iexact HS3
          ipureintro; exact View.read_writes_of_cover _ _ _ _ _ (scovA_3 V c t hcA0 hcA1)
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    have hcN0 : ¬cond1_0 (grid1.coords t) := fun h => h0 ((hcond1_0 t).mp h)
    by_cases h3 : t.val % 4 = 3
    · -- a last tile
      have hcC1 : cond1_1 (grid1.coords t) := (hcond1_1 t).mpr h3
      rw [show (dat1 V c).leavesExact 3 t = owns (c : Thread nD τ) (ms1_3 t) fullShare ((dat1 V c).after 3 t) from by
          unfold Dat.leavesExact; rw [liveAt1_3 t ((hcond1_1 t).mpr h3)], after1_3]
      rw [outsAt1_C V c t h0 h3]
      unfold caseC; dsimp only
      rw [PhiS_castSucc V c t, PhiS_pos V c _ _ hz]; unfold PhiWith
      iintro ⟨⟨⟨Ha1, Ha2, Ha3, Ha4, Ha5, Ha6, HS0, HS1, HS2, HS3⟩, Hg⟩, Ho, ⟨%d0, H0⟩, ⟨%d1, H1⟩, ⟨%d2, H2⟩, ⟨%d3, H3⟩⟩
      iapply ((runC V c t hcN0 hcC1 (prev1 V c t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, ⟨%e0, HS0⟩, ⟨%e1, HS1⟩, ⟨%e2, HS2⟩, HS3⟩
      isplitl [Ha1 Ha2 Ha3 Ha4 Ha5 Ha6 HS0 HS1 HS2 HS3 Hg]
      · isplitr [Hg]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [HS0]
          · unfold owns; iexists _; isplitr
            swap; · iexact HS0
            ipureintro; exact View.read_writes_of_cover _ _ _ _ _ (scovC_0 V c t hcN0 hcC1 _)
          isplitl [HS1]
          · unfold owns; iexists _; isplitr
            swap; · iexact HS1
            ipureintro; exact View.read_writes_of_cover _ _ _ _ _ (scovC_1 V c t hcN0 hcC1 _)
          isplitl [HS2]
          · unfold owns; iexists _; isplitr
            swap; · iexact HS2
            ipureintro; exact View.read_writes_of_cover _ _ _ _ _ (scovC_2 V c t hcN0 hcC1 _)
          iexact HS3
        · iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (covC_3 V c t hcN0 hcC1 _)
    · -- a middle tile
      have hcB1 : ¬cond1_1 (grid1.coords t) := fun h => h3 ((hcond1_1 t).mp h)
      rw [Dat.leavesExact_idle (dat1 V c) 3 t (idleAt1_3 t (fun h => h3 ((hcond1_1 t).mp h))) (noFlush1_3 t (fun h => h3 ((hcond1_1 t).mp h)))]
      rw [outsAt1_B V c t h0 h3]
      unfold caseB; dsimp only
      rw [PhiS_castSucc V c t, PhiS_pos V c _ _ hz]; unfold PhiWith
      iintro ⟨⟨⟨Ha1, Ha2, Ha3, Ha4, Ha5, Ha6, HS0, HS1, HS2, HS3⟩, Hg⟩, Ho, ⟨%d0, H0⟩, ⟨%d1, H1⟩, ⟨%d2, H2⟩, ⟨%d3, H3⟩⟩
      iapply ((runB V c t hcN0 hcB1 (prev1 V c t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%e0, HS0⟩, ⟨%e1, HS1⟩, ⟨%e2, HS2⟩, HS3⟩
      isplitl [Ha1 Ha2 Ha3 Ha4 Ha5 Ha6 HS0 HS1 HS2 HS3 Hg]
      · isplitr [Hg]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [HS0]
          · unfold owns; iexists _; isplitr
            swap; · iexact HS0
            ipureintro; exact View.read_writes_of_cover _ _ _ _ _ (scovB_0 V c t hcN0 hcB1 _)
          isplitl [HS1]
          · unfold owns; iexists _; isplitr
            swap; · iexact HS1
            ipureintro; exact View.read_writes_of_cover _ _ _ _ _ (scovB_1 V c t hcN0 hcB1 _)
          isplitl [HS2]
          · unfold owns; iexists _; isplitr
            swap; · iexact HS2
            ipureintro; exact View.read_writes_of_cover _ _ _ _ _ (scovB_2 V c t hcN0 hcB1 _)
          iexact HS3
        · iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_with]; unfold PhiWith
  iintro ⟨⟨Ha1, Ha2, Ha3, Ha4, Ha5, Ha6, HS0, HS1, HS2, HS3⟩, Hg⟩
  isplitr [Hg]
  · isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [HS0]; · iexists _; iexact HS0
    isplitl [HS1]; · iexists _; iexact HS1
    isplitl [HS2]; · iexists _; iexact HS2
    iexists _; iexact HS3
  · iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Fr

end
-- ==== Proof.K.Run.lean ====
/-
  The run of the whole program on the TensorCore: host operations (transpose the weights, reshape the bias and the
  queries), the linear-layer region, a reshape of its result, the attention region.

  The buffer contents at each boundary are a fold from the launch memory: a host stretch applies its operations; a
  region leaves each of its arrays at what its write-backs, folded over the grid, leave there, and every other buffer
  as it found it. Each region is entered from "every unscoped buffer at the boundary's contents, the generator
  register at some state, nothing owed" and left at the same with the next boundary's contents. The launch then says:
  every weakly fair execution terminates, faulting nowhere, and every unscoped buffer ends at the last boundary's
  contents. Read at an argument the fold walks back to the launch memory (no host operation and no region writes
  one); read at the result it is what the attention region's write-backs leave.
-/
import proofs.«142818_j42760694399404_2_alg».proof.Proof.Gen.Kernel.Launch
import proofs.«142818_j42760694399404_2_alg».proof.Proof.Gen.Kernel.Skeleton
import proofs.«142818_j42760694399404_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.K.Region0
import proofs.«142818_j42760694399404_2_alg».proof.Proof.K.R1Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev Wa0 : Dev nD → Valuation τ sig (Elt F) := fun c b => (s₀ m ρ).mem ((c : Dev nD), b)
abbrev Wa1 : Dev nD → Valuation τ sig (Elt F) := fun c => StableHlo.after hostOps0 (Wa0 m ρ c)
abbrev Va1 : (c : Dev nD) → (b : Ref sig .tc) → Buf (Elt F) ((c : Thread nD τ).loc b) := fun c b => Wa1 m ρ c b
def Wa2 (c : Dev nD) : Valuation τ sig (Elt F) :=
  Pipeline.withArrays spec0 c (Wa1 m ρ c) fun w => (dat0 (Va1 m ρ) c).arrAt w cfg0.N
theorem Wa2_arr (c : Dev nD) (w : Fin cfg0.W) :
    Wa2 m ρ c (Proc.devRef .tc (Pipeline.arrRef spec0 w)) = (dat0 (Va1 m ρ) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m ρ c (Proc.devRef .tc b) = Wa1 m ρ c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m ρ c b
theorem hF0 (c : Dev nD) (w : Fin cfg0.W) : (dat0 (Va1 m ρ) c).arrAt w cfg0.N = Va2 m ρ c (Pipeline.arrRef spec0 w) :=
  (Wa2_arr m ρ c w).symm
theorem hrest0 (c : Dev nD) : ∀ b, b ∉ Finset.univ.image (Pipeline.arrRef spec0) → Va2 m ρ c b = Va1 m ρ c b :=
  fun b hb => Wa2_of_ne m ρ c b fun w e => hb (Finset.mem_image.mpr ⟨w, Finset.mem_univ _, e⟩)

abbrev Wa3 : Dev nD → Valuation τ sig (Elt F) := fun c => StableHlo.after hostOps1 (Wa2 m ρ c)
abbrev Va3 : (c : Dev nD) → (b : Ref sig .tc) → Buf (Elt F) ((c : Thread nD τ).loc b) := fun c b => Wa3 m ρ c b
def Wa4 (c : Dev nD) : Valuation τ sig (Elt F) :=
  Pipeline.withArrays spec1 c (Wa3 m ρ c) fun w => (dat1 (Va3 m ρ) c).arrAt w cfg1.N
theorem Wa4_arr (c : Dev nD) (w : Fin cfg1.W) :
    Wa4 m ρ c (Proc.devRef .tc (Pipeline.arrRef spec1 w)) = (dat1 (Va3 m ρ) c).arrAt w cfg1.N := by
  unfold Wa4; exact Pipeline.withArrays_arr spec1 launch1.win.arr_inj c _ _ w
theorem Wa4_of_ne (c : Dev nD) (b : Ref sig .tc) (hb : ∀ w, Pipeline.arrRef spec1 w ≠ b) :
    Wa4 m ρ c (Proc.devRef .tc b) = Wa3 m ρ c (Proc.devRef .tc b) := by
  unfold Wa4; exact Pipeline.withArrays_of_ne spec1 c _ _ b hb
abbrev Va4 : (c : Dev nD) → (b : Ref sig .tc) → Buf (Elt F) ((c : Thread nD τ).loc b) := fun c b => Wa4 m ρ c b
theorem hF1 (c : Dev nD) (w : Fin cfg1.W) : (dat1 (Va3 m ρ) c).arrAt w cfg1.N = Va4 m ρ c (Pipeline.arrRef spec1 w) :=
  (Wa4_arr m ρ c w).symm
theorem hrest1 (c : Dev nD) : ∀ b, b ∉ Finset.univ.image (Pipeline.arrRef spec1) → Va4 m ρ c b = Va3 m ρ c b :=
  fun b hb => Wa4_of_ne m ρ c b fun w e => hb (Finset.mem_image.mpr ⟨w, Finset.mem_univ _, e⟩)

/-! ### The arguments end as launched -/

theorem Wa4_main_arg0 (c : Dev nD) : Wa4 m ρ c (Proc.devRef .tc main_arg0) = m ((c : Thread nD τ).loc main_arg0) :=
  calc Wa4 m ρ c (Proc.devRef .tc main_arg0)
    _ = Wa3 m ρ c (Proc.devRef .tc main_arg0) := (Wa4_arr m ρ c 2).trans (((dat1 (Va3 m ρ) c).arrAt_in 2 rfl _).trans (A_eq1 (Va3 m ρ) c 2))
    _ = Wa2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa1 m ρ c (Proc.devRef .tc main_arg0) := Wa2_of_ne m ρ c main_arg0 (by decide)
    _ = Wa0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem Wa4_main_arg1 (c : Dev nD) : Wa4 m ρ c (Proc.devRef .tc main_arg1) = m ((c : Thread nD τ).loc main_arg1) :=
  calc Wa4 m ρ c (Proc.devRef .tc main_arg1)
    _ = Wa3 m ρ c (Proc.devRef .tc main_arg1) := (Wa4_arr m ρ c 0).trans (((dat1 (Va3 m ρ) c).arrAt_in 0 rfl _).trans (A_eq1 (Va3 m ρ) c 0))
    _ = Wa2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa1 m ρ c (Proc.devRef .tc main_arg1) := Wa2_of_ne m ρ c main_arg1 (by decide)
    _ = Wa0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem Wa4_main_arg2 (c : Dev nD) : Wa4 m ρ c (Proc.devRef .tc main_arg2) = m ((c : Thread nD τ).loc main_arg2) :=
  calc Wa4 m ρ c (Proc.devRef .tc main_arg2)
    _ = Wa3 m ρ c (Proc.devRef .tc main_arg2) := Wa4_of_ne m ρ c main_arg2 (by decide)
    _ = Wa2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa1 m ρ c (Proc.devRef .tc main_arg2) := Wa2_of_ne m ρ c main_arg2 (by decide)
    _ = Wa0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem Wa4_main_arg3 (c : Dev nD) : Wa4 m ρ c (Proc.devRef .tc main_arg3) = m ((c : Thread nD τ).loc main_arg3) :=
  calc Wa4 m ρ c (Proc.devRef .tc main_arg3)
    _ = Wa3 m ρ c (Proc.devRef .tc main_arg3) := Wa4_of_ne m ρ c main_arg3 (by decide)
    _ = Wa2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa1 m ρ c (Proc.devRef .tc main_arg3) := Wa2_of_ne m ρ c main_arg3 (by decide)
    _ = Wa0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev admF : (p : Fin 2) → (pcfgs (F := F) p).Adm := fun p => (cfgs p).toPCfg_adm
def pdatsF : (p : Fin 2) → (c : Dev nD) → Dat τ (Elt F) Unit ℕ (UR sig nD τ) ℕ (Pipeline.pin (pcfgs (F := F)) admF p) c
  | ⟨0, _⟩ => fun c => dat0 (Va1 m ρ) c
  | ⟨1, _⟩ => fun c => dat1 (Va3 m ρ) c
abbrev 𝒱F : Variants := Variants.none
abbrev LF : GSem nD τ sig → Finset Unit := fun _ => ∅
abbrev lvF : GSem nD τ sig → Unit → ℕ := fun _ _ => 0
/-- What rides beside the buffers through every segment: the generator register at some state, nothing owed. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF

theorem hostOps0_freshF : (hostOps0 : List (HloOp τ sig (Elt F))).Forall fun op => op.fresh = ∅ := by
  simp only [List.Forall]; repeat' constructor
theorem hostOps1_freshF : (hostOps1 : List (HloOp τ sig (Elt F))).Forall fun op => op.fresh = ∅ := by
  simp only [List.Forall]; repeat' constructor
theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnF (c : Dev nD) : sProp 𝕄 := iprop(StableHlo.held (c : Thread nD τ) (Pipeline.ucRefs τ sig) (Wa4 m ρ c) ∗ ∃ r, prngReg c r)

/-! ## The regions as segments -/

set_option backward.isDefEq.respectTransparency.types false in
def regF0 : Pipeline.RegionSeg (pcfgs (F := F)) admF (pdatsF m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ LF lvF 0 fun _ _ => rfl
  pre c := iprop(StableHlo.held (c : Thread nD τ) (Pipeline.ucRefs τ sig) (Wa1 m ρ c) ∗ RF c)
  post c := iprop(StableHlo.held (c : Thread nD τ) (Pipeline.ucRefs τ sig) (Wa2 m ρ c) ∗ RF c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) admF (pdatsF m ρ) launch0.win launch0.arr_whole c
      ((pdatsF m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m ρ) ((pdatsF m ρ 0 c).share_full fun _ => rfl)
      (Va1 m ρ c) (Va2 m ρ c) ((pdatsF m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regF1 : Pipeline.RegionSeg (pcfgs (F := F)) admF (pdatsF m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (Va3 m ρ) c).loose
  hwaits := Pipeline.hwaits_of_owed_zero _ _ _ _ LF lvF 1 fun _ _ => rfl
  pre c := iprop(StableHlo.held (c : Thread nD τ) (Pipeline.ucRefs τ sig) (Wa3 m ρ c) ∗ RF c)
  post c := iprop(TnF m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m ρ c)
  hentry c := by
    rw [Pipeline.ownSems0_none]
    have hsplit := Pipeline.arrays_of_unscopedBufs (p := 1) (pcfgs (F := F)) admF (pdatsF m ρ) launch1.win launch1.arr_whole c
      ((pdatsF m ρ 1 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdatsF m ρ 1 c).Φ (Fin.last _) ⊢ (iprop((Pipeline.scopedRest spec1 c : sProp 𝕄) ∗ ∃ r, prngReg c r) : sProp 𝕄) := by
      have h := hout1 (Va3 m ρ) c; unfold Pipeline.ΦA at h; exact h
    iintro Hphi
    ihave H := hΦ $$ Hphi
    icases H with ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m ρ) ((pdatsF m ρ 1 c).share_full fun _ => rfl)
      (Va3 m ρ c) (Va4 m ρ c) ((pdatsF m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsF : List (Pipeline.Seg (pcfgs (F := F)) admF (pdatsF m ρ) () defs₀ 𝒱F LF lvF) :=
  [ .host (hsegF hostOps0 hostOps0_sub hostOps0_freshF (Wa0 m ρ)),
    .region (regF0 m ρ),
    .host (hsegF hostOps1 hostOps1_sub hostOps1_freshF (Wa2 m ρ)),
    .region (regF1 m ρ) ]
theorem main_runF (c : Dev nD) : main (F := F) c = Pipeline.Seg.run (segsF m ρ) := (main_chain c).trans (by chain_rfl)

set_option backward.isDefEq.respectTransparency.types false in
/-- THE RUN: from any memory with zero counters every weakly fair execution of the program terminates, nothing faulting,
    and every unscoped buffer ends at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = Wa4 m ρ c (Proc.devRef .tc b)) :=
  Pipeline.θ_run_regions_kit (pcfgs (F := F)) admF (pdatsF m ρ) () cellOf_inj emb₁ defs₀ 𝒱F LF lvF m ρ main (segsF m ρ)
    (fun c Q => by rw [main_runF m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ RF c)) (Tₙ := TnF m ρ)
    (hch := ⟨fun _ => .rfl, fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa4 m ρ c) s')
      isplitl [Hh] <;> iassumption)
    (hQ := fun s h c b hb => h c _ (mem_ucF b hb))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (Wa4_main_arg0 m ρ c), (h c main_arg1 (by decide)).trans (Wa4_main_arg1 m ρ c),
     (h c main_arg2 (by decide)).trans (Wa4_main_arg2 m ρ c), (h c main_arg3 (by decide)).trans (Wa4_main_arg3 m ρ c)⟩) (run_all m ρ)

/-- The result array ends at what the attention region's write-backs leave, and the arguments as launched. -/
theorem run_value : θ_run defs (onTc (τ := τ) (main (F := F))) ⟨m, fun _ => 0, ρ⟩ (fun r => ∀ c : Dev nD,
      r.2.mem ((c.tc : Thread nD τ).loc main_v5) = (dat1 (Va3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_v5 (by decide)).trans (Wa4_arr m ρ c 3),
     (h c main_arg0 (by decide)).trans (Wa4_main_arg0 m ρ c), (h c main_arg1 (by decide)).trans (Wa4_main_arg1 m ρ c),
     (h c main_arg2 (by decide)).trans (Wa4_main_arg2 m ρ c), (h c main_arg3 (by decide)).trans (Wa4_main_arg3 m ρ c)⟩) (run_all m ρ)

end Cert.Kernel.Fr

end
-- ==== Proof.KI.Region0.lean ====
/-
  The first kernel region (the linear layer), on one core, at the buffer contents `V` the region is entered with.

  Its grid has 16 points; point `t` is handed rows `2048 t … 2048 t + 2047` of the flattened input (window 0), the whole
  transposed weight matrix (window 1) and the bias row (window 2), and stores into the output window's block ONE value,
  the product of the two plus the bias row broadcast down the rows. So the output buffer after the body is that one
  stored value, a function of the three input blocks; nothing is kept between points.
-/
import proofs.«142818_j42760694399404_2_alg».proof.Proof.Gen.KernelIdeal.Launch
import proofs.«142818_j42760694399404_2_alg».proof.Proof.Gen.KernelIdeal.Skeleton
import proofs.«142818_j42760694399404_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA : Rect S2048x512 := Rect.unit (s := S2048x512) ![0, 0] S2048x512.size inb_S2048x512_S2048x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- The output window's buffer after the body, from the three input blocks: its one store. -/
def out0_3 (x0 : Vec F S2048x512 .f32) (x1 : Vec F S512x512 .f32) (x2 : Vec F S1x512 .f32) : Vec F S2048x512 .bf16 :=
  View.canon [⟨rA, k0_pay1 (View.ld x0 rA) (View.ld x1 rW) (View.ld x2 rB)⟩]

/-- The one store covers the buffer. -/
theorem cover0_3 (p0 : Vec F S2048x512 .bf16) (y : S2048x512.Idx) :
    ∃ pc ∈ ([⟨rA, p0⟩] : List (View.Piece (Elt F) S2048x512 .bf16)), y ∈ pc.1.set :=
  View.cover_of_tiled [⟨rA, p0⟩] S2048x512.size (by rfl) y

/-! ## The body's triple -/

set_option maxHeartbeats 1000000 in
/-- On whole staging memrefs, the inputs' at contents `x0 x1 x2` and the output's at anything, the body runs to the
    continuation with the inputs' as they were and the output's at `out0_3` of them. -/
theorem sound_kernel0 (c : Dev nD) (E : Set ℕ) (i : grid0.Coords)
    (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's
    at `out0_3` of the input blocks; the invariant only the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Kit.lean ====
/-
  The second kernel region (attention with a running softmax), on one core: what its three control cases share.

  The grid is 16 × 2 × 4: batch, query tile of 1024 rows, key/value tile of 512 rows, the last axis innermost. The body
  branches twice on the key/value coordinate `kv`: at `kv = 0` it resets its four scratch buffers (running maximum,
  running normaliser, running weighted sum, and tanh of the query tile); at `kv = 3` it divides, applies tanh and
  stores the output block, which is written back at those points only and left idle at the others. So a point is in
  one of three cases: first tile (reset, no output), middle tiles (neither), last tile (output).
-/
import proofs.«142818_j42760694399404_2_alg».proof.Proof.Gen.KernelIdeal.Launch
import proofs.«142818_j42760694399404_2_alg».proof.Proof.Gen.KernelIdeal.Skeleton
import proofs.«142818_j42760694399404_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved: the query tile is fetched once per four points). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "This is the first key/value tile" (`kv = 0`), as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key/value tile" (`kv = 3`). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last tile the output window is idle (the body stores nothing into it) -/
theorem idleAt1_3 : ∀ t : Fin cfg1.N, ¬cond1_1 (grid1.coords t) → cfg1.idle 3 (grid1.coords t) = true := by decide +kernel
/-- and is not written back; -/
theorem noFlush1_3 : ∀ t : Fin cfg1.N, ¬cond1_1 (grid1.coords t) → (cfg1.win 3).flush t = false := by decide +kernel
/-- on the last tile it is live. -/
theorem liveAt1_3 : ∀ t : Fin cfg1.N, cond1_1 (grid1.coords t) → cfg1.idle 3 (grid1.coords t) = false := by decide +kernel

/-! ## The memrefs the body is called with -/

/-- One staging buffer of the output window, through which its contents are stated (the choice does not matter). -/
abbrev VO1_3 : View sig .tc .vmem S1x1024x512 .f32 := (Memref.whole cc1_stg3_0 : Memref sig .tc .vmem S1x1024x512 .f32).view
abbrev ms1_0 (t : Fin cfg1.N) : Memref sig .tc .vmem S1x1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .f32 := win1_3.stage (cfg1.slots t 3)
abbrev hs1_3 (t : Fin cfg1.N) : (ms1_3 t).IsWhole := hstage1_3 ((cfg1.slots t 3).cast nbuf1_3)
/-- The four scratch operands: running maximum, running normaliser, running weighted sum, tanh of the query tile. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x512 .f32 := Memref.whole cc1_scratch2
abbrev scM1_3 : Memref sig .tc .vmem S1024x512 .bf16 := Memref.whole cc1_scratch3
abbrev VS1_0 : View sig .tc .vmem S1024x1 .f32 := scM1_0.view
abbrev VS1_1 : View sig .tc .vmem S1024x1 .f32 := scM1_1.view
abbrev VS1_2 : View sig .tc .vmem S1024x512 .f32 := scM1_2.view
abbrev VS1_3 : View sig .tc .vmem S1024x512 .bf16 := scM1_3.view

/-- The scoped rest of this region (every scoped buffer that is no staging buffer of it, each at some contents) with the
    four scratch buffers split off as memrefs owned at some contents, beside the other region's staging buffers. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Fr

end
-- ==== Proof.KI.R1RunA.lean ====
/-
  The attention body at a FIRST key/value tile (`kv = 0`, not the last): it overwrites all four scratch buffers before
  reading any of them, so they may be handed to it at anything; it stores nothing into the output block, which it hands
  back as found. What each scratch buffer ends with is a list of whole-buffer stores, found by running the body.
-/
import proofs.«142818_j42760694399404_2_alg».proof.Proof.Gen.KernelIdeal.Launch
import proofs.«142818_j42760694399404_2_alg».proof.Proof.Gen.KernelIdeal.Skeleton
import proofs.«142818_j42760694399404_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.KI.R1Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each scratch buffer ends with in this case, with the body's triple: on whole memrefs — the three inputs'
    at their contents, the output's at contents handed back untouched, the scratch buffers' at anything — the body runs
    to the continuation holding the inputs' and the output's as they were and each scratch with its pieces written. -/
noncomputable def kernelRun1_A (c : Dev nD) (i : grid1.Coords) (arg3 : Memref sig .tc .vmem S1x1024x512 .f32) (harg3 : arg3.IsWhole) (arg4 : Memref sig .tc .vmem S1x512x512 .bf16) (harg4 : arg4.IsWhole) (arg5 : Memref sig .tc .vmem S1x512x512 .f32) (harg5 : arg5.IsWhole) (arg6 : Memref sig .tc .vmem S1x1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (arg10 : Memref sig .tc .vmem S1024x512 .bf16) (harg10 : arg10.IsWhole) (hc0 : cond1_0 i) (hc1 : ¬cond1_1 i)
    (x0 : Vec F S1x1024x512 .f32) (x1 : Vec F S1x512x512 .bf16) (x2 : Vec F S1x512x512 .f32) :
    Σ' (LS0 : List (View.Piece (Elt F) S1024x1 .f32)) (LS1 : List (View.Piece (Elt F) S1024x1 .f32)) (LS2 : List (View.Piece (Elt F) S1024x512 .f32)), { LS3 : List (View.Piece (Elt F) S1024x512 .bf16) //
      ∀ (xi3 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    isplitl [HS2]; · iexists _; iexact HS2
    iexists _; iexact HS3

end Cert.KernelIdeal.Fr

end
-- ==== Proof.KI.R1RunB.lean ====
/-
  The attention body at a MIDDLE key/value tile (`kv` neither 0 nor 3): it reads the four scratch buffers as the tile
  before left them, rescales and adds this tile's contribution into the first three, leaves the fourth (tanh of the query
  tile) as it was, and stores nothing into the output block.
-/
import proofs.«142818_j42760694399404_2_alg».proof.Proof.Gen.KernelIdeal.Launch
import proofs.«142818_j42760694399404_2_alg».proof.Proof.Gen.KernelIdeal.Skeleton
import proofs.«142818_j42760694399404_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.KI.R1Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the running maximum, normaliser and weighted sum end with in this case, with the body's triple: the
    scratch buffers enter at the contents `xs·` the tile before left; the fourth is handed back at `xs3`. -/
noncomputable def kernelRun1_B (c : Dev nD) (i : grid1.Coords) (arg3 : Memref sig .tc .vmem S1x1024x512 .f32) (harg3 : arg3.IsWhole) (arg4 : Memref sig .tc .vmem S1x512x512 .bf16) (harg4 : arg4.IsWhole) (arg5 : Memref sig .tc .vmem S1x512x512 .f32) (harg5 : arg5.IsWhole) (arg6 : Memref sig .tc .vmem S1x1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (arg10 : Memref sig .tc .vmem S1024x512 .bf16) (harg10 : arg10.IsWhole) (hc0 : ¬cond1_0 i) (hc1 : ¬cond1_1 i)
    (x0 : Vec F S1x1024x512 .f32) (x1 : Vec F S1x512x512 .bf16) (x2 : Vec F S1x512x512 .f32)
    (xs0 : Vec F S1024x1 .f32) (xs1 : Vec F S1024x1 .f32) (xs2 : Vec F S1024x512 .f32) (xs3 : Vec F S1024x512 .bf16) :
    Σ' (LS0 : List (View.Piece (Elt F) S1024x1 .f32)) (LS1 : List (View.Piece (Elt F) S1024x1 .f32)), { LS2 : List (View.Piece (Elt F) S1024x512 .f32) //
      ∀ (xi3 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    isplitl [HS2]; · iexists _; iexact HS2
    iexists _; isplitr; · ipureintro; exact harg10.read_unread _
    iexact HS3

end Cert.KernelIdeal.Fr

end
-- ==== Proof.KI.R1RunC.lean ====
/-
  The attention body at a LAST key/value tile (`kv = 3`): as at a middle tile, and then it divides the weighted sum by the
  normaliser, applies tanh and stores the result over the whole output block.
-/
import proofs.«142818_j42760694399404_2_alg».proof.Proof.Gen.KernelIdeal.Launch
import proofs.«142818_j42760694399404_2_alg».proof.Proof.Gen.KernelIdeal.Skeleton
import proofs.«142818_j42760694399404_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.KI.R1Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output block and the first three scratch buffers end with in this case, with the body's triple: the
    output's memref enters at anything, the scratch buffers at the contents `xs·` the tile before left. -/
noncomputable def kernelRun1_C (c : Dev nD) (i : grid1.Coords) (arg3 : Memref sig .tc .vmem S1x1024x512 .f32) (harg3 : arg3.IsWhole) (arg4 : Memref sig .tc .vmem S1x512x512 .bf16) (harg4 : arg4.IsWhole) (arg5 : Memref sig .tc .vmem S1x512x512 .f32) (harg5 : arg5.IsWhole) (arg6 : Memref sig .tc .vmem S1x1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (arg10 : Memref sig .tc .vmem S1024x512 .bf16) (harg10 : arg10.IsWhole) (hc0 : ¬cond1_0 i) (hc1 : cond1_1 i)
    (x0 : Vec F S1x1024x512 .f32) (x1 : Vec F S1x512x512 .bf16) (x2 : Vec F S1x512x512 .f32)
    (xs0 : Vec F S1024x1 .f32) (xs1 : Vec F S1024x1 .f32) (xs2 : Vec F S1024x512 .f32) (xs3 : Vec F S1024x512 .bf16) :
    Σ' (L3 : List (View.Piece (Elt F) S1x1024x512 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    isplitl [HS2]; · iexists _; iexact HS2
    iexists _; isplitr; · ipureintro; exact harg10.read_unread _
    iexact HS3

end Cert.KernelIdeal.Fr

end
-- ==== Proof.KI.R1Frame.lean ====
/-
  The second kernel region (attention with a running softmax), on one core, at the buffer contents `V` the region is
  entered with: what its scratch buffers and its output block hold after every grid point, and the body's obligation.

  Point `t` is key/value tile `t mod 4` of query tile `t / 4`. At a first tile the four scratch buffers are reset and
  then updated from this tile alone; at a later tile they are updated from what the point before left (the scratch
  is the kernel's own and nothing else touches it between two points); at a last tile the output block is stored as
  well. So the contents are defined by recursion on the point, one clause per case, and the region's invariant before
  a point names the scratch buffers at what the point before left.
-/
import proofs.«142818_j42760694399404_2_alg».proof.Proof.Gen.KernelIdeal.Launch
import proofs.«142818_j42760694399404_2_alg».proof.Proof.Gen.KernelIdeal.Skeleton
import proofs.«142818_j42760694399404_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.KI.R1RunA
import proofs.«142818_j42760694399404_2_alg».proof.Proof.KI.R1RunB
import proofs.«142818_j42760694399404_2_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

/-- The body's run at a first tile, at the point's memrefs and input blocks. -/
def runA (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) h0 h1 (iblk1 V c 0 t) (iblk1 V c 1 t) (iblk1 V c 2 t)

/-- The body's run at a middle tile, the scratch buffers entering at `p`. -/
def runB (c : Dev nD) (t : Fin cfg1.N) (h0 : ¬cond1_0 (grid1.coords t)) (h1 : ¬cond1_1 (grid1.coords t)) (p : Vec F S1x1024x512 .f32 × Vec F S1024x1 .f32 × Vec F S1024x1 .f32 × Vec F S1024x512 .f32 × Vec F S1024x512 .bf16) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) h0 h1 (iblk1 V c 0 t) (iblk1 V c 1 t) (iblk1 V c 2 t) p.2.1 p.2.2.1 p.2.2.2.1 p.2.2.2.2

/-- The body's run at a last tile, the scratch buffers entering at `p`. -/
def runC (c : Dev nD) (t : Fin cfg1.N) (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) h0 h1 (iblk1 V c 0 t) (iblk1 V c 1 t) (iblk1 V c 2 t) p.2.1 p.2.2.1 p.2.2.2.1 p.2.2.2.2

/-! Each case's stores into a buffer are whole-buffer stores, so they cover it. -/
section covers
variable (c : Dev nD) (t : Fin cfg1.N)
theorem scovA_0 (h0 : cond1_0 (grid1.coords t)) (h1 : ¬cond1_1 (grid1.coords t)) (y : S1024x1.Idx) : ∃ pc ∈ (runA V c t h0 h1).1, y ∈ pc.1.set :=
  View.cover_of_tiledL (runA V c t h0 h1).1 S1024x1.size (by sl_kernel_rfl) y
theorem scovA_1 (h0 : cond1_0 (grid1.coords t)) (h1 : ¬cond1_1 (grid1.coords t)) (y : S1024x1.Idx) : ∃ pc ∈ (runA V c t h0 h1).2.1, y ∈ pc.1.set :=
  View.cover_of_tiledL (runA V c t h0 h1).2.1 S1024x1.size (by sl_kernel_rfl) y
theorem scovA_2 (h0 : cond1_0 (grid1.coords t)) (h1 : ¬cond1_1 (grid1.coords t)) (y : S1024x512.Idx) : ∃ pc ∈ (runA V c t h0 h1).2.2.1, y ∈ pc.1.set :=
  View.cover_of_tiledL (runA V c t h0 h1).2.2.1 S1024x512.size (by sl_kernel_rfl) y
theorem scovA_3 (h0 : cond1_0 (grid1.coords t)) (h1 : ¬cond1_1 (grid1.coords t)) (y : S1024x512.Idx) : ∃ pc ∈ (runA V c t h0 h1).2.2.2.1, y ∈ pc.1.set :=
  View.cover_of_tiledL (runA V c t h0 h1).2.2.2.1 S1024x512.size (by sl_kernel_rfl) y
theorem scovB_0 (h0 : ¬cond1_0 (grid1.coords t)) (h1 : ¬cond1_1 (grid1.coords t)) (p : Vec F S1x1024x512 .f32 × Vec F S1024x1 .f32 × Vec F S1024x1 .f32 × Vec F S1024x512 .f32 × Vec F S1024x512 .bf16) (y : S1024x1.Idx) : ∃ pc ∈ (runB V c t h0 h1 p).1, y ∈ pc.1.set :=
  View.cover_of_tiledL (runB V c t h0 h1 p).1 S1024x1.size (by sl_kernel_rfl) y
theorem scovB_1 (h0 : ¬cond1_0 (grid1.coords t)) (h1 : ¬cond1_1 (grid1.coords t)) (p : Vec F S1x1024x512 .f32 × Vec F S1024x1 .f32 × Vec F S1024x1 .f32 × Vec F S1024x512 .f32 × Vec F S1024x512 .bf16) (y : S1024x1.Idx) : ∃ pc ∈ (runB V c t h0 h1 p).2.1, y ∈ pc.1.set :=
  View.cover_of_tiledL (runB V c t h0 h1 p).2.1 S1024x1.size (by sl_kernel_rfl) y
theorem scovB_2 (h0 : ¬cond1_0 (grid1.coords t)) (h1 : ¬cond1_1 (grid1.coords t)) (p : Vec F S1x1024x512 .f32 × Vec F S1024x1 .f32 × Vec F S1024x1 .f32 × Vec F S1024x512 .f32 × Vec F S1024x512 .bf16) (y : S1024x512.Idx) : ∃ pc ∈ (runB V c t h0 h1 p).2.2.1, y ∈ pc.1.set :=
  View.cover_of_tiledL (runB V c t h0 h1 p).2.2.1 S1024x512.size (by sl_kernel_rfl) y
theorem covC_3 (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) (y : S1x1024x512.Idx) : ∃ pc ∈ (runC V c t h0 h1 p).1, y ∈ pc.1.set :=
  View.cover_of_tiledL (runC V c t h0 h1 p).1 S1x1024x512.size (by sl_kernel_rfl) y
theorem scovC_0 (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) (y : S1024x1.Idx) : ∃ pc ∈ (runC V c t h0 h1 p).2.1, y ∈ pc.1.set :=
  View.cover_of_tiledL (runC V c t h0 h1 p).2.1 S1024x1.size (by sl_kernel_rfl) y
theorem scovC_1 (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) (y : S1024x1.Idx) : ∃ pc ∈ (runC V c t h0 h1 p).2.2.1, y ∈ pc.1.set :=
  View.cover_of_tiledL (runC V c t h0 h1 p).2.2.1 S1024x1.size (by sl_kernel_rfl) y
theorem scovC_2 (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) (y : S1024x512.Idx) : ∃ pc ∈ (runC V c t h0 h1 p).2.2.2.1, y ∈ pc.1.set :=
  View.cover_of_tiledL (runC V c t h0 h1 p).2.2.2.1 S1024x512.size (by sl_kernel_rfl) y
end covers

/-- An output block nobody stored into: a placeholder nothing consults (at such a point the window is neither written
    back nor read at the next point). -/
def noOut : Vec F S1x1024x512 .f32 := VO1_3.read (Elt F) (VO1_3.writes (Elt F) VO1_3.junk [])

/-- After a first tile: the output block untouched, each scratch buffer its pieces read back. -/
def caseA (c : Dev nD) (t : Fin cfg1.N) (h0 : cond1_0 (grid1.coords t)) (h1 : ¬cond1_1 (grid1.coords t)) : Vec F S1x1024x512 .f32 × Vec F S1024x1 .f32 × Vec F S1024x1 .f32 × Vec F S1024x512 .f32 × Vec F S1024x512 .bf16 :=
  (noOut, VS1_0.read (Elt F) (VS1_0.writes (Elt F) VS1_0.junk (runA V c t h0 h1).1),
    VS1_1.read (Elt F) (VS1_1.writes (Elt F) VS1_1.junk (runA V c t h0 h1).2.1),
    VS1_2.read (Elt F) (VS1_2.writes (Elt F) VS1_2.junk (runA V c t h0 h1).2.2.1),
    VS1_3.read (Elt F) (VS1_3.writes (Elt F) VS1_3.junk (runA V c t h0 h1).2.2.2.1))

/-- After a middle tile, from what the point before left (`p`); tanh of the query tile stays. -/
def caseB (c : Dev nD) (t : Fin cfg1.N) (h0 : ¬cond1_0 (grid1.coords t)) (h1 : ¬cond1_1 (grid1.coords t)) (p : Vec F S1x1024x512 .f32 × Vec F S1024x1 .f32 × Vec F S1024x1 .f32 × Vec F S1024x512 .f32 × Vec F S1024x512 .bf16) : Vec F S1x1024x512 .f32 × Vec F S1024x1 .f32 × Vec F S1024x1 .f32 × Vec F S1024x512 .f32 × Vec F S1024x512 .bf16 :=
  (noOut, VS1_0.read (Elt F) (VS1_0.writes (Elt F) VS1_0.junk (runB V c t h0 h1 p).1),
    VS1_1.read (Elt F) (VS1_1.writes (Elt F) VS1_1.junk (runB V c t h0 h1 p).2.1),
    VS1_2.read (Elt F) (VS1_2.writes (Elt F) VS1_2.junk (runB V c t h0 h1 p).2.2.1),
    p.2.2.2.2)

/-- After a last tile, from what the point before left; the output block its store read back. -/
def caseC (c : Dev nD) (t : Fin cfg1.N) (h0 : ¬cond1_0 (grid1.coords t)) (h1 : cond1_1 (grid1.coords t)) (p : Vec F S1x1024x512 .f32 × Vec F S1024x1 .f32 × Vec F S1024x1 .f32 × Vec F S1024x512 .f32 × Vec F S1024x512 .bf16) : Vec F S1x1024x512 .f32 × Vec F S1024x1 .f32 × Vec F S1024x1 .f32 × Vec F S1024x512 .f32 × Vec F S1024x512 .bf16 :=
  (VO1_3.read (Elt F) (VO1_3.writes (Elt F) VO1_3.junk (runC V c t h0 h1 p).1),
    VS1_0.read (Elt F) (VS1_0.writes (Elt F) VS1_0.junk (runC V c t h0 h1 p).2.1),
    VS1_1.read (Elt F) (VS1_1.writes (Elt F) VS1_1.junk (runC V c t h0 h1 p).2.2.1),
    VS1_2.read (Elt F) (VS1_2.writes (Elt F) VS1_2.junk (runC V c t h0 h1 p).2.2.2.1),
    p.2.2.2.2)

/-! ## What the buffers hold after each point -/

/-- THE ACCUMULATION: the output block and the four scratch buffers after the body at position `n`. -/
def outsAt1 (c : Dev nD) : (n : ℕ) → n < cfg1.N → Vec F S1x1024x512 .f32 × Vec F S1024x1 .f32 × Vec F S1024x1 .f32 × Vec F S1024x512 .f32 × Vec F S1024x512 .bf16
  | 0, hn => caseA V c ⟨0, hn⟩ ((hcond1_0 ⟨0, hn⟩).mpr (Nat.zero_mod _)) (fun h => absurd ((hcond1_1 ⟨0, hn⟩).mp h) (show ¬((0 : ℕ) % 4 = 3) from by decide))
  | n + 1, hn =>
    if h0 : (n + 1) % 4 = 0 then
      caseA V c ⟨n + 1, hn⟩ ((hcond1_0 ⟨n + 1, hn⟩).mpr h0) (fun h => (by omega : ¬(n + 1) % 4 = 3) ((hcond1_1 ⟨n + 1, hn⟩).mp h))
    else if h3 : (n + 1) % 4 = 3 then
      caseC V c ⟨n + 1, hn⟩ (fun h => h0 ((hcond1_0 ⟨n + 1, hn⟩).mp h)) ((hcond1_1 ⟨n + 1, hn⟩).mpr h3) (outsAt1 c n (Nat.lt_of_succ_lt hn))
    else
      caseB V c ⟨n + 1, hn⟩ (fun h => h0 ((hcond1_0 ⟨n + 1, hn⟩).mp h)) (fun h => h3 ((hcond1_1 ⟨n + 1, hn⟩).mp h)) (outsAt1 c n (Nat.lt_of_succ_lt hn))

/-- The contents the point before `t` left (`t` not the first point). -/
abbrev prev1 (c : Dev nD) (t : Fin cfg1.N) : Vec F S1x1024x512 .f32 × Vec F S1024x1 .f32 × Vec F S1024x1 .f32 × Vec F S1024x512 .f32 × Vec F S1024x512 .bf16 := outsAt1 V c (t.val - 1) (Nat.lt_of_le_of_lt (Nat.sub_le _ _) t.isLt)

theorem outsAt1_A (c : Dev nD) (t : Fin cfg1.N) (h0 : t.val % 4 = 0) :
    outsAt1 V c t.val t.isLt = caseA V c t ((hcond1_0 t).mpr h0) (fun h => (by omega : ¬t.val % 4 = 3) ((hcond1_1 t).mp h)) := by
  obtain ⟨n, hn⟩ := t
  cases n with
  | zero => rfl
  | succ n => exact dif_pos h0

theorem outsAt1_B (c : Dev nD) (t : Fin cfg1.N) (h0 : ¬t.val % 4 = 0) (h3 : ¬t.val % 4 = 3) :
    outsAt1 V c t.val t.isLt = caseB V c t (fun h => h0 ((hcond1_0 t).mp h)) (fun h => h3 ((hcond1_1 t).mp h)) (prev1 V c t) := by
  obtain ⟨n, hn⟩ := t
  cases n with
  | zero => exact absurd (Nat.zero_mod _) h0
  | succ n => exact (dif_neg h0).trans ((dif_neg h3).trans rfl)

theorem outsAt1_C (c : Dev nD) (t : Fin cfg1.N) (h0 : ¬t.val % 4 = 0) (h3 : t.val % 4 = 3) :
    outsAt1 V c t.val t.isLt = caseC V c t (fun h => h0 ((hcond1_0 t).mp h)) ((hcond1_1 t).mpr h3) (prev1 V c t) := by
  obtain ⟨n, hn⟩ := t
  cases n with
  | zero => exact absurd (Nat.zero_mod _) h0
  | succ n => exact (dif_neg h0).trans ((dif_pos h3).trans rfl)

/-! ## The region's invariant -/

/-- The scoped rest of this region with the four scratch buffers stated as `P0 … P3`, and the generator register. -/
def PhiWith (c : Dev nD) (P0 P1 P2 P3 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P0 ∗ P1 ∗ P2 ∗ P3) ∗ (∃ r, prngReg c r))

theorem PhiA1_with (c : Dev nD) :
    (Pipeline.ΦA spec1 c : sProp 𝕄)
      = PhiWith c iprop(∃ d, owns (c : Thread nD τ) scM1_0 fullShare d) iprop(∃ d, owns (c : Thread nD τ) scM1_1 fullShare d)
          iprop(∃ d, owns (c : Thread nD τ) scM1_2 fullShare d) iprop(∃ d, owns (c : Thread nD τ) scM1_3 fullShare d) := by
  unfold PhiWith; exact PhiA1_eq c

/-- Before position `n`: before the first point every scratch buffer at anything; afterwards each at what the point
    before left in it. -/
def PhiS (c : Dev nD) : (n : ℕ) → n ≤ cfg1.N → sProp 𝕄
  | 0, _ => Pipeline.ΦA spec1 c
  | n + 1, hn => PhiWith c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2.1) (owns (c : Thread nD τ) scM1_3 fullShare (outsAt1 V c n hn).2.2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2.1) (owns (c : Thread nD τ) scM1_3 fullShare (outsAt1 V c n hn).2.2.2.2) := rfl

theorem PhiS_pos (c : Dev nD) (n : ℕ) (h : n ≤ cfg1.N) (hz : n ≠ 0) :
    PhiS V c n h = PhiWith c (owns (c : Thread nD τ) scM1_0 fullShare (outsAt1 V c (n - 1) (by omega)).2.1) (owns (c : Thread nD τ) scM1_1 fullShare (outsAt1 V c (n - 1) (by omega)).2.2.1)
      (owns (c : Thread nD τ) scM1_2 fullShare (outsAt1 V c (n - 1) (by omega)).2.2.2.1) (owns (c : Thread nD τ) scM1_3 fullShare (outsAt1 V c (n - 1) (by omega)).2.2.2.2) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Fr

end
-- ==== Proof.KI.R1Body.lean ====
/-
  The second kernel region: the body's obligation at every grid point, and the hand-over of the region's invariant at its
  entry and exit.

  At a point the pipeline hands the body the three input blocks (each holding its block of the array, fetched there or
  not), the output block's buffer, and the region's invariant: the scratch buffers at anything before the first point,
  and at what the point before left afterwards. The point's residue mod 4 says which of the three cases it is in; the
  case's run applies, and what it leaves in the scratch buffers is, by definition, the contents the invariant names
  after the point. Off a last tile the output window is idle: its buffer is handed back as found.
-/
import proofs.«142818_j42760694399404_2_alg».proof.Proof.Gen.KernelIdeal.Launch
import proofs.«142818_j42760694399404_2_alg».proof.Proof.Gen.KernelIdeal.Skeleton
import proofs.«142818_j42760694399404_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.KI.R1Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 128 := lt_of_lt_of_eq t.isLt (show cfg1.N = 128 from N_1)
  by_cases h0 : t.val % 4 = 0
  · -- a first tile
    have hn3 : ¬t.val % 4 = 3 := by omega
    have hcA0 : cond1_0 (grid1.coords t) := (hcond1_0 t).mpr h0
    have hcA1 : ¬cond1_1 (grid1.coords t) := fun h => hn3 ((hcond1_1 t).mp h)
    rw [Dat.leavesExact_idle (dat1 V c) 3 t (idleAt1_3 t (fun h => hn3 ((hcond1_1 t).mp h))) (noFlush1_3 t (fun h => hn3 ((hcond1_1 t).mp h)))]
    rw [outsAt1_A V c t h0]
    unfold caseA; dsimp only
    by_cases hz : t.val = 0
    · rw [PhiS_castSucc V c t, PhiS_zero V c _ _ hz, PhiA1_with]; unfold PhiWith
      iintro ⟨⟨⟨Ha1, Ha2, Ha3, Ha4, Ha5, Ha6, HS0, HS1, HS2, HS3⟩, Hg⟩, Ho, ⟨%d0, H0⟩, ⟨%d1, H1⟩, ⟨%d2, H2⟩, ⟨%d3, H3⟩⟩
      iapply ((runA V c t hcA0 hcA1).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%e0, HS0⟩, ⟨%e1, HS1⟩, ⟨%e2, HS2⟩, ⟨%e3, HS3⟩⟩
      isplitl [Ha1 Ha2 Ha3 Ha4 Ha5 Ha6 HS0 HS1 HS2 HS3 Hg]
      · isplitr [Hg]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [HS0]
          · unfold owns; iexists _; isplitr
            swap; · iexact HS0
            ipureintro; exact View.read_writes_of_cover _ _ _ _ _ (scovA_0 V c t hcA0 hcA1)
          isplitl [HS1]
          · unfold owns; iexists _; isplitr
            swap; · iexact HS1
            ipureintro; exact View.read_writes_of_cover _ _ _ _ _ (scovA_1 V c t hcA0 hcA1)
          isplitl [HS2]
          · unfold owns; iexists _; isplitr
            swap; · iexact HS2
            ipureintro; exact View.read_writes_of_cover _ _ _ _ _ (scovA_2 V c t hcA0 hcA1)
          unfold owns; iexists _; isplitr
          swap; · iexact HS3
          ipureintro; exact View.read_writes_of_cover _ _ _ _ _ (scovA_3 V c t hcA0 hcA1)
        · iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold PhiWith
      iintro ⟨⟨⟨Ha1, Ha2, Ha3, Ha4, Ha5, Ha6, HS0, HS1, HS2, HS3⟩, Hg⟩, Ho, ⟨%d0, H0⟩, ⟨%d1, H1⟩, ⟨%d2, H2⟩, ⟨%d3, H3⟩⟩
      iapply ((runA V c t hcA0 hcA1).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      isplitl [HS3]; · iexists _; iexact HS3
      iintro ⟨H0, H1, H2, H3, ⟨%e0, HS0⟩, ⟨%e1, HS1⟩, ⟨%e2, HS2⟩, ⟨%e3, HS3⟩⟩
      isplitl [Ha1 Ha2 Ha3 Ha4 Ha5 Ha6 HS0 HS1 HS2 HS3 Hg]
      · isplitr [Hg]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [HS0]
          · unfold owns; iexists _; isplitr
            swap; · iexact HS0
            ipureintro; exact View.read_writes_of_cover _ _ _ _ _ (scovA_0 V c t hcA0 hcA1)
          isplitl [HS1]
          · unfold owns; iexists _; isplitr
            swap; · iexact HS1
            ipureintro; exact View.read_writes_of_cover _ _ _ _ _ (scovA_1 V c t hcA0 hcA1)
          isplitl [HS2]
          · unfold owns; iexists _; isplitr
            swap; · iexact HS2
            ipureintro; exact View.read_writes_of_cover _ _ _ _ _ (scovA_2 V c t hcA0 hcA1)
          unfold owns; iexists _; isplitr
          swap; · iexact HS3
          ipureintro; exact View.read_writes_of_cover _ _ _ _ _ (scovA_3 V c t hcA0 hcA1)
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    have hcN0 : ¬cond1_0 (grid1.coords t) := fun h => h0 ((hcond1_0 t).mp h)
    by_cases h3 : t.val % 4 = 3
    · -- a last tile
      have hcC1 : cond1_1 (grid1.coords t) := (hcond1_1 t).mpr h3
      rw [show (dat1 V c).leavesExact 3 t = owns (c : Thread nD τ) (ms1_3 t) fullShare ((dat1 V c).after 3 t) from by
          unfold Dat.leavesExact; rw [liveAt1_3 t ((hcond1_1 t).mpr h3)], after1_3]
      rw [outsAt1_C V c t h0 h3]
      unfold caseC; dsimp only
      rw [PhiS_castSucc V c t, PhiS_pos V c _ _ hz]; unfold PhiWith
      iintro ⟨⟨⟨Ha1, Ha2, Ha3, Ha4, Ha5, Ha6, HS0, HS1, HS2, HS3⟩, Hg⟩, Ho, ⟨%d0, H0⟩, ⟨%d1, H1⟩, ⟨%d2, H2⟩, ⟨%d3, H3⟩⟩
      iapply ((runC V c t hcN0 hcC1 (prev1 V c t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, ⟨%e0, HS0⟩, ⟨%e1, HS1⟩, ⟨%e2, HS2⟩, HS3⟩
      isplitl [Ha1 Ha2 Ha3 Ha4 Ha5 Ha6 HS0 HS1 HS2 HS3 Hg]
      · isplitr [Hg]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [HS0]
          · unfold owns; iexists _; isplitr
            swap; · iexact HS0
            ipureintro; exact View.read_writes_of_cover _ _ _ _ _ (scovC_0 V c t hcN0 hcC1 _)
          isplitl [HS1]
          · unfold owns; iexists _; isplitr
            swap; · iexact HS1
            ipureintro; exact View.read_writes_of_cover _ _ _ _ _ (scovC_1 V c t hcN0 hcC1 _)
          isplitl [HS2]
          · unfold owns; iexists _; isplitr
            swap; · iexact HS2
            ipureintro; exact View.read_writes_of_cover _ _ _ _ _ (scovC_2 V c t hcN0 hcC1 _)
          iexact HS3
        · iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (covC_3 V c t hcN0 hcC1 _)
    · -- a middle tile
      have hcB1 : ¬cond1_1 (grid1.coords t) := fun h => h3 ((hcond1_1 t).mp h)
      rw [Dat.leavesExact_idle (dat1 V c) 3 t (idleAt1_3 t (fun h => h3 ((hcond1_1 t).mp h))) (noFlush1_3 t (fun h => h3 ((hcond1_1 t).mp h)))]
      rw [outsAt1_B V c t h0 h3]
      unfold caseB; dsimp only
      rw [PhiS_castSucc V c t, PhiS_pos V c _ _ hz]; unfold PhiWith
      iintro ⟨⟨⟨Ha1, Ha2, Ha3, Ha4, Ha5, Ha6, HS0, HS1, HS2, HS3⟩, Hg⟩, Ho, ⟨%d0, H0⟩, ⟨%d1, H1⟩, ⟨%d2, H2⟩, ⟨%d3, H3⟩⟩
      iapply ((runB V c t hcN0 hcB1 (prev1 V c t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%e0, HS0⟩, ⟨%e1, HS1⟩, ⟨%e2, HS2⟩, HS3⟩
      isplitl [Ha1 Ha2 Ha3 Ha4 Ha5 Ha6 HS0 HS1 HS2 HS3 Hg]
      · isplitr [Hg]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [HS0]
          · unfold owns; iexists _; isplitr
            swap; · iexact HS0
            ipureintro; exact View.read_writes_of_cover _ _ _ _ _ (scovB_0 V c t hcN0 hcB1 _)
          isplitl [HS1]
          · unfold owns; iexists _; isplitr
            swap; · iexact HS1
            ipureintro; exact View.read_writes_of_cover _ _ _ _ _ (scovB_1 V c t hcN0 hcB1 _)
          isplitl [HS2]
          · unfold owns; iexists _; isplitr
            swap; · iexact HS2
            ipureintro; exact View.read_writes_of_cover _ _ _ _ _ (scovB_2 V c t hcN0 hcB1 _)
          iexact HS3
        · iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_with]; unfold PhiWith
  iintro ⟨⟨Ha1, Ha2, Ha3, Ha4, Ha5, Ha6, HS0, HS1, HS2, HS3⟩, Hg⟩
  isplitr [Hg]
  · isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [HS0]; · iexists _; iexact HS0
    isplitl [HS1]; · iexists _; iexact HS1
    isplitl [HS2]; · iexists _; iexact HS2
    iexists _; iexact HS3
  · iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Fr

end
-- ==== Proof.KI.Run.lean ====
/-
  The run of the whole program on the TensorCore: host operations (transpose the weights, reshape the bias and the
  queries), the linear-layer region, a reshape of its result, the attention region.

  The buffer contents at each boundary are a fold from the launch memory: a host stretch applies its operations; a
  region leaves each of its arrays at what its write-backs, folded over the grid, leave there, and every other buffer
  as it found it. Each region is entered from "every unscoped buffer at the boundary's contents, the generator
  register at some state, nothing owed" and left at the same with the next boundary's contents. The launch then says:
  every weakly fair execution terminates, faulting nowhere, and every unscoped buffer ends at the last boundary's
  contents. Read at an argument the fold walks back to the launch memory (no host operation and no region writes
  one); read at the result it is what the attention region's write-backs leave.
-/
import proofs.«142818_j42760694399404_2_alg».proof.Proof.Gen.KernelIdeal.Launch
import proofs.«142818_j42760694399404_2_alg».proof.Proof.Gen.KernelIdeal.Skeleton
import proofs.«142818_j42760694399404_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142818_j42760694399404_2_alg».proof.Proof.KI.Region0
import proofs.«142818_j42760694399404_2_alg».proof.Proof.KI.R1Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev Wa0 : Dev nD → Valuation τ sig (Elt F) := fun c b => (s₀ m ρ).mem ((c : Dev nD), b)
abbrev Wa1 : Dev nD → Valuation τ sig (Elt F) := fun c => StableHlo.after hostOps0 (Wa0 m ρ c)
abbrev Va1 : (c : Dev nD) → (b : Ref sig .tc) → Buf (Elt F) ((c : Thread nD τ).loc b) := fun c b => Wa1 m ρ c b
def Wa2 (c : Dev nD) : Valuation τ sig (Elt F) :=
  Pipeline.withArrays spec0 c (Wa1 m ρ c) fun w => (dat0 (Va1 m ρ) c).arrAt w cfg0.N
theorem Wa2_arr (c : Dev nD) (w : Fin cfg0.W) :
    Wa2 m ρ c (Proc.devRef .tc (Pipeline.arrRef spec0 w)) = (dat0 (Va1 m ρ) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m ρ c (Proc.devRef .tc b) = Wa1 m ρ c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m ρ c b
theorem hF0 (c : Dev nD) (w : Fin cfg0.W) : (dat0 (Va1 m ρ) c).arrAt w cfg0.N = Va2 m ρ c (Pipeline.arrRef spec0 w) :=
  (Wa2_arr m ρ c w).symm
theorem hrest0 (c : Dev nD) : ∀ b, b ∉ Finset.univ.image (Pipeline.arrRef spec0) → Va2 m ρ c b = Va1 m ρ c b :=
  fun b hb => Wa2_of_ne m ρ c b fun w e => hb (Finset.mem_image.mpr ⟨w, Finset.mem_univ _, e⟩)

abbrev Wa3 : Dev nD → Valuation τ sig (Elt F) := fun c => StableHlo.after hostOps1 (Wa2 m ρ c)
abbrev Va3 : (c : Dev nD) → (b : Ref sig .tc) → Buf (Elt F) ((c : Thread nD τ).loc b) := fun c b => Wa3 m ρ c b
def Wa4 (c : Dev nD) : Valuation τ sig (Elt F) :=
  Pipeline.withArrays spec1 c (Wa3 m ρ c) fun w => (dat1 (Va3 m ρ) c).arrAt w cfg1.N
theorem Wa4_arr (c : Dev nD) (w : Fin cfg1.W) :
    Wa4 m ρ c (Proc.devRef .tc (Pipeline.arrRef spec1 w)) = (dat1 (Va3 m ρ) c).arrAt w cfg1.N := by
  unfold Wa4; exact Pipeline.withArrays_arr spec1 launch1.win.arr_inj c _ _ w
theorem Wa4_of_ne (c : Dev nD) (b : Ref sig .tc) (hb : ∀ w, Pipeline.arrRef spec1 w ≠ b) :
    Wa4 m ρ c (Proc.devRef .tc b) = Wa3 m ρ c (Proc.devRef .tc b) := by
  unfold Wa4; exact Pipeline.withArrays_of_ne spec1 c _ _ b hb
abbrev Va4 : (c : Dev nD) → (b : Ref sig .tc) → Buf (Elt F) ((c : Thread nD τ).loc b) := fun c b => Wa4 m ρ c b
theorem hF1 (c : Dev nD) (w : Fin cfg1.W) : (dat1 (Va3 m ρ) c).arrAt w cfg1.N = Va4 m ρ c (Pipeline.arrRef spec1 w) :=
  (Wa4_arr m ρ c w).symm
theorem hrest1 (c : Dev nD) : ∀ b, b ∉ Finset.univ.image (Pipeline.arrRef spec1) → Va4 m ρ c b = Va3 m ρ c b :=
  fun b hb => Wa4_of_ne m ρ c b fun w e => hb (Finset.mem_image.mpr ⟨w, Finset.mem_univ _, e⟩)

/-! ### The arguments end as launched -/

theorem Wa4_main_arg0 (c : Dev nD) : Wa4 m ρ c (Proc.devRef .tc main_arg0) = m ((c : Thread nD τ).loc main_arg0) :=
  calc Wa4 m ρ c (Proc.devRef .tc main_arg0)
    _ = Wa3 m ρ c (Proc.devRef .tc main_arg0) := (Wa4_arr m ρ c 2).trans (((dat1 (Va3 m ρ) c).arrAt_in 2 rfl _).trans (A_eq1 (Va3 m ρ) c 2))
    _ = Wa2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa1 m ρ c (Proc.devRef .tc main_arg0) := Wa2_of_ne m ρ c main_arg0 (by decide)
    _ = Wa0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem Wa4_main_arg1 (c : Dev nD) : Wa4 m ρ c (Proc.devRef .tc main_arg1) = m ((c : Thread nD τ).loc main_arg1) :=
  calc Wa4 m ρ c (Proc.devRef .tc main_arg1)
    _ = Wa3 m ρ c (Proc.devRef .tc main_arg1) := (Wa4_arr m ρ c 0).trans (((dat1 (Va3 m ρ) c).arrAt_in 0 rfl _).trans (A_eq1 (Va3 m ρ) c 0))
    _ = Wa2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa1 m ρ c (Proc.devRef .tc main_arg1) := Wa2_of_ne m ρ c main_arg1 (by decide)
    _ = Wa0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem Wa4_main_arg2 (c : Dev nD) : Wa4 m ρ c (Proc.devRef .tc main_arg2) = m ((c : Thread nD τ).loc main_arg2) :=
  calc Wa4 m ρ c (Proc.devRef .tc main_arg2)
    _ = Wa3 m ρ c (Proc.devRef .tc main_arg2) := Wa4_of_ne m ρ c main_arg2 (by decide)
    _ = Wa2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa1 m ρ c (Proc.devRef .tc main_arg2) := Wa2_of_ne m ρ c main_arg2 (by decide)
    _ = Wa0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem Wa4_main_arg3 (c : Dev nD) : Wa4 m ρ c (Proc.devRef .tc main_arg3) = m ((c : Thread nD τ).loc main_arg3) :=
  calc Wa4 m ρ c (Proc.devRef .tc main_arg3)
    _ = Wa3 m ρ c (Proc.devRef .tc main_arg3) := Wa4_of_ne m ρ c main_arg3 (by decide)
    _ = Wa2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa1 m ρ c (Proc.devRef .tc main_arg3) := Wa2_of_ne m ρ c main_arg3 (by decide)
    _ = Wa0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev admF : (p : Fin 2) → (pcfgs (F := F) p).Adm := fun p => (cfgs p).toPCfg_adm
def pdatsF : (p : Fin 2) → (c : Dev nD) → Dat τ (Elt F) Unit ℕ (UR sig nD τ) ℕ (Pipeline.pin (pcfgs (F := F)) admF p) c
  | ⟨0, _⟩ => fun c => dat0 (Va1 m ρ) c
  | ⟨1, _⟩ => fun c => dat1 (Va3 m ρ) c
abbrev 𝒱F : Variants := Variants.none
abbrev LF : GSem nD τ sig → Finset Unit := fun _ => ∅
abbrev lvF : GSem nD τ sig → Unit → ℕ := fun _ _ => 0
/-- What rides beside the buffers through every segment: the generator register at some state, nothing owed. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF

theorem hostOps0_freshF : (hostOps0 : List (HloOp τ sig (Elt F))).Forall fun op => op.fresh = ∅ := by
  simp only [List.Forall]; repeat' constructor
theorem hostOps1_freshF : (hostOps1 : List (HloOp τ sig (Elt F))).Forall fun op => op.fresh = ∅ := by
  simp only [List.Forall]; repeat' constructor
theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnF (c : Dev nD) : sProp 𝕄 := iprop(StableHlo.held (c : Thread nD τ) (Pipeline.ucRefs τ sig) (Wa4 m ρ c) ∗ ∃ r, prngReg c r)

/-! ## The regions as segments -/

set_option backward.isDefEq.respectTransparency.types false in
def regF0 : Pipeline.RegionSeg (pcfgs (F := F)) admF (pdatsF m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ LF lvF 0 fun _ _ => rfl
  pre c := iprop(StableHlo.held (c : Thread nD τ) (Pipeline.ucRefs τ sig) (Wa1 m ρ c) ∗ RF c)
  post c := iprop(StableHlo.held (c : Thread nD τ) (Pipeline.ucRefs τ sig) (Wa2 m ρ c) ∗ RF c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) admF (pdatsF m ρ) launch0.win launch0.arr_whole c
      ((pdatsF m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m ρ) ((pdatsF m ρ 0 c).share_full fun _ => rfl)
      (Va1 m ρ c) (Va2 m ρ c) ((pdatsF m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regF1 : Pipeline.RegionSeg (pcfgs (F := F)) admF (pdatsF m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (Va3 m ρ) c).loose
  hwaits := Pipeline.hwaits_of_owed_zero _ _ _ _ LF lvF 1 fun _ _ => rfl
  pre c := iprop(StableHlo.held (c : Thread nD τ) (Pipeline.ucRefs τ sig) (Wa3 m ρ c) ∗ RF c)
  post c := iprop(TnF m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m ρ c)
  hentry c := by
    rw [Pipeline.ownSems0_none]
    have hsplit := Pipeline.arrays_of_unscopedBufs (p := 1) (pcfgs (F := F)) admF (pdatsF m ρ) launch1.win launch1.arr_whole c
      ((pdatsF m ρ 1 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdatsF m ρ 1 c).Φ (Fin.last _) ⊢ (iprop((Pipeline.scopedRest spec1 c : sProp 𝕄) ∗ ∃ r, prngReg c r) : sProp 𝕄) := by
      have h := hout1 (Va3 m ρ) c; unfold Pipeline.ΦA at h; exact h
    iintro Hphi
    ihave H := hΦ $$ Hphi
    icases H with ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m ρ) ((pdatsF m ρ 1 c).share_full fun _ => rfl)
      (Va3 m ρ c) (Va4 m ρ c) ((pdatsF m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsF : List (Pipeline.Seg (pcfgs (F := F)) admF (pdatsF m ρ) () defs₀ 𝒱F LF lvF) :=
  [ .host (hsegF hostOps0 hostOps0_sub hostOps0_freshF (Wa0 m ρ)),
    .region (regF0 m ρ),
    .host (hsegF hostOps1 hostOps1_sub hostOps1_freshF (Wa2 m ρ)),
    .region (regF1 m ρ) ]
theorem main_runF (c : Dev nD) : main (F := F) c = Pipeline.Seg.run (segsF m ρ) := (main_chain c).trans (by chain_rfl)

set_option backward.isDefEq.respectTransparency.types false in
/-- THE RUN: from any memory with zero counters every weakly fair execution of the program terminates, nothing faulting,
    and every unscoped buffer ends at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = Wa4 m ρ c (Proc.devRef .tc b)) :=
  Pipeline.θ_run_regions_kit (pcfgs (F := F)) admF (pdatsF m ρ) () cellOf_inj emb₁ defs₀ 𝒱F LF lvF m ρ main (segsF m ρ)
    (fun c Q => by rw [main_runF m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ RF c)) (Tₙ := TnF m ρ)
    (hch := ⟨fun _ => .rfl, fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa4 m ρ c) s')
      isplitl [Hh] <;> iassumption)
    (hQ := fun s h c b hb => h c _ (mem_ucF b hb))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (Wa4_main_arg0 m ρ c), (h c main_arg1 (by decide)).trans (Wa4_main_arg1 m ρ c),
     (h c main_arg2 (by decide)).trans (Wa4_main_arg2 m ρ c), (h c main_arg3 (by decide)).trans (Wa4_main_arg3 m ρ c)⟩) (run_all m ρ)

/-- The result array ends at what the attention region's write-backs leave, and the arguments as launched. -/
theorem run_value : θ_run defs (onTc (τ := τ) (main (F := F))) ⟨m, fun _ => 0, ρ⟩ (fun r => ∀ c : Dev nD,
      r.2.mem ((c.tc : Thread nD τ).loc main_v5) = (dat1 (Va3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_v5 (by decide)).trans (Wa4_arr m ρ c 3),
     (h c main_arg0 (by decide)).trans (Wa4_main_arg0 m ρ c), (h c main_arg1 (by decide)).trans (Wa4_main_arg1 m ρ c),
     (h c main_arg2 (by decide)).trans (Wa4_main_arg2 m ρ c), (h c main_arg3 (by decide)).trans (Wa4_main_arg3 m ρ c)⟩) (run_all m ρ)

end Cert.KernelIdeal.Fr

end
-- ==== Proof.KI.Pieces.lean ====
/-
  The second kernel region: what each case leaves in the scratch buffers and in the output block, as the body's named
  values composed.

  The body's run at a grid point names, for each buffer, the whole-buffer stores it made (the last first). A buffer read
  back after whole-buffer stores holds what the last one stored; a load of a whole buffer after such a store reads what
  that store wrote, and a load of a buffer handed over at known contents reads those. So each read-back is a composition
  of the body's values: one tile's update `upd` of the running maximum, normaliser and weighted sum — applied to the
  reset values at a first tile and to what the tile before left afterwards — and, at a last tile, the output made of the
  updated weighted sum and normaliser.
-/
import proofs.«142818_j42760694399404_2_alg».proof.Proof.Gen.KernelIdeal.Launch
import proofs.«142818_j42760694399404_2_alg».proof.Proof.Gen.KernelIdeal.Skeleton
import proofs.«142818_j42760694399404_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«142818_j42760694399404_2_alg».proof.Proof.KI.R1Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- One key/value tile's update of the running maximum, the running normaliser and the running weighted sum, from the
    key tile `x1`, the value tile `x2`, the three running values `s0 s1 s2` and tanh of the query tile `s3`. -/
def upd (x1 : Vec F S1x512x512 .bf16) (x2 : Vec F S1x512x512 .f32) (s0 s1 : Vec F S1024x1 .f32) (s2 : Vec F S1024x512 .f32)
    (s3 : Vec F S1024x512 .bf16) : Vec F S1024x1 .f32 × Vec F S1024x1 .f32 × Vec F S1024x512 .f32 :=
  (k1_pay2 (k1_pay9 s3 x1 s0), k1_pay12 s3 x1 s0 s0 s1, k1_pay1 (k1_pay13 x2) (k1_pay14 s3 x1 s0 s0 s2) (k1_pay15 s3 x1 s0))

/-- A whole scratch buffer handed over at contents `X` reads `X`. -/
theorem rdS0 (h : scM1_0.IsWhole) (X : Vec F S1024x1 .f32) : (View.whole cc1_scratch0).read (Elt F) (h.unread X) = X := h.read_unread X
theorem rdS1 (h : scM1_1.IsWhole) (X : Vec F S1024x1 .f32) : (View.whole cc1_scratch1).read (Elt F) (h.unread X) = X := h.read_unread X
theorem rdS2 (h : scM1_2.IsWhole) (X : Vec F S1024x512 .f32) : (View.whole cc1_scratch2).read (Elt F) (h.unread X) = X := h.read_unread X
theorem rdS3 (h : scM1_3.IsWhole) (X : Vec F S1024x512 .bf16) : (View.whole cc1_scratch3).read (Elt F) (h.unread X) = X := h.read_unread X

/-! ## A first tile: every scratch buffer is reset, then updated from the reset values -/

section A
variable (c : Dev nD) (t : Fin cfg1.N) (h0 : cond1_0 (grid1.coords t)) (h1 : ¬cond1_1 (grid1.coords t))

set_option maxHeartbeats 4000000 in
theorem A3 : VS1_3.read (Elt F) (VS1_3.writes (Elt F) VS1_3.junk (runA V c t h0 h1).2.2.2.1) = k1_pay7 (iblk1 V c 0 t) := by
  rw [View.read_writes_eq_canon _ _ _ (scovA_3 V c t h0 h1)]
  unfold runA kernelRun1_A
  dsimp only
  sl_unfold_words
  refine (View.canon_cons_unit_zero (S := S1024x512) hz2 _ _ _).trans ?_
  simp only [View.readCov_cons_toLoadRect, View.readAt_eq_ld, Memref.IsWhole.read_unread, View.ld_unit_zero (S := S1x1024x512) hz3, View.ld_unit_zero (S := S1x512x512) hz3]

set_option maxHeartbeats 4000000 in
theorem A0 : VS1_0.read (Elt F) (VS1_0.writes (Elt F) VS1_0.junk (runA V c t h0 h1).1)
    = (upd (iblk1 V c 1 t) (iblk1 V c 2 t) k1_pay4 k1_pay5 k1_pay6 (k1_pay7 (iblk1 V c 0 t))).1 := by
  rw [View.read_writes_eq_canon _ _ _ (scovA_0 V c t h0 h1)]
  unfold runA kernelRun1_A
  dsimp only
  sl_unfold_words
  refine (View.canon_cons_unit_zero (S := S1024x1) hz2 _ _ _).trans ?_
  simp only [View.readCov_cons_toLoadRect, View.readAt_eq_ld, Memref.IsWhole.read_unread, View.ld_unit_zero (S := S1x1024x512) hz3, View.ld_unit_zero (S := S1x512x512) hz3]
  rfl

set_option maxHeartbeats 4000000 in
theorem A1 : VS1_1.read (Elt F) (VS1_1.writes (Elt F) VS1_1.junk (runA V c t h0 h1).2.1)
    = (upd (iblk1 V c 1 t) (iblk1 V c 2 t) k1_pay4 k1_pay5 k1_pay6 (k1_pay7 (iblk1 V c 0 t))).2.1 := by
  rw [View.read_writes_eq_canon _ _ _ (scovA_1 V c t h0 h1)]
  unfold runA kernelRun1_A
  dsimp only
  sl_unfold_words
  refine (View.canon_cons_unit_zero (S := S1024x1) hz2 _ _ _).trans ?_
  simp only [View.readCov_cons_toLoadRect, View.readAt_eq_ld, Memref.IsWhole.read_unread, View.ld_unit_zero (S := S1x1024x512) hz3, View.ld_unit_zero (S := S1x512x512) hz3]
  rfl

set_option maxHeartbeats 4000000 in
theorem A2 : VS1_2.read (Elt F) (VS1_2.writes (Elt F) VS1_2.junk (runA V c t h0 h1).2.2.1)
    = (upd (iblk1 V c 1 t) (iblk1 V c 2 t) k1_pay4 k1_pay5 k1_pay6 (k1_pay7 (iblk1 V c 0 t))).2.2 := by
  rw [View.read_writes_eq_canon _ _ _ (scovA_2 V c t h0 h1)]
  unfold runA kernelRun1_A
  dsimp only
  sl_unfold_words
  refine (View.canon_cons_unit_zero (S := S1024x512) hz2 _ _ _).trans ?_
  simp only [View.readCov_cons_toLoadRect, View.readAt_eq_ld, Memref.IsWhole.read_unread, View.ld_unit_zero (S := S1x1024x512) hz3, View.ld_unit_zero (S := S1x512x512) hz3]
  rfl

/-- After a first tile: the three running values are one update of their reset values, from tanh of this query tile, which
    is what the fourth buffer keeps; no output. -/
theorem caseA_eq :
    caseA V c t h0 h1
      = (noOut, (upd (iblk1 V c 1 t) (iblk1 V c 2 t) k1_pay4 k1_pay5 k1_pay6 (k1_pay7 (iblk1 V c 0 t))).1,
          (upd (iblk1 V c 1 t) (iblk1 V c 2 t) k1_pay4 k1_pay5 k1_pay6 (k1_pay7 (iblk1 V c 0 t))).2.1,
          (upd (iblk1 V c 1 t) (iblk1 V c 2 t) k1_pay4 k1_pay5 k1_pay6 (k1_pay7 (iblk1 V c 0 t))).2.2,
          k1_pay7 (iblk1 V c 0 t)) := by
  unfold caseA
  rw [A0 V c t h0 h1, A1 V c t h0 h1, A2 V c t h0 h1, A3 V c t h0 h1]

end A

/-! ## A middle tile: the three running values are updated from what the tile before left -/

section B
variable (c : Dev nD) (t : Fin cfg1.N) (h0 : ¬cond1_0 (grid1.coords t)) (h1 : ¬cond1_1 (grid1.coords t))
  (p : Vec F S1x1024x512 .f32 × Vec F S1024x1 .f32 × Vec F S1024x1 .f32 × Vec F S1024x512 .f32 × Vec F S1024x512 .bf16)

set_option maxHeartbeats 4000000 in
theorem B0 : VS1_0.read (Elt F) (VS1_0.writes (Elt F) VS1_0.junk (runB V c t h0 h1 p).1)
    = (upd (iblk1 V c 1 t) (iblk1 V c 2 t) p.2.1 p.2.2.1 p.2.2.2.1 p.2.2.2.2).1 := by
  rw [View.read_writes_eq_canon _ _ _ (scovB_0 V c t h0 h1 p)]
  unfold runB kernelRun1_B
  dsimp only
  sl_unfold_words
  refine (View.canon_cons_unit_zero (S := S1024x1) hz2 _ _ _).trans ?_
  simp only [View.readCov_cons_toLoadRect, View.readAt_eq_ld, Memref.view_whole, rdS0, rdS1, rdS2, rdS3, Memref.IsWhole.read_unread, View.ld_unit_zero (S := S1x1024x512) hz3, View.ld_unit_zero (S := S1x512x512) hz3, View.ld_unit_zero (S := S1024x1) hz2, View.ld_unit_zero (S := S1024x512) hz2]
  rfl

set_option maxHeartbeats 4000000 in
theorem B1 : VS1_1.read (Elt F) (VS1_1.writes (Elt F) VS1_1.junk (runB V c t h0 h1 p).2.1)
    = (upd (iblk1 V c 1 t) (iblk1 V c 2 t) p.2.1 p.2.2.1 p.2.2.2.1 p.2.2.2.2).2.1 := by
  rw [View.read_writes_eq_canon _ _ _ (scovB_1 V c t h0 h1 p)]
  unfold runB kernelRun1_B
  dsimp only
  sl_unfold_words
  refine (View.canon_cons_unit_zero (S := S1024x1) hz2 _ _ _).trans ?_
  simp only [View.readCov_cons_toLoadRect, View.readAt_eq_ld, Memref.view_whole, rdS0, rdS1, rdS2, rdS3, Memref.IsWhole.read_unread, View.ld_unit_zero (S := S1x1024x512) hz3, View.ld_unit_zero (S := S1x512x512) hz3, View.ld_unit_zero (S := S1024x1) hz2, View.ld_unit_zero (S := S1024x512) hz2]
  rfl

set_option maxHeartbeats 4000000 in
theorem B2 : VS1_2.read (Elt F) (VS1_2.writes (Elt F) VS1_2.junk (runB V c t h0 h1 p).2.2.1)
    = (upd (iblk1 V c 1 t) (iblk1 V c 2 t) p.2.1 p.2.2.1 p.2.2.2.1 p.2.2.2.2).2.2 := by
  rw [View.read_writes_eq_canon _ _ _ (scovB_2 V c t h0 h1 p)]
  unfold runB kernelRun1_B
  dsimp only
  sl_unfold_words
  refine (View.canon_cons_unit_zero (S := S1024x512) hz2 _ _ _).trans ?_
  simp only [View.readCov_cons_toLoadRect, View.readAt_eq_ld, Memref.view_whole, rdS0, rdS1, rdS2, rdS3, Memref.IsWhole.read_unread, View.ld_unit_zero (S := S1x1024x512) hz3, View.ld_unit_zero (S := S1x512x512) hz3, View.ld_unit_zero (S := S1024x1) hz2, View.ld_unit_zero (S := S1024x512) hz2]
  rfl

/-- After a middle tile: one update of what the tile before left; tanh of the query tile stays; no output. -/
theorem caseB_eq :
    caseB V c t h0 h1 p
      = (noOut, (upd (iblk1 V c 1 t) (iblk1 V c 2 t) p.2.1 p.2.2.1 p.2.2.2.1 p.2.2.2.2).1,
          (upd (iblk1 V c 1 t) (iblk1 V c 2 t) p.2.1 p.2.2.1 p.2.2.2.1 p.2.2.2.2).2.1,
          (upd (iblk1 V c 1 t) (iblk1 V c 2 t) p.2.1 p.2.2.1 p.2.2.2.1 p.2.2.2.2).2.2,
          p.2.2.2.2) := by
  unfold caseB
  rw [B0 V c t h0 h1 p, B1 V c t h0 h1 p, B2 V c t h0 h1 p]

end B

/-! ## A last tile: the same update, and the output block -/

section C
variable (c : Dev nD) (t : Fin cfg1.N) (h0 : ¬cond1_0 (grid1.coords t)) (h1 : cond1_1 (grid1.coords t))
  (p : Vec F S1x1024x512 .f32 × Vec F S1024x1 .f32 × Vec F S1024x1 .f32 × Vec F S1024x512 .f32 × Vec F S1024x512 .bf16)

set_option maxHeartbeats 4000000 in
theorem C0 : VS1_0.read (Elt F) (VS1_0.writes (Elt F) VS1_0.junk (runC V c t h0 h1 p).2.1)
    = (upd (iblk1 V c 1 t) (iblk1 V c 2 t) p.2.1 p.2.2.1 p.2.2.2.1 p.2.2.2.2).1 := by
  rw [View.read_writes_eq_canon _ _ _ (scovC_0 V c t h0 h1 p)]
  unfold runC kernelRun1_C
  dsimp only
  sl_unfold_words
  refine (View.canon_cons_unit_zero (S := S1024x1) hz2 _ _ _).trans ?_
  simp only [View.readCov_cons_toLoadRect, View.readAt_eq_ld, Memref.view_whole, rdS0, rdS1, rdS2, rdS3, Memref.IsWhole.read_unread, View.ld_unit_zero (S := S1x1024x512) hz3, View.ld_unit_zero (S := S1x512x512) hz3, View.ld_unit_zero (S := S1024x1) hz2, View.ld_unit_zero (S := S1024x512) hz2]
  rfl

set_option maxHeartbeats 4000000 in
theorem C1 : VS1_1.read (Elt F) (VS1_1.writes (Elt F) VS1_1.junk (runC V c t h0 h1 p).2.2.1)
    = (upd (iblk1 V c 1 t) (iblk1 V c 2 t) p.2.1 p.2.2.1 p.2.2.2.1 p.2.2.2.2).2.1 := by
  rw [View.read_writes_eq_canon _ _ _ (scovC_1 V c t h0 h1 p)]
  unfold runC kernelRun1_C
  dsimp only
  sl_unfold_words
  refine (View.canon_cons_unit_zero (S := S1024x1) hz2 _ _ _).trans ?_
  simp only [View.readCov_cons_toLoadRect, View.readAt_eq_ld, Memref.view_whole, rdS0, rdS1, rdS2, rdS3, Memref.IsWhole.read_unread, View.ld_unit_zero (S := S1x1024x512) hz3, View.ld_unit_zero (S := S1x512x512) hz3, View.ld_unit_zero (S := S1024x1) hz2, View.ld_unit_zero (S := S1024x512) hz2]
  rfl

set_option maxHeartbeats 4000000 in
theorem C2 : VS1_2.read (Elt F) (VS1_2.writes (Elt F) VS1_2.junk (runC V c t h0 h1 p).2.2.2.1)
    = (upd (iblk1 V c 1 t) (iblk1 V c 2 t) p.2.1 p.2.2.1 p.2.2.2.1 p.2.2.2.2).2.2 := by
  rw [View.read_writes_eq_canon _ _ _ (scovC_2 V c t h0 h1 p)]
  unfold runC kernelRun1_C
  dsimp only
  sl_unfold_words
  refine (View.canon_cons_unit_zero (S := S1024x512) hz2 _ _ _).trans ?_
  simp only [View.readCov_cons_toLoadRect, View.readAt_eq_ld, Memref.view_whole, rdS0, rdS1, rdS2, rdS3, Memref.IsWhole.read_unread, View.ld_unit_zero (S := S1x1024x512) hz3, View.ld_unit_zero (S := S1x512x512) hz3, View.ld_unit_zero (S := S1024x1) hz2, View.ld_unit_zero (S := S1024x512) hz2]
  rfl

set_option maxHeartbeats 4000000 in
theorem C3 : VO1_3.read (Elt F) (VO1_3.writes (Elt F) VO1_3.junk (runC V c t h0 h1 p).1)
    = k1_pay3 (upd (iblk1 V c 1 t) (iblk1 V c 2 t) p.2.1 p.2.2.1 p.2.2.2.1 p.2.2.2.2).2.2
        (upd (iblk1 V c 1 t) (iblk1 V c 2 t) p.2.1 p.2.2.1 p.2.2.2.1 p.2.2.2.2).2.1 := by
  rw [View.read_writes_eq_canon _ _ _ (covC_3 V c t h0 h1 p)]
  unfold runC kernelRun1_C
  dsimp only
  sl_unfold_words
  refine (View.canon_cons_unit_zero (S := S1x1024x512) hz3 _ _ _).trans ?_
  simp only [View.readCov_cons_toLoadRect, View.readAt_eq_ld, Memref.view_whole, rdS0, rdS1, rdS2, rdS3, Memref.IsWhole.read_unread, View.ld_unit_zero (S := S1x1024x512) hz3, View.ld_unit_zero (S := S1x512x512) hz3, View.ld_unit_zero (S := S1024x1) hz2, View.ld_unit_zero (S := S1024x512) hz2]
  rfl

/-- After a last tile: one update of what the tile before left, and the output made of the updated weighted sum and
    normaliser; tanh of the query tile stays. -/
theorem caseC_eq :
    caseC V c t h0 h1 p
      = (k1_pay3 (upd (iblk1 V c 1 t) (iblk1 V c 2 t) p.2.1 p.2.2.1 p.2.2.2.1 p.2.2.2.2).2.2
            (upd (iblk1 V c 1 t) (iblk1 V c 2 t) p.2.1 p.2.2.1 p.2.2.2.1 p.2.2.2.2).2.1,
          (upd (iblk1 V c 1 t) (iblk1 V c 2 t) p.2.1 p.2.2.1 p.2.2.2.1 p.2.2.2.2).1,
          (upd (iblk1 V c 1 t) (iblk1 V c 2 t) p.2.1 p.2.2.1 p.2.2.2.1 p.2.2.2.2).2.1,
          (upd (iblk1 V c 1 t) (iblk1 V c 2 t) p.2.1 p.2.2.1 p.2.2.2.1 p.2.2.2.2).2.2,
          p.2.2.2.2) := by
  unfold caseC
  rw [C3 V c t h0 h1 p, C0 V c t h0 h1 p, C1 V c t h0 h1 p, C2 V c t h0 h1 p]

end C

end Cert.KernelIdeal.Fr

end
-- ==== Proof.GridIdx.lean ====
/-
  Which rows a grid point touches.

  The attention region's grid is 16 × 2 × 4, the last axis fastest, so point `n` (0 ≤ n < 128) is batch `n / 8`, query
  tile `(n / 4) mod 2` (rows `1024 q … 1024 q + 1023`) and key/value tile `n mod 4` (rows `512 k … 512 k + 511`).
  The linear region's grid has 16 points, point `n` holding rows `2048 n … 2048 n + 2047` of the flattened
  [32768, 512] array, whose row `2048 b + t` is row `t` of batch `b`.
-/
import Mathlib.Tactic

namespace Cert.GridIdx

/-- The batch of attention point `n`. -/
def bi (n : ℕ) (h : n < 128) : Fin 16 := ⟨n / 8, by omega⟩
/-- Row `r` of attention point `n`'s query tile, as a row of the batch. -/
def qrow (n : ℕ) (r : Fin 1024) : Fin 2048 := ⟨(n / 4) % 2 * 1024 + r.val, by have := r.isLt; omega⟩
/-- Row `j` of attention point `n`'s key/value tile, as a row of the batch. -/
def krow (n : ℕ) (j : Fin 512) : Fin 2048 := ⟨n % 4 * 512 + j.val, by have := j.isLt; omega⟩
/-- Row `t` of batch `b` in the flattened array. -/
def flatRow (b : Fin 16) (t : Fin 2048) : Fin 32768 := ⟨b.val * 2048 + t.val, by have := b.isLt; have := t.isLt; omega⟩
/-- Row `r` of linear point `n`'s block, as a row of the flattened array. -/
def lrow (n : ℕ) (h : n < 16) (r : Fin 2048) : Fin 32768 := ⟨n * 2048 + r.val, by have := r.isLt; omega⟩

end Cert.GridIdx
-- ==== Proof.KI.Blocks1.lean ====
/-
  The second kernel region: from blocks to arrays.

  The grid is 16 × 2 × 4, the last axis fastest: point `n` is batch `n / 8`, query tile `(n / 4) mod 2` and key/value
  tile `n mod 4`. A block's element sits in its array, on each axis, at the block index times the block's size plus
  its own coordinate. The query tile's window and the output's window are at block (batch, query tile, 0) with
  blocks of 1 × 1024 × 512; the two key/value windows are at block (batch, key/value tile, 0) with blocks of
  1 × 512 × 512. So element (0, r, c') of a query or output block is entry (batch, 1024 · query tile + r, c') of its
  array, and element (0, j, c') of a key/value block is entry (batch, 512 · key/value tile + j, c').

  The output window is written back at the last key/value tile of each query tile only, the points `n` with
  `n mod 4 = 3`; entry (b, row, c') of the result lies in the block of point `8 b + 4 (row / 1024) + 3`, so those
  blocks fill the array, and the array after the region is whatever the blocks written back hold, entry by entry.
-/
import proofs.«142818_j42760694399404_2_alg».proof.Proof.KI.R1Frame
import proofs.«142818_j42760694399404_2_alg».proof.Proof.GridIdx
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3 eq_ix3)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region has 128 points. -/
theorem lt128 (t : Fin cfg1.N) : t.val < 128 := lt_of_lt_of_eq t.isLt N_1

/-! ## The printed index maps, decided once over the grid -/

/-- The query tile's window is at block (batch, query tile, 0). -/
theorem idx_facts0 : ∀ t : Fin cfg1.N, win1_0.index t (0 : Fin 3) = t.val / 8 ∧ win1_0.index t (1 : Fin 3) = (t.val / 4) % 2
    ∧ win1_0.index t (2 : Fin 3) = 0 :=
  (by decide +kernel : ∀ t : Fin grid1.N, _)
/-- The keys' window is at block (batch, key/value tile, 0). -/
theorem idx_facts1 : ∀ t : Fin cfg1.N, win1_1.index t (0 : Fin 3) = t.val / 8 ∧ win1_1.index t (1 : Fin 3) = t.val % 4
    ∧ win1_1.index t (2 : Fin 3) = 0 :=
  (by decide +kernel : ∀ t : Fin grid1.N, _)
/-- The values' window is at block (batch, key/value tile, 0). -/
theorem idx_facts2 : ∀ t : Fin cfg1.N, win1_2.index t (0 : Fin 3) = t.val / 8 ∧ win1_2.index t (1 : Fin 3) = t.val % 4
    ∧ win1_2.index t (2 : Fin 3) = 0 :=
  (by decide +kernel : ∀ t : Fin grid1.N, _)
/-- The output's window is at block (batch, query tile, 0). -/
theorem idx_facts3 : ∀ t : Fin cfg1.N, win1_3.index t (0 : Fin 3) = t.val / 8 ∧ win1_3.index t (1 : Fin 3) = (t.val / 4) % 2
    ∧ win1_3.index t (2 : Fin 3) = 0 :=
  (by decide +kernel : ∀ t : Fin grid1.N, _)

/-! ## The input blocks, element by element -/

/-- Element (0, r, c') of the query tile's block at point `t` is entry (batch, query row r, c') of its array. -/
theorem iblk1_0_apply (c : Dev nD) (t : Fin cfg1.N) (r : Fin 1024) (c' : Fin 512) :
    iblk1 V c 0 t (ix3 (0 : Fin 1) r c')
      = V c main_arg1 (ix3 (GridIdx.bi t.val (lt128 t)) (GridIdx.qrow t.val r) c') := by
  show V c main_arg1 (((cfg1.win 0).blk t).view.emb (ix3 (0 : Fin 1) r c')) = _
  refine congrArg (V c main_arg1) (funext fun a => Fin.ext ?_)
  obtain ⟨e0, e1, e2⟩ := idx_facts0 t
  match a with
  | ⟨0, _⟩ => show win1_0.index t (0 : Fin 3) * 1 + 1 * 0 = t.val / 8; omega
  | ⟨1, _⟩ => show win1_0.index t (1 : Fin 3) * 1024 + 1 * r.val = (t.val / 4) % 2 * 1024 + r.val; omega
  | ⟨2, _⟩ => show win1_0.index t (2 : Fin 3) * 512 + 1 * c'.val = c'.val; omega

/-- Element (0, j, c') of the keys' block at point `t` is entry (batch, key row j, c') of its array. -/
theorem iblk1_1_apply (c : Dev nD) (t : Fin cfg1.N) (j : Fin 512) (c' : Fin 512) :
    iblk1 V c 1 t (ix3 (0 : Fin 1) j c')
      = V c main_v4 (ix3 (GridIdx.bi t.val (lt128 t)) (GridIdx.krow t.val j) c') := by
  show V c main_v4 (((cfg1.win 1).blk t).view.emb (ix3 (0 : Fin 1) j c')) = _
  refine congrArg (V c main_v4) (funext fun a => Fin.ext ?_)
  obtain ⟨e0, e1, e2⟩ := idx_facts1 t
  match a with
  | ⟨0, _⟩ => show win1_1.index t (0 : Fin 3) * 1 + 1 * 0 = t.val / 8; omega
  | ⟨1, _⟩ => show win1_1.index t (1 : Fin 3) * 512 + 1 * j.val = t.val % 4 * 512 + j.val; omega
  | ⟨2, _⟩ => show win1_1.index t (2 : Fin 3) * 512 + 1 * c'.val = c'.val; omega

/-- Element (0, j, c') of the values' block at point `t` is entry (batch, key row j, c') of its array. -/
theorem iblk1_2_apply (c : Dev nD) (t : Fin cfg1.N) (j : Fin 512) (c' : Fin 512) :
    iblk1 V c 2 t (ix3 (0 : Fin 1) j c')
      = V c main_arg0 (ix3 (GridIdx.bi t.val (lt128 t)) (GridIdx.krow t.val j) c') := by
  show V c main_arg0 (((cfg1.win 2).blk t).view.emb (ix3 (0 : Fin 1) j c')) = _
  refine congrArg (V c main_arg0) (funext fun a => Fin.ext ?_)
  obtain ⟨e0, e1, e2⟩ := idx_facts2 t
  match a with
  | ⟨0, _⟩ => show win1_2.index t (0 : Fin 3) * 1 + 1 * 0 = t.val / 8; omega
  | ⟨1, _⟩ => show win1_2.index t (1 : Fin 3) * 512 + 1 * j.val = t.val % 4 * 512 + j.val; omega
  | ⟨2, _⟩ => show win1_2.index t (2 : Fin 3) * 512 + 1 * c'.val = c'.val; omega

/-! ## The output: what a point writes back, and the array after the region -/

/-- Element (0, r, c') of the output's block at point `t` sits at entry (batch, query row r, c') of the result. -/
theorem emb1_3 (t : Fin cfg1.N) (r : Fin 1024) (c' : Fin 512) :
    (((cfg1.win 3).blk t).view.emb (ix3 (0 : Fin 1) r c') : S16x2048x512.Idx)
      = ix3 (GridIdx.bi t.val (lt128 t)) (GridIdx.qrow t.val r) c' := by
  funext a
  apply Fin.ext
  obtain ⟨e0, e1, e2⟩ := idx_facts3 t
  match a with
  | ⟨0, _⟩ => show win1_3.index t (0 : Fin 3) * 1 + 1 * 0 = t.val / 8; omega
  | ⟨1, _⟩ => show win1_3.index t (1 : Fin 3) * 1024 + 1 * r.val = (t.val / 4) % 2 * 1024 + r.val; omega
  | ⟨2, _⟩ => show win1_3.index t (2 : Fin 3) * 512 + 1 * c'.val = c'.val; omega

/-- An entry of the result is in point `t`'s block iff each coordinate is in the block's range on its axis. -/
theorem mem_blk1_3 (t : Fin cfg1.N) (i : S16x2048x512.Idx) :
    i ∈ ((cfg1.win 3).blk t).view.set ↔ ∀ a : Fin 3, win1_3.index t a * S1x1024x512.size a ≤ (i a).val
      ∧ (i a).val < win1_3.index t a * S1x1024x512.size a + S1x1024x512.size a := by
  show i ∈ ((View.whole main_v5).slice (win1_3.rect t)).set ↔ _
  rw [View.set_slice_whole, Rect.mem_set_unit]
  exact Iff.rfl

/-- Every entry of the result is in the block some last-tile point writes back: entry (b, row, c') in that of point
    `8 b + 4 (row / 1024) + 3`. -/
theorem cover1_3 (i : S16x2048x512.Idx) :
    ∃ t : Fin cfg1.N, (cfg1.win 3).flush t = true ∧ i ∈ ((cfg1.win 3).blk t).view.set := by
  obtain ⟨b, row, c', rfl⟩ : ∃ (b : Fin 16) (row : Fin 2048) (c' : Fin 512), i = ix3 b row c' := ⟨i 0, i 1, i 2, eq_ix3 i⟩
  have hb : b.val < 16 := b.isLt
  have hrow : row.val < 2048 := row.isLt
  have hc' : c'.val < 512 := c'.isLt
  have hlt : 8 * b.val + 4 * (row.val / 1024) + 3 < 128 := by omega
  obtain ⟨t, tv⟩ : ∃ t : Fin cfg1.N, t.val = 8 * b.val + 4 * (row.val / 1024) + 3 :=
    ⟨⟨8 * b.val + 4 * (row.val / 1024) + 3, lt_of_lt_of_eq hlt N_1.symm⟩, rfl⟩
  obtain ⟨e0, e1, e2⟩ := idx_facts3 t
  refine ⟨t, (flush1_3 t).mpr (by omega), ?_⟩
  rw [mem_blk1_3]
  intro a
  match a with
  | ⟨0, _⟩ => show win1_3.index t (0 : Fin 3) * 1 ≤ b.val ∧ b.val < win1_3.index t (0 : Fin 3) * 1 + 1; omega
  | ⟨1, _⟩ => show win1_3.index t (1 : Fin 3) * 1024 ≤ row.val ∧ row.val < win1_3.index t (1 : Fin 3) * 1024 + 1024; omega
  | ⟨2, _⟩ => show win1_3.index t (2 : Fin 3) * 512 ≤ c'.val ∧ c'.val < win1_3.index t (2 : Fin 3) * 512 + 512; omega

/-- THE RESULT ARRAY after the region: if what every last-tile point leaves in its output block is, element by element,
    the block's entries of one array `G'`, the result array ends holding `G'`. -/
theorem arrAt_out (c : Dev nD) (G' : S16x2048x512.Idx → Elt F .f32)
    (hG : ∀ (t : Fin cfg1.N), t.val % 4 = 3 → ∀ (r : Fin 1024) (c' : Fin 512),
      (outsAt1 V c t.val t.isLt).1 (ix3 (0 : Fin 1) r c')
        = G' (ix3 (GridIdx.bi t.val (lt128 t)) (GridIdx.qrow t.val r) c')) :
    (dat1 V c).arrAt 3 cfg1.N = G' := by
  refine (dat1 V c).arrAt_eq_of_cover 3 G' (fun t hf => ?_) cover1_3
  have h3 : t.val % 4 = 3 := (flush1_3 t).mp hf
  show (cfg1.win 3).cut (grid1.coords t) ((dat1 V c).after 3 t) = _
  rw [after1_3]
  refine funext fun (y : S1x1024x512.Idx) => ?_
  obtain ⟨z, r, c', rfl⟩ : ∃ (z : Fin 1) (r : Fin 1024) (c' : Fin 512), y = ix3 z r c' := ⟨y 0, y 1, y 2, eq_ix3 y⟩
  obtain rfl : z = 0 := Subsingleton.elim _ _
  show (outsAt1 V c t.val t.isLt).1 (ix3 (0 : Fin 1) r c') = G' (((cfg1.win 3).blk t).view.emb (ix3 (0 : Fin 1) r c'))
  rw [hG t h3 r c']
  exact congrArg G' (emb1_3 t r c').symm

end Cert.KernelIdeal.Fr

end
-- ==== Proof.Payloads.lean ====
import proofs.«142818_j42760694399404_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
The arithmetic of the two kernel bodies, one named value at a time, read at one index at the ideal
instance (floats are extended reals, every operation exact, a format change the identity).

Each lemma states what one value of a body is at coordinates `(r, j)`, in terms of the values it is
computed from at coordinates: a matrix product is the sum over the contracted coordinate of the
products of the entries, a row reduction is the sum or the maximum over the row, a column `[n, 1]`
broadcast along a row reads its one entry of that row, and the pointwise operations act entrywise.
-/

noncomputable section

namespace Cert.KernelIdeal.Pay

open Cert.KernelIdeal Cert.KernelIdeal.Gen Idealize.ShloMosaic Idealize.ShloMosaic.ValueIdx Idealize.SL.Sem
open scoped BigOperators

/-! ## A matrix product read at an entry

For the dimension numbers "contract the left operand's columns with the right operand's rows", the
left operand is read at `(row, k)` and the right one at `(k, column)`, `k` the contracted coordinate. -/

/-- The product `[1024, 512] × [512, 512]`, named once. -/
abbrev D1 : DotDims S1024x512 S512x512 S1024x512 := dot_S1024x512_S512x512_S1024x512_1_0_0_1_n_n

theorem D1_lhs_0 (i : S1024x512.Idx) (q : D1.contr.Idx) : (D1.lhsIdx i q 0).val = (i 0).val := by
  unfold DotDims.lhsIdx
  rw [dif_neg (show ¬(0 : Fin S1024x512.rank) ∈ D1.lhsBatch by decide), dif_pos (show (0 : Fin S1024x512.rank) ∈ D1.lhsNonContracting by decide)]
  rfl
theorem D1_lhs_1 (i : S1024x512.Idx) (q : D1.contr.Idx) : (D1.lhsIdx i q 1).val = (q ⟨0, by decide⟩).val :=
  D1.lhsIdx_val_of_single rfl i q
theorem D1_rhs_0 (i : S1024x512.Idx) (q : D1.contr.Idx) : (D1.rhsIdx i q 0).val = (q ⟨0, by decide⟩).val :=
  D1.rhsIdx_val_of_single rfl i q
theorem D1_rhs_1 (i : S1024x512.Idx) (q : D1.contr.Idx) : (D1.rhsIdx i q 1).val = (i 1).val := by
  unfold DotDims.rhsIdx
  rw [dif_neg (show ¬(1 : Fin S512x512.rank) ∈ D1.rhsBatch by decide), dif_pos (show (1 : Fin S512x512.rank) ∈ D1.rhsNonContracting by decide)]
  rfl

/-- Entry `(r, j)` of the product accumulated into zero: `∑ c, a (r, c) * b (c, j)`. -/
theorem matmul_D1_apply {φ₁ φ₂ : FTy} (a : FVec Ideal S1024x512 φ₁) (b : FVec Ideal S512x512 φ₂) (r : Fin 1024) (j : Fin 512) :
    matmul (F := Ideal) D1 none a b (constant S1024x512 .f32 0x00000000#32) (ix2 r j)
      = ∑ c : Fin 512, a (ix2 r c) * b (ix2 c j) := by
  refine (Ideal.matmul_constant_zero_apply D1 none a b (ix2 r j)).trans ?_
  rw [← Equiv.sum_comp (contrEquiv1 D1 512 rfl rfl).symm]
  refine Finset.sum_congr rfl fun c _ => ?_
  have hc := contrEquiv1_symm_val D1 512 rfl rfl c
  have el : D1.lhsIdx (ix2 r j) ((contrEquiv1 D1 512 rfl rfl).symm c) = ix2 r c := funext fun ax => Fin.ext (by
    match ax with
    | ⟨0, _⟩ => exact D1_lhs_0 _ _
    | ⟨1, _⟩ => exact (D1_lhs_1 _ _).trans hc)
  have er : D1.rhsIdx (ix2 r j) ((contrEquiv1 D1 512 rfl rfl).symm c) = ix2 c j := funext fun ax => Fin.ext (by
    match ax with
    | ⟨0, _⟩ => exact (D1_rhs_0 _ _).trans hc
    | ⟨1, _⟩ => exact D1_rhs_1 _ _)
  rw [el, er]

/-! ## The scores of one key tile -/

/-- The scores: row `r` of the queries against row `j` of the key tile (the tile enters transposed). -/
theorem pay8 (v3 : Vec Ideal S1024x512 .bf16) (v4 : Vec Ideal S1x512x512 .bf16) (r : Fin 1024) (j : Fin 512) :
    k1_pay8 (F := Ideal) v3 v4 (ix2 r j) = ∑ c : Fin 512, v3 (ix2 r c) * v4 (ix3 (0 : Fin 1) j c) := by
  refine (matmul_D1_apply v3 _ r j).trans ?_
  refine Finset.sum_congr rfl fun c _ => ?_
  refine congrArg (v3 (ix2 r c) * ·) ?_
  refine (transpose_ix2_apply _ _ c j).trans ?_
  exact shapeCast_1ab_ab_apply v4 _ j c

/-! ## A column `[n, 1]`: made from a vector, and broadcast along the rows -/

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of a `[1024, 512]` block with the column coordinate `k` put back is `(r, k)`. -/
theorem lift_row (h : S1024x512.Reduces [1] S1024) (r : Fin 1024) (k : Fin 512) : h.lift (ix1 r) k = ix2 r k :=
  funext fun ax => Fin.ext (by match ax with | ⟨0, _⟩ => rfl | ⟨1, _⟩ => rfl)

/-- The word `0xFF800000` read as a 32-bit float is `-∞`. -/
theorem ofBits_neg_inf_f32 : Ideal.ofBits .f32 0xFF800000#32 = ⊥ := by simp [Ideal.ofBits, Ideal.ieee]

/-- The running maximum: the old one against the maximum of the row of scores. -/
theorem pay9 (v3 : Vec Ideal S1024x512 .bf16) (v4 : Vec Ideal S1x512x512 .bf16) (v8 : Vec Ideal S1024x1 .f32) (r : Fin 1024) :
    k1_pay9 (F := Ideal) v3 v4 v8 (ix2 r (0 : Fin 1))
      = max (v8 (ix2 r (0 : Fin 1))) (Finset.univ.fold max ⊥ fun j : Fin 512 => k1_pay8 (F := Ideal) v3 v4 (ix2 r j)) := by
  unfold k1_pay9
  refine (maximumf_apply _ _ _).trans ?_
  refine congrArg (max (v8 (ix2 r (0 : Fin 1)))) ?_
  refine (shapeCast_a_a1_apply _ _ r 0).trans ?_
  refine (Ideal.multiReduction_maximumf_single (k1_pay8 (F := Ideal) v3 v4) 0xFF800000#32 reduces_S1024x512_S1024 (.inl rfl) rfl (ix1 r)).trans ?_
  have hf : (k1_pay8 (F := Ideal) v3 v4 ∘ reduces_S1024x512_S1024.lift (ix1 r)) = fun j : Fin 512 => k1_pay8 (F := Ideal) v3 v4 (ix2 r j) :=
    funext fun j => congrArg (k1_pay8 (F := Ideal) v3 v4) (lift_row _ r j)
  rw [hf]
  exact congrArg (fun b => Finset.fold max b (fun j : Fin 512 => k1_pay8 (F := Ideal) v3 v4 (ix2 r j)) Finset.univ) ofBits_neg_inf_f32

/-- The weights of the tile: the exponential of a score less the new running maximum of its row. -/
theorem pay11 (v3 : Vec Ideal S1024x512 .bf16) (v4 : Vec Ideal S1x512x512 .bf16) (v8 : Vec Ideal S1024x1 .f32) (r : Fin 1024) (j : Fin 512) :
    k1_pay11 (F := Ideal) v3 v4 v8 (ix2 r j)
      = Ideal.exp (k1_pay8 (F := Ideal) v3 v4 (ix2 r j) - k1_pay9 (F := Ideal) v3 v4 v8 (ix2 r (0 : Fin 1))) := by
  unfold k1_pay11
  exact congrArg (fun t => Ideal.exp (k1_pay8 (F := Ideal) v3 v4 (ix2 r j) - t))
    (broadcastTo_a1_ab_apply (k1_pay9 (F := Ideal) v3 v4 v8) _ r j)

/-- The rescaling factor of a row: the exponential of the old running maximum less the new one. -/
theorem pay10 (v3 : Vec Ideal S1024x512 .bf16) (v4 : Vec Ideal S1x512x512 .bf16) (v8 v12 : Vec Ideal S1024x1 .f32) (r : Fin 1024) :
    k1_pay10 (F := Ideal) v3 v4 v8 v12 (ix2 r (0 : Fin 1))
      = Ideal.exp (v12 (ix2 r (0 : Fin 1)) - k1_pay9 (F := Ideal) v3 v4 v8 (ix2 r (0 : Fin 1))) := rfl

/-- The running denominator: the old one rescaled, plus the sum of the row of weights. -/
theorem pay12 (v3 : Vec Ideal S1024x512 .bf16) (v4 : Vec Ideal S1x512x512 .bf16) (v8 v12 v18 : Vec Ideal S1024x1 .f32) (r : Fin 1024) :
    k1_pay12 (F := Ideal) v3 v4 v8 v12 v18 (ix2 r (0 : Fin 1))
      = k1_pay10 (F := Ideal) v3 v4 v8 v12 (ix2 r (0 : Fin 1)) * v18 (ix2 r (0 : Fin 1))
        + ∑ j : Fin 512, k1_pay11 (F := Ideal) v3 v4 v8 (ix2 r j) := by
  unfold k1_pay12
  rw [shapeCast_self]
  refine (addf_apply _ _ _).trans ?_
  refine congrArg (k1_pay10 (F := Ideal) v3 v4 v8 v12 (ix2 r (0 : Fin 1)) * v18 (ix2 r (0 : Fin 1)) + ·) ?_
  refine (shapeCast_a_a1_apply _ _ r 0).trans ?_
  refine (Ideal.multiReduction_add_single (k1_pay11 (F := Ideal) v3 v4 v8) 0x00000000#32 reduces_S1024x512_S1024 (.inl rfl) rfl (ix1 r)).trans ?_
  exact Finset.sum_congr rfl fun j _ => congrArg (k1_pay11 (F := Ideal) v3 v4 v8) (lift_row _ r j)

/-! ## The accumulator -/

/-- A value tile without its unit axis. -/
theorem pay13 (v26 : Vec Ideal S1x512x512 .f32) (j c : Fin 512) :
    k1_pay13 (F := Ideal) v26 (ix2 j c) = v26 (ix3 (0 : Fin 1) j c) := by
  unfold k1_pay13
  exact shapeCast_1ab_ab_apply v26 _ j c

/-- The old accumulator rescaled, row by row. -/
theorem pay14 (v3 : Vec Ideal S1024x512 .bf16) (v4 : Vec Ideal S1x512x512 .bf16) (v8 v12 : Vec Ideal S1024x1 .f32)
    (v28 : Vec Ideal S1024x512 .f32) (r : Fin 1024) (c : Fin 512) :
    k1_pay14 (F := Ideal) v3 v4 v8 v12 v28 (ix2 r c)
      = k1_pay10 (F := Ideal) v3 v4 v8 v12 (ix2 r (0 : Fin 1)) * v28 (ix2 r c) := by
  unfold k1_pay14
  exact congrArg (· * v28 (ix2 r c)) (broadcastTo_a1_ab_apply (k1_pay10 (F := Ideal) v3 v4 v8 v12) _ r c)

/-- The weights, unchanged by the change of format. -/
theorem pay15 (v3 : Vec Ideal S1024x512 .bf16) (v4 : Vec Ideal S1x512x512 .bf16) (v8 : Vec Ideal S1024x1 .f32) (r : Fin 1024) (j : Fin 512) :
    k1_pay15 (F := Ideal) v3 v4 v8 (ix2 r j) = k1_pay11 (F := Ideal) v3 v4 v8 (ix2 r j) := rfl

/-- The new accumulator: the rescaled one plus the weights times the value tile. -/
theorem pay1 (v27 : FVec Ideal S512x512 .f32) (v30 : FVec Ideal S1024x512 .f32) (v31 : FVec Ideal S1024x512 .bf16)
    (r : Fin 1024) (c : Fin 512) :
    k1_pay1 (F := Ideal) v27 v30 v31 (ix2 r c) = v30 (ix2 r c) + ∑ j : Fin 512, v31 (ix2 r j) * v27 (ix2 j c) := by
  unfold k1_pay1
  rw [shapeCast_self]
  refine (addf_apply _ _ _).trans ?_
  exact congrArg (v30 (ix2 r c) + ·) (matmul_D1_apply v31 _ r c)

/-- The running maximum, stored as it is. -/
theorem pay2 (v11 : FVec Ideal S1024x1 .f32) (r : Fin 1024) :
    k1_pay2 (F := Ideal) v11 (ix2 r (0 : Fin 1)) = v11 (ix2 r (0 : Fin 1)) := by
  unfold k1_pay2
  rw [shapeCast_self]

/-! ## The last tile's output, and the first tile's resets -/

/-- The output: the hyperbolic tangent of the accumulator over the denominator of its row. -/
theorem pay3 (v44 : Vec Ideal S1024x512 .f32) (v45 : Vec Ideal S1024x1 .f32) (r : Fin 1024) (c : Fin 512) :
    k1_pay3 (F := Ideal) v44 v45 (ix3 (0 : Fin 1) r c)
      = Ideal.tanh (Ideal.div (v44 (ix2 r c)) (v45 (ix2 r (0 : Fin 1)))) := by
  unfold k1_pay3
  refine (shapeCast_ab_1ab_apply _ _ (0 : Fin 1) r c).trans ?_
  exact congrArg (fun t => Ideal.tanh (Ideal.div (v44 (ix2 r c)) t)) (broadcastTo_a1_ab_apply v45 _ r c)

/-- The running maximum starts at `-∞`. -/
theorem pay4 (r : Fin 1024) : k1_pay4 (F := Ideal) (ix2 r (0 : Fin 1)) = ⊥ := by
  unfold k1_pay4
  rw [shapeCast_self]
  exact ofBits_neg_inf_f32

/-- The running denominator starts at zero. -/
theorem pay5 (r : Fin 1024) : k1_pay5 (F := Ideal) (ix2 r (0 : Fin 1)) = 0 := by
  unfold k1_pay5
  rw [shapeCast_self]
  exact Ideal.ofBits_zero_f32

/-- The accumulator starts at zero. -/
theorem pay6 (r : Fin 1024) (c : Fin 512) : k1_pay6 (F := Ideal) (ix2 r c) = 0 := by
  unfold k1_pay6
  rw [shapeCast_self]
  exact Ideal.ofBits_zero_f32

/-- The queries kept for the later tiles: the hyperbolic tangent of the input block. -/
theorem pay7 (v56 : Vec Ideal S1x1024x512 .f32) (r : Fin 1024) (c : Fin 512) :
    k1_pay7 (F := Ideal) v56 (ix2 r c) = Ideal.tanh (v56 (ix3 (0 : Fin 1) r c)) := by
  unfold k1_pay7
  rw [shapeCast_self]
  exact congrArg Ideal.tanh (shapeCast_1ab_ab_apply v56 _ r c)

/-! ## The linear layer -/

/-- The product `[2048, 512] × [512, 512]`, named once. -/
abbrev D0 : DotDims S2048x512 S512x512 S2048x512 := dot_S2048x512_S512x512_S2048x512_1_0_0_1_n_n

theorem D0_lhs_0 (i : S2048x512.Idx) (q : D0.contr.Idx) : (D0.lhsIdx i q 0).val = (i 0).val := by
  unfold DotDims.lhsIdx
  rw [dif_neg (show ¬(0 : Fin S2048x512.rank) ∈ D0.lhsBatch by decide), dif_pos (show (0 : Fin S2048x512.rank) ∈ D0.lhsNonContracting by decide)]
  rfl
theorem D0_lhs_1 (i : S2048x512.Idx) (q : D0.contr.Idx) : (D0.lhsIdx i q 1).val = (q ⟨0, by decide⟩).val :=
  D0.lhsIdx_val_of_single rfl i q
theorem D0_rhs_0 (i : S2048x512.Idx) (q : D0.contr.Idx) : (D0.rhsIdx i q 0).val = (q ⟨0, by decide⟩).val :=
  D0.rhsIdx_val_of_single rfl i q
theorem D0_rhs_1 (i : S2048x512.Idx) (q : D0.contr.Idx) : (D0.rhsIdx i q 1).val = (i 1).val := by
  unfold DotDims.rhsIdx
  rw [dif_neg (show ¬(1 : Fin S512x512.rank) ∈ D0.rhsBatch by decide), dif_pos (show (1 : Fin S512x512.rank) ∈ D0.rhsNonContracting by decide)]
  rfl

/-- Entry `(r, j)` of the product accumulated into zero: `∑ c, a (r, c) * b (c, j)`. -/
theorem matmul_D0_apply {φ₁ φ₂ : FTy} (a : FVec Ideal S2048x512 φ₁) (b : FVec Ideal S512x512 φ₂) (r : Fin 2048) (j : Fin 512) :
    matmul (F := Ideal) D0 none a b (constant S2048x512 .f32 0x00000000#32) (ix2 r j)
      = ∑ c : Fin 512, a (ix2 r c) * b (ix2 c j) := by
  refine (Ideal.matmul_constant_zero_apply D0 none a b (ix2 r j)).trans ?_
  rw [← Equiv.sum_comp (contrEquiv1 D0 512 rfl rfl).symm]
  refine Finset.sum_congr rfl fun c _ => ?_
  have hc := contrEquiv1_symm_val D0 512 rfl rfl c
  have el : D0.lhsIdx (ix2 r j) ((contrEquiv1 D0 512 rfl rfl).symm c) = ix2 r c := funext fun ax => Fin.ext (by
    match ax with
    | ⟨0, _⟩ => exact D0_lhs_0 _ _
    | ⟨1, _⟩ => exact (D0_lhs_1 _ _).trans hc)
  have er : D0.rhsIdx (ix2 r j) ((contrEquiv1 D0 512 rfl rfl).symm c) = ix2 c j := funext fun ax => Fin.ext (by
    match ax with
    | ⟨0, _⟩ => exact (D0_rhs_0 _ _).trans hc
    | ⟨1, _⟩ => exact D0_rhs_1 _ _)
  rw [el, er]

/-- The linear layer: a row of the input against a column of the weights, plus the bias of that column. -/
theorem pay0 (v0 : Vec Ideal S2048x512 .f32) (v3 : Vec Ideal S512x512 .f32) (v7 : Vec Ideal S1x512 .f32) (r : Fin 2048) (d : Fin 512) :
    k0_pay1 (F := Ideal) v0 v3 v7 (ix2 r d)
      = (∑ c : Fin 512, v0 (ix2 r c) * v3 (ix2 c d)) + v7 (ix2 (0 : Fin 1) d) := by
  unfold k0_pay1
  rw [shapeCast_self, shapeCast_self, shapeCast_self]
  refine (addf_apply _ _ _).trans ?_
  refine (congrArg (· + _) (matmul_D0_apply _ _ r d)).trans ?_
  exact congrArg ((∑ c : Fin 512, v0 (ix2 r c) * v3 (ix2 c d)) + ·) (broadcastTo_1b_ab_apply v7 _ r d)

end Cert.KernelIdeal.Pay

end
-- ==== Proof.LibOnlineSoftmax.lean ====
/-
  Softmax-weighted sums accumulated tile by tile ("online softmax").

  A row of scores `s t` and values `v t`, `t` ranging over `n` tiles of `K` keys each, is consumed one tile at a
  time, keeping a running maximum `m`, a running normaliser `l` and a running weighted sum `acc`:
    m'   = max m (max over the tile of s)
    l'   = exp (m - m') * l   + sum over the tile of exp (s - m')
    acc' = exp (m - m') * acc + sum over the tile of exp (s - m') * v
  from `m = -inf`, `l = 0`, `acc = 0`. After the last tile `acc / l` is the softmax-weighted sum of the whole row,
  `sum_t (exp (s t - M) / L) * v t` with `M` the row's maximum and `L = sum_u exp (s u - M)`: after `k` tiles
  `l = sum_{t seen} exp (s t - m)` and `acc = sum_{t seen} exp (s t - m) * v t` with `m` the maximum seen, because
  rescaling by `exp (m - m')` turns every `exp (s t - m)` into `exp (s t - m')`; at the first tile `m = -inf`,
  `exp (-inf) = 0` and the products with the zero state vanish. Everything is finite when the scores and values
  are real numbers and a tile is not empty, and the statement is over the extended reals with the exact
  operations of the ideal float instance (`Ideal.exp`, `Ideal.div`).
-/
import Idealize.ShloMosaic.PureOps.Ideal

noncomputable section

namespace Cert.OnlineSoftmax

open Idealize.ShloMosaic

/-- The running state: the maximum seen, the normaliser and the weighted sum, both relative to that maximum. -/
structure St where
  m : EReal
  l : EReal
  acc : EReal

/-- Before the first tile: maximum `-inf`, empty sums. -/
def init : St := ⟨⊥, 0, 0⟩

/-- One tile of `K` keys with scores `s` and values `v`. -/
def step {K : ℕ} (s v : Fin K → EReal) (st : St) : St :=
  ⟨max st.m (Finset.univ.fold max ⊥ s),
   Ideal.exp (st.m - max st.m (Finset.univ.fold max ⊥ s)) * st.l
     + ∑ j, Ideal.exp (s j - max st.m (Finset.univ.fold max ⊥ s)),
   Ideal.exp (st.m - max st.m (Finset.univ.fold max ⊥ s)) * st.acc
     + ∑ j, Ideal.exp (s j - max st.m (Finset.univ.fold max ⊥ s)) * v j⟩

/-- The state after the first `n` tiles. -/
def run {K : ℕ} (s v : ℕ → Fin K → EReal) : ℕ → St
  | 0 => init
  | n + 1 => step (s n) (v n) (run s v n)

/-- The softmax-weighted sum of a whole row, as a plain softmax computes it: subtract the row's maximum, exponentiate,
    divide by the sum, weigh the values. -/
def refRow {N : ℕ} (s v : Fin N → EReal) : EReal :=
  ∑ t, Ideal.div (Ideal.exp (s t - max ⊥ (Finset.univ.fold max ⊥ s)))
        (0 + ∑ u, Ideal.exp (s u - max ⊥ (Finset.univ.fold max ⊥ s))) * v t

/-- Key `j` of tile `b` in a row of `n` tiles of `K` keys. -/
def flat {n K : ℕ} (b : ℕ) (hb : b < n) (j : Fin K) : Fin (n * K) :=
  ⟨b * K + j.val, by
    have : b * K + j.val < (b + 1) * K := by rw [Nat.add_mul, Nat.one_mul]; exact Nat.add_lt_add_left j.isLt _
    exact lt_of_lt_of_le this (Nat.mul_le_mul_right K hb)⟩

/-- The coercion into the extended reals of a finite sum of reals is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The maximum of two reals, taken in the extended reals, is the coercion of their real maximum. -/
theorem coe_max (x y : ℝ) : max (x : EReal) (y : EReal) = ((max x y : ℝ) : EReal) :=
  (EReal.coe_strictMono.monotone.map_max).symm

/-- The maximum of finitely many reals, folded in the extended reals from `-inf`, is `-inf` (no term) or a real. -/
theorem fold_max_coe {ι : Type*} (S : Finset ι) (f : ι → ℝ) :
    S.fold max ⊥ (fun i => (f i : EReal)) = ⊥
      ∨ ∃ r : ℝ, S.fold max ⊥ (fun i => (f i : EReal)) = (r : EReal) := by
  classical
  induction S using Finset.induction_on with
  | empty => left; simp
  | insert a S ha ih =>
    right
    rw [Finset.fold_insert ha]
    rcases ih with h | ⟨r, h⟩
    · exact ⟨f a, by rw [h, max_bot_right]⟩
    · exact ⟨max (f a) r, by rw [h, coe_max]⟩

/-- The maximum of a nonempty finite family of reals, folded in the extended reals from `-inf`, is a real. -/
theorem fold_max_coe_of_nonempty {ι : Type*} {S : Finset ι} (hS : S.Nonempty) (f : ι → ℝ) :
    ∃ r : ℝ, S.fold max ⊥ (fun i => (f i : EReal)) = (r : EReal) := by
  rcases fold_max_coe S f with h | h
  · obtain ⟨a, ha⟩ := hS
    have hle : ((f a : ℝ) : EReal) ≤ S.fold max ⊥ (fun i => (f i : EReal)) :=
      (Finset.le_fold_max _).2 (Or.inr ⟨a, ha, le_rfl⟩)
    rw [h] at hle
    exact absurd (le_bot_iff.1 hle) (EReal.coe_ne_bot _)
  · exact h

/-- The first tile: from the empty state, a nonempty tile of real scores `sr` and real values `vr` gives a real
    maximum `m`, the normaliser `sum_j exp (sr j - m)` and the weighted sum `sum_j exp (sr j - m) * vr j`. -/
theorem step_init {K : ℕ} (hK : 0 < K) (sr vr : Fin K → ℝ) (s v : Fin K → EReal)
    (hs : ∀ j, s j = ((sr j : ℝ) : EReal)) (hv : ∀ j, v j = ((vr j : ℝ) : EReal)) :
    ∃ m : ℝ, (step s v init).m = (m : EReal)
      ∧ (step s v init).l = ((∑ j, Real.exp (sr j - m) : ℝ) : EReal)
      ∧ (step s v init).acc = ((∑ j, Real.exp (sr j - m) * vr j : ℝ) : EReal) := by
  obtain rfl : s = fun j => ((sr j : ℝ) : EReal) := funext hs
  obtain rfl : v = fun j => ((vr j : ℝ) : EReal) := funext hv
  haveI : Nonempty (Fin K) := ⟨⟨0, hK⟩⟩
  obtain ⟨m, hm⟩ := fold_max_coe_of_nonempty (Finset.univ_nonempty (α := Fin K)) sr
  have hm' : max (⊥ : EReal) (Finset.univ.fold max ⊥ fun j => ((sr j : ℝ) : EReal)) = (m : EReal) := by
    rw [max_bot_left, hm]
  refine ⟨m, hm', ?_, ?_⟩
  · show Ideal.exp (⊥ - max (⊥ : EReal) _) * (0 : EReal) + ∑ j, Ideal.exp (((sr j : ℝ) : EReal) - max (⊥ : EReal) _) = _
    rw [hm', mul_zero, zero_add, coe_sum]
    exact Finset.sum_congr rfl fun j _ => by rw [← EReal.coe_sub, Ideal.exp_coe]
  · show Ideal.exp (⊥ - max (⊥ : EReal) _) * (0 : EReal)
        + ∑ j, Ideal.exp (((sr j : ℝ) : EReal) - max (⊥ : EReal) _) * ((vr j : ℝ) : EReal) = _
    rw [hm', mul_zero, zero_add, coe_sum]
    exact Finset.sum_congr rfl fun j _ => by rw [← EReal.coe_sub, Ideal.exp_coe, EReal.coe_mul]

/-- A later tile: from a state with real maximum `m`, normaliser `L` and weighted sum `A`, a tile of real scores
    `sr` and real values `vr` gives a real maximum `m'`, the normaliser `exp (m - m') * L + sum_j exp (sr j - m')` and
    the weighted sum `exp (m - m') * A + sum_j exp (sr j - m') * vr j`. -/
theorem step_coe {K : ℕ} (sr vr : Fin K → ℝ) (s v : Fin K → EReal)
    (hs : ∀ j, s j = ((sr j : ℝ) : EReal)) (hv : ∀ j, v j = ((vr j : ℝ) : EReal))
    (st : St) (m L A : ℝ) (hm : st.m = (m : EReal)) (hl : st.l = (L : EReal)) (hacc : st.acc = (A : EReal)) :
    ∃ m' : ℝ, (step s v st).m = (m' : EReal)
      ∧ (step s v st).l = ((Real.exp (m - m') * L + ∑ j, Real.exp (sr j - m') : ℝ) : EReal)
      ∧ (step s v st).acc = ((Real.exp (m - m') * A + ∑ j, Real.exp (sr j - m') * vr j : ℝ) : EReal) := by
  obtain rfl : s = fun j => ((sr j : ℝ) : EReal) := funext hs
  obtain rfl : v = fun j => ((vr j : ℝ) : EReal) := funext hv
  obtain ⟨m', hm'⟩ : ∃ m' : ℝ,
      max st.m (Finset.univ.fold max ⊥ fun j => ((sr j : ℝ) : EReal)) = (m' : EReal) := by
    rw [hm]
    rcases fold_max_coe Finset.univ sr with h | ⟨r, h⟩
    · exact ⟨m, by rw [h, max_bot_right]⟩
    · exact ⟨max m r, by rw [h, coe_max]⟩
  refine ⟨m', hm', ?_, ?_⟩
  · show Ideal.exp (st.m - max st.m _) * st.l + ∑ j, Ideal.exp (((sr j : ℝ) : EReal) - max st.m _) = _
    rw [hm', hm, hl, EReal.coe_add, EReal.coe_mul, coe_sum, ← EReal.coe_sub, Ideal.exp_coe]
    congr 1
  · show Ideal.exp (st.m - max st.m _) * st.acc
        + ∑ j, Ideal.exp (((sr j : ℝ) : EReal) - max st.m _) * ((vr j : ℝ) : EReal) = _
    rw [hm', hm, hacc, EReal.coe_add, EReal.coe_mul, coe_sum, ← EReal.coe_sub, Ideal.exp_coe]
    congr 1

/-- The invariant of the tile-by-tile computation. After `k + 1` nonempty tiles of real scores `sr b j` and real
    values `vr b j` the maximum is a real `m`, the normaliser is `sum_{b <= k} sum_j exp (sr b j - m)` and the weighted
    sum is `sum_{b <= k} sum_j exp (sr b j - m) * vr b j`. -/
theorem run_coe {K : ℕ} (hK : 0 < K) (sr vr : ℕ → Fin K → ℝ) (sb vb : ℕ → Fin K → EReal) (k : ℕ)
    (hs : ∀ b, b < k + 1 → ∀ j, sb b j = ((sr b j : ℝ) : EReal))
    (hv : ∀ b, b < k + 1 → ∀ j, vb b j = ((vr b j : ℝ) : EReal)) :
    ∃ m : ℝ, (run sb vb (k + 1)).m = (m : EReal)
      ∧ (run sb vb (k + 1)).l = ((∑ b ∈ Finset.range (k + 1), ∑ j, Real.exp (sr b j - m) : ℝ) : EReal)
      ∧ (run sb vb (k + 1)).acc
          = ((∑ b ∈ Finset.range (k + 1), ∑ j, Real.exp (sr b j - m) * vr b j : ℝ) : EReal) := by
  induction k with
  | zero =>
    obtain ⟨m, h1, h2, h3⟩ := step_init hK (sr 0) (vr 0) (sb 0) (vb 0) (hs 0 (by omega)) (hv 0 (by omega))
    refine ⟨m, h1, ?_, ?_⟩
    · rw [Finset.sum_range_one]; exact h2
    · rw [Finset.sum_range_one]; exact h3
  | succ k ih =>
    obtain ⟨m, h1, h2, h3⟩ := ih (fun b hb => hs b (by omega)) (fun b hb => hv b (by omega))
    obtain ⟨m', g1, g2, g3⟩ := step_coe (sr (k + 1)) (vr (k + 1)) (sb (k + 1)) (vb (k + 1))
      (hs (k + 1) (by omega)) (hv (k + 1) (by omega)) (run sb vb (k + 1)) m _ _ h1 h2 h3
    have hexp : ∀ x : ℝ, Real.exp (m - m') * Real.exp (x - m) = Real.exp (x - m') := by
      intro x; rw [← Real.exp_add]; congr 1; ring
    refine ⟨m', g1, ?_, ?_⟩
    · refine g2.trans ?_
      congr 1
      rw [Finset.sum_range_succ _ (k + 1), Finset.mul_sum]
      congr 1
      refine Finset.sum_congr rfl fun b _ => ?_
      rw [Finset.mul_sum]
      exact Finset.sum_congr rfl fun j _ => hexp _
    · refine g3.trans ?_
      congr 1
      rw [Finset.sum_range_succ _ (k + 1), Finset.mul_sum]
      congr 1
      refine Finset.sum_congr rfl fun b _ => ?_
      rw [Finset.mul_sum]
      exact Finset.sum_congr rfl fun j _ => by rw [← mul_assoc, hexp]

/-- A sum over a row of `n` tiles of `K` keys is the sum over the tiles of the sums over each tile's keys. -/
theorem sum_flat {n K : ℕ} (g : Fin (n * K) → ℝ) (G : ℕ → Fin K → ℝ)
    (hG : ∀ (b : ℕ) (hb : b < n) (j : Fin K), G b j = g (flat b hb j)) :
    ∑ b ∈ Finset.range n, ∑ j, G b j = ∑ t, g t := by
  rw [Finset.sum_range, ← (finProdFinEquiv (m := n) (n := K)).sum_comp g, Fintype.sum_prod_type]
  refine Finset.sum_congr rfl fun b _ => Finset.sum_congr rfl fun j _ => ?_
  rw [hG b b.isLt j]
  congr 1
  apply Fin.ext
  rw [finProdFinEquiv_apply_val]
  show b.val * K + j.val = j.val + K * b.val
  rw [Nat.mul_comm, Nat.add_comm]

/-- The softmax-weighted sum does not depend on the reference point subtracted inside the exponentials: with any
    `m` in place of the maximum `M`, `(sum_t exp (s t - m) * v t) / sum_t exp (s t - m)` is
    `sum_t (exp (s t - M) / sum_u exp (s u - M)) * v t`. -/
theorem weighted_sum_shift {ι : Type*} [Fintype ι] [Nonempty ι] (s v : ι → ℝ) (m M : ℝ) :
    (∑ t, Real.exp (s t - m) * v t) * (1 / ∑ t, Real.exp (s t - m))
      = ∑ t, Real.exp (s t - M) * (1 / ∑ u, Real.exp (s u - M)) * v t := by
  have h : ∀ t, Real.exp (s t - m) = Real.exp (M - m) * Real.exp (s t - M) := by
    intro t; rw [← Real.exp_add]; congr 1; ring
  have hc : Real.exp (M - m) ≠ 0 := (Real.exp_pos _).ne'
  have hL : (∑ u, Real.exp (s u - M)) ≠ 0 :=
    (Finset.sum_pos (fun u _ => Real.exp_pos (s u - M)) Finset.univ_nonempty).ne'
  have h1 : ∑ t, Real.exp (s t - m) = Real.exp (M - m) * ∑ u, Real.exp (s u - M) := by
    rw [Finset.mul_sum]; exact Finset.sum_congr rfl fun t _ => h t
  have h2 : ∑ t, Real.exp (s t - m) * v t = Real.exp (M - m) * ∑ t, Real.exp (s t - M) * v t := by
    rw [Finset.mul_sum]; exact Finset.sum_congr rfl fun t _ => by rw [h t, mul_assoc]
  have h3 : ∑ t, Real.exp (s t - M) * (1 / ∑ u, Real.exp (s u - M)) * v t
      = (1 / ∑ u, Real.exp (s u - M)) * ∑ t, Real.exp (s t - M) * v t := by
    rw [Finset.mul_sum]; exact Finset.sum_congr rfl fun t _ => by ring
  rw [h1, h2, h3]
  field_simp

/-- The plain softmax-weighted sum of a nonempty row of real scores and values is the real number
    `sum_t exp (s t - M) * (1 / sum_u exp (s u - M)) * v t`, for a real `M` (the row's maximum). -/
theorem refRow_coe {N : ℕ} (hN : 0 < N) (s v : Fin N → ℝ) :
    ∃ M : ℝ, refRow (fun t => ((s t : ℝ) : EReal)) (fun t => ((v t : ℝ) : EReal))
      = ((∑ t, Real.exp (s t - M) * (1 / ∑ u, Real.exp (s u - M)) * v t : ℝ) : EReal) := by
  haveI : Nonempty (Fin N) := ⟨⟨0, hN⟩⟩
  obtain ⟨M, hM⟩ := fold_max_coe_of_nonempty (Finset.univ_nonempty (α := Fin N)) s
  have hM' : max (⊥ : EReal) (Finset.univ.fold max ⊥ fun t => ((s t : ℝ) : EReal)) = (M : EReal) := by
    rw [max_bot_left, hM]
  have hL : (∑ u, Real.exp (s u - M)) ≠ 0 :=
    (Finset.sum_pos (fun u _ => Real.exp_pos (s u - M)) Finset.univ_nonempty).ne'
  have hexp : ∀ t, Ideal.exp (((s t : ℝ) : EReal) - (M : EReal)) = ((Real.exp (s t - M) : ℝ) : EReal) := by
    intro t; rw [← EReal.coe_sub, Ideal.exp_coe]
  refine ⟨M, ?_⟩
  unfold refRow
  rw [hM', coe_sum]
  refine Finset.sum_congr rfl fun t _ => ?_
  rw [zero_add, hexp t, Finset.sum_congr rfl (fun u _ => hexp u), ← coe_sum, Ideal.div_coe hL,
    ← EReal.coe_mul, ← EReal.coe_mul]

/-- After all `n` tiles of a row of real scores and values, `acc / l` is the row's softmax-weighted sum. -/
theorem run_div_eq_refRow {n K : ℕ} (hn : 0 < n) (hK : 0 < K) (s v : Fin (n * K) → ℝ)
    (sb vb : ℕ → Fin K → EReal)
    (hs : ∀ (b : ℕ) (hb : b < n) (j : Fin K), sb b j = ((s (flat b hb j) : ℝ) : EReal))
    (hv : ∀ (b : ℕ) (hb : b < n) (j : Fin K), vb b j = ((v (flat b hb j) : ℝ) : EReal)) :
    Ideal.div (run sb vb n).acc (run sb vb n).l
      = refRow (fun t => ((s t : ℝ) : EReal)) (fun t => ((v t : ℝ) : EReal)) := by
  obtain ⟨k, rfl⟩ : ∃ k, n = k + 1 := ⟨n - 1, by omega⟩
  have hN : 0 < (k + 1) * K := Nat.mul_pos (Nat.succ_pos k) hK
  haveI : Nonempty (Fin ((k + 1) * K)) := ⟨⟨0, hN⟩⟩
  let sr : ℕ → Fin K → ℝ := fun b j => if hb : b < k + 1 then s (flat b hb j) else 0
  let vr : ℕ → Fin K → ℝ := fun b j => if hb : b < k + 1 then v (flat b hb j) else 0
  have hsr : ∀ (b : ℕ) (hb : b < k + 1) (j : Fin K), sr b j = s (flat b hb j) := fun b hb j => dif_pos hb
  have hvr : ∀ (b : ℕ) (hb : b < k + 1) (j : Fin K), vr b j = v (flat b hb j) := fun b hb j => dif_pos hb
  obtain ⟨m, -, hl, hacc⟩ := run_coe hK sr vr sb vb k
    (fun b hb j => by rw [hs b hb j, hsr b hb j]) (fun b hb j => by rw [hv b hb j, hvr b hb j])
  obtain ⟨M, hM⟩ := refRow_coe hN s v
  rw [hM, hl, hacc,
    sum_flat (fun t => Real.exp (s t - m)) (fun b j => Real.exp (sr b j - m)) (fun b hb j => by rw [hsr b hb j]),
    sum_flat (fun t => Real.exp (s t - m) * v t) (fun b j => Real.exp (sr b j - m) * vr b j)
      (fun b hb j => by rw [hsr b hb j, hvr b hb j])]
  have hL : (∑ t, Real.exp (s t - m)) ≠ 0 :=
    (Finset.sum_pos (fun u _ => Real.exp_pos (s u - m)) Finset.univ_nonempty).ne'
  rw [Ideal.div_coe hL, ← EReal.coe_mul, weighted_sum_shift s v m M]

end Cert.OnlineSoftmax

end
-- ==== Proof.Spec.lean ====
/-
  What both programs compute, as one function of the four argument arrays, entry by entry.

  With `x, x' : [16, 2048, 512]`, `W : [512, 512]`, `b : [512]`:
    q[bi, t, d]      = (sum_c x'[bi, t, c] * W[d, c]) + b[d]              (the linear layer)
    score[bi, r, t]  = sum_c tanh (x'[bi, r, c]) * q[bi, t, c]
    out[bi, r, c]    = tanh (sum_t softmax_t (score[bi, r, .]) * x[bi, t, c])
  the softmax taken along the 2048 keys `t` of a row in the usual way (`OnlineSoftmax.refRow`).
-/
import proofs.«142818_j42760694399404_2_alg».proof.Proof.LibOnlineSoftmax
import Idealize.ShloMosaic.Lib.ValueIdx

noncomputable section

namespace Cert.Spec

open Idealize.ShloMosaic Idealize.ShloMosaic.ValueIdx

/-- An array of shape [16, 2048, 512], [512, 512], [512] over the extended reals. -/
abbrev A3 : Type := (⟨3, ![16, 2048, 512]⟩ : Shape).Idx → EReal
abbrev A2 : Type := (⟨2, ![512, 512]⟩ : Shape).Idx → EReal
abbrev A1 : Type := (⟨1, ![512]⟩ : Shape).Idx → EReal

/-- The linear layer's output at batch `bi`, position `t`, feature `d`. -/
def q (xp : A3) (W : A2) (b : A1) (bi : Fin 16) (t : Fin 2048) (d : Fin 512) : EReal :=
  (∑ c : Fin 512, xp (ix3 bi t c) * W (ix2 d c)) + b (ix1 d)

/-- The attention score of query row `r` against key `t` in batch `bi`. -/
def score (xp : A3) (W : A2) (b : A1) (bi : Fin 16) (r t : Fin 2048) : EReal :=
  ∑ c : Fin 512, Ideal.tanh (xp (ix3 bi r c)) * q xp W b bi t c

/-- The result at batch `bi`, row `r`, feature `c`. -/
def out (x xp : A3) (W : A2) (b : A1) (bi : Fin 16) (r : Fin 2048) (c : Fin 512) : EReal :=
  Ideal.tanh (OnlineSoftmax.refRow (fun t : Fin 2048 => score xp W b bi r t) (fun t : Fin 2048 => x (ix3 bi t c)))

/-- The result array. -/
def G (x xp : A3) (W : A2) (b : A1) : A3 := fun i => out x xp W b (i 0) (i 1) (i 2)

theorem G_apply (x xp : A3) (W : A2) (b : A1) (bi : Fin 16) (r : Fin 2048) (c : Fin 512) :
    G x xp W b (ix3 bi r c) = out x xp W b bi r c := rfl

end Cert.Spec

end
-- ==== Proof.SpecOnline.lean ====
/-
  The specification's rows, read tile by tile.

  A query row `(bi, r)` has 2048 scores `score[bi, r, t]`, one per key `t`, and for each feature `c` the 2048 values
  `x[bi, t, c]`. Cut the keys into 4 tiles of 512: tile `k` holds the keys `512 k, ..., 512 k + 511`. Every entry of
  `q` and of `score` is a real number as soon as the argument arrays have real entries (sums and products of reals,
  and `tanh` of a real, are real), and then the softmax-weighted sum of the row is the quotient `acc / l` that the
  tile-by-tile accumulation of `OnlineSoftmax.run` reaches after the fourth tile; `out` is its `tanh`.
-/
import proofs.«142818_j42760694399404_2_alg».proof.Proof.Spec

noncomputable section

namespace Cert.Spec

open Idealize.ShloMosaic Idealize.ShloMosaic.ValueIdx

/-- Scores of query row `(bi, r)` against key tile `k` (keys `512 k, ..., 512 k + 511`); zero past the fourth tile. -/
def sTile (xp : A3) (W : A2) (b : A1) (bi : Fin 16) (r : Fin 2048) (k : ℕ) (j : Fin 512) : EReal :=
  if h : k < 4 then score xp W b bi r ⟨k * 512 + j.val, by have := j.isLt; omega⟩ else 0

/-- The values of column `c` at the keys of tile `k`; zero past the fourth tile. -/
def vTile (x : A3) (bi : Fin 16) (c : Fin 512) (k : ℕ) (j : Fin 512) : EReal :=
  if h : k < 4 then x (ix3 bi ⟨k * 512 + j.val, by have := j.isLt; omega⟩ c) else 0

/-- The sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨c, rfl⟩ := hy
  exact ⟨a + c, (EReal.coe_add a c).symm⟩

/-- The product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨c, rfl⟩ := hy
  exact ⟨a * c, (EReal.coe_mul a c).symm⟩

/-- A finite sum of reals is a real. -/
theorem real_sum {ι : Type*} (S : Finset ι) (f : ι → EReal) (h : ∀ i, ∃ r : ℝ, f i = (r : EReal)) :
    ∃ r : ℝ, ∑ i ∈ S, f i = (r : EReal) := by
  choose g hg using h
  exact ⟨∑ i ∈ S, g i, by rw [OnlineSoftmax.coe_sum]; exact Finset.sum_congr rfl fun i _ => hg i⟩

/-- The hyperbolic tangent of a real is a real. -/
theorem real_tanh {x : EReal} (hx : ∃ r : ℝ, x = (r : EReal)) : ∃ r : ℝ, Ideal.tanh x = (r : EReal) := by
  obtain ⟨a, rfl⟩ := hx
  exact ⟨Real.tanh a, Ideal.tanh_coe a⟩

/-- With real inputs and real weights and bias, every entry of the linear layer's output is a real. -/
theorem q_real {xp : A3} {W : A2} {b : A1} (hxp : ∀ i, ∃ r : ℝ, xp i = (r : EReal))
    (hW : ∀ i, ∃ r : ℝ, W i = (r : EReal)) (hb : ∀ i, ∃ r : ℝ, b i = (r : EReal))
    (bi : Fin 16) (t : Fin 2048) (d : Fin 512) : ∃ r : ℝ, q xp W b bi t d = (r : EReal) :=
  real_add (real_sum _ _ fun c => real_mul (hxp (ix3 bi t c)) (hW (ix2 d c))) (hb (ix1 d))

/-- With real inputs and real weights and bias, every score is a real. -/
theorem score_real {xp : A3} {W : A2} {b : A1} (hxp : ∀ i, ∃ r : ℝ, xp i = (r : EReal))
    (hW : ∀ i, ∃ r : ℝ, W i = (r : EReal)) (hb : ∀ i, ∃ r : ℝ, b i = (r : EReal))
    (bi : Fin 16) (r t : Fin 2048) : ∃ y : ℝ, score xp W b bi r t = (y : EReal) :=
  real_sum _ _ fun c => real_mul (real_tanh (hxp (ix3 bi r c))) (q_real hxp hW hb bi t c)

/-- With real arrays, an entry of the result is `tanh (acc / l)` for the state that the tile-by-tile accumulation
    reaches after the four tiles of 512 keys of its row: the row's softmax-weighted sum, computed online. -/
theorem out_eq_run (x xp : A3) (W : A2) (b : A1) (hx : ∀ i, ∃ r : ℝ, x i = (r : EReal))
    (hxp : ∀ i, ∃ r : ℝ, xp i = (r : EReal)) (hW : ∀ i, ∃ r : ℝ, W i = (r : EReal))
    (hb : ∀ i, ∃ r : ℝ, b i = (r : EReal)) (bi : Fin 16) (r : Fin 2048) (c : Fin 512) :
    out x xp W b bi r c
      = Ideal.tanh (Ideal.div (OnlineSoftmax.run (sTile xp W b bi r) (vTile x bi c) 4).acc
          (OnlineSoftmax.run (sTile xp W b bi r) (vTile x bi c) 4).l) := by
  choose sR hsR using fun t => score_real hxp hW hb bi r t
  choose xr hxr using hx
  let vR : Fin 2048 → ℝ := fun t => xr (ix3 bi t c)
  have key := OnlineSoftmax.run_div_eq_refRow (n := 4) (K := 512) (by norm_num) (by norm_num)
    (fun t : Fin (4 * 512) => sR t) (fun t : Fin (4 * 512) => vR t) (sTile xp W b bi r) (vTile x bi c)
    (fun k hk j => by rw [sTile, dif_pos hk]; exact hsR _)
    (fun k hk j => by rw [vTile, dif_pos hk]; exact hxr _)
  have e1 : (fun t : Fin 2048 => score xp W b bi r t) = fun t => ((sR t : ℝ) : EReal) := funext hsR
  have e2 : (fun t : Fin 2048 => x (ix3 bi t c)) = fun t => ((vR t : ℝ) : EReal) := funext fun t => hxr _
  rw [out, e1, e2]
  exact congrArg Ideal.tanh key.symm

end Cert.Spec

end
-- ==== Proof.KI.Invariant.lean ====
/-
  The attention region, value by value: after every grid point the scratch buffers hold, row by row, the state of
  the tile-by-tile softmax accumulation of that row, and at a last tile the output block holds the specification.

  Point `n` of the 16 × 2 × 4 grid is key/value tile `k = n mod 4` of query tile `(n / 4) mod 2` of batch `n / 8`.
  One update of the scratch buffers (`updI`) acts on every query row `r` separately, and on row `r` it is one step of
  `OnlineSoftmax.step`: the tile's scores of the row are `sum_c tanh (x'[bi, r, c]) * q[bi, t, c]` for the 512 keys
  `t` of the tile (the kept `tanh` of the query tile against the tile's rows of the linear layer's output), the new
  maximum is the old one against theirs, the normaliser and the weighted sum are rescaled by
  `exp (old maximum - new maximum)` and receive `sum_j exp (score_j - new maximum)`, resp. the same sum weighted by
  the tile's values of the column. At a first tile the buffers are first reset to `(-inf, 0, 0)`, the empty state.
  Hence, by induction along the four tiles of a query tile (which share their batch and their query rows), after tile
  `k` row `r` of the buffers is `OnlineSoftmax.run` of the row's scores and the column's values after `k + 1` tiles;
  at the fourth tile the stored output `tanh (acc / l)` is the specification's entry, because the tile-by-tile
  quotient is the row's softmax-weighted sum when all the arguments are real numbers.
-/
import proofs.«142818_j42760694399404_2_alg».proof.Proof.KI.R1Frame
import proofs.«142818_j42760694399404_2_alg».proof.Proof.Payloads
import proofs.«142818_j42760694399404_2_alg».proof.Proof.SpecOnline
import proofs.«142818_j42760694399404_2_alg».proof.Proof.GridIdx

set_option maxRecDepth 16384

noncomputable section

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Cert Cert.Spec

/-- The attention grid has 128 points. -/
theorem N1 : cfg1.N = 128 := by decide +kernel

/-- A point's position is below 128. -/
theorem lt128 {n : ℕ} (hn : n < cfg1.N) : n < 128 := N1 ▸ hn

/-- One update of the scratch buffers from a key tile `x1`, a value tile `x2` and the buffers' contents: the new
    running maximum, the new normaliser, the new weighted sum (the kept tanh of the query tile `s3` does not change). -/
def updI (x1 : Vec Ideal S1x512x512 .bf16) (x2 : Vec Ideal S1x512x512 .f32) (s0 s1 : Vec Ideal S1024x1 .f32)
    (s2 : Vec Ideal S1024x512 .f32) (s3 : Vec Ideal S1024x512 .bf16) :
    Vec Ideal S1024x1 .f32 × Vec Ideal S1024x1 .f32 × Vec Ideal S1024x512 .f32 :=
  (k1_pay2 (k1_pay9 s3 x1 s0), k1_pay12 s3 x1 s0 s0 s1,
    k1_pay1 (k1_pay13 x2) (k1_pay14 s3 x1 s0 s0 s2) (k1_pay15 s3 x1 s0))

/-- On one query row `r` and one column `c'` an update is one step of the tile-by-tile accumulation: if the row of
    the buffers is the state `st`, the tile's scores of the row are `s` and the tile's values of the column are `v`,
    then the row of the updated buffers is `OnlineSoftmax.step s v st`. -/
theorem updI_row (x1 : Vec Ideal S1x512x512 .bf16) (x2 : Vec Ideal S1x512x512 .f32) (s0 s1 : Vec Ideal S1024x1 .f32)
    (s2 : Vec Ideal S1024x512 .f32) (s3 : Vec Ideal S1024x512 .bf16) (r : Fin 1024) (c' : Fin 512)
    (s v : Fin 512 → EReal) (st : OnlineSoftmax.St)
    (hm : s0 (ix2 r (0 : Fin 1)) = st.m) (hl : s1 (ix2 r (0 : Fin 1)) = st.l) (hacc : s2 (ix2 r c') = st.acc)
    (hs : ∀ j, k1_pay8 (F := Ideal) s3 x1 (ix2 r j) = s j) (hv : ∀ j, x2 (ix3 (0 : Fin 1) j c') = v j) :
    (updI x1 x2 s0 s1 s2 s3).1 (ix2 r (0 : Fin 1)) = (OnlineSoftmax.step s v st).m
      ∧ (updI x1 x2 s0 s1 s2 s3).2.1 (ix2 r (0 : Fin 1)) = (OnlineSoftmax.step s v st).l
      ∧ (updI x1 x2 s0 s1 s2 s3).2.2 (ix2 r c') = (OnlineSoftmax.step s v st).acc := by
  have hf : (fun j : Fin 512 => k1_pay8 (F := Ideal) s3 x1 (ix2 r j)) = s := funext hs
  have e9 : k1_pay9 (F := Ideal) s3 x1 s0 (ix2 r (0 : Fin 1)) = max st.m (Finset.univ.fold max ⊥ s) := by
    rw [pay9, hm, hf]
  have e10 : k1_pay10 (F := Ideal) s3 x1 s0 s0 (ix2 r (0 : Fin 1))
      = Ideal.exp (st.m - max st.m (Finset.univ.fold max ⊥ s)) := by
    rw [pay10, hm, e9]
  have e11 : ∀ j, k1_pay11 (F := Ideal) s3 x1 s0 (ix2 r j) = Ideal.exp (s j - max st.m (Finset.univ.fold max ⊥ s)) := by
    intro j; rw [pay11, hs j, e9]
  refine ⟨?_, ?_, ?_⟩
  · show k1_pay2 (F := Ideal) (k1_pay9 s3 x1 s0) (ix2 r (0 : Fin 1)) = _
    rw [pay2, e9]; rfl
  · show k1_pay12 (F := Ideal) s3 x1 s0 s0 s1 (ix2 r (0 : Fin 1)) = _
    rw [pay12, e10, hl, Finset.sum_congr rfl fun j _ => e11 j]; rfl
  · show k1_pay1 (F := Ideal) (k1_pay13 x2) (k1_pay14 s3 x1 s0 s0 s2) (k1_pay15 s3 x1 s0) (ix2 r c') = _
    rw [pay1, pay14, e10, hacc,
      Finset.sum_congr rfl fun j _ => (by rw [pay15, e11 j, pay13, hv j] :
        k1_pay15 (F := Ideal) s3 x1 s0 (ix2 r j) * k1_pay13 (F := Ideal) x2 (ix2 j c')
          = Ideal.exp (s j - max st.m (Finset.univ.fold max ⊥ s)) * v j)]
    rfl

/-- THE INVARIANT, for batch `b`, query rows `qr r` and `k` tiles seen: the kept query tile is the tanh of the
    query rows, and row `r` of the three running buffers is the state of the accumulation of that row's scores and
    (for the weighted sum, column by column) the column's values after `k` tiles. -/
def ScratchInv (X XP : A3) (W : A2) (B : A1) (b : Fin 16) (qr : Fin 1024 → Fin 2048) (k : ℕ)
    (s0 s1 : Vec Ideal S1024x1 .f32) (s2 : Vec Ideal S1024x512 .f32) (s3 : Vec Ideal S1024x512 .bf16) : Prop :=
  ∀ (r : Fin 1024) (c' : Fin 512),
    s3 (ix2 r c') = Ideal.tanh (XP (ix3 b (qr r) c'))
      ∧ s0 (ix2 r (0 : Fin 1)) = (OnlineSoftmax.run (sTile XP W B b (qr r)) (vTile X b c') k).m
      ∧ s1 (ix2 r (0 : Fin 1)) = (OnlineSoftmax.run (sTile XP W B b (qr r)) (vTile X b c') k).l
      ∧ s2 (ix2 r c') = (OnlineSoftmax.run (sTile XP W B b (qr r)) (vTile X b c') k).acc

/-- The scores of a key tile: the kept tanh of the query rows against the tile's rows of the linear layer's output
    are the specification's scores of the query row against the tile's keys. -/
theorem score_tile (XP : A3) (W : A2) (B : A1) (b : Fin 16) (qr : Fin 1024 → Fin 2048) (kr : Fin 512 → Fin 2048)
    (k : ℕ) (hk : k < 4) (hkr : ∀ j, (kr j).val = k * 512 + j.val)
    (x1 : Vec Ideal S1x512x512 .bf16) (s3 : Vec Ideal S1024x512 .bf16)
    (hx1 : ∀ j c', x1 (ix3 (0 : Fin 1) j c') = Spec.q XP W B b (kr j) c')
    (h3 : ∀ r c', s3 (ix2 r c') = Ideal.tanh (XP (ix3 b (qr r) c'))) (r : Fin 1024) (j : Fin 512) :
    k1_pay8 (F := Ideal) s3 x1 (ix2 r j) = sTile XP W B b (qr r) k j := by
  have hj : kr j = ⟨k * 512 + j.val, by have := j.isLt; omega⟩ := Fin.ext (hkr j)
  rw [pay8, sTile, dif_pos hk, ← hj]
  unfold Spec.score
  exact Finset.sum_congr rfl fun c _ => by rw [h3, hx1]

/-- The values of a key tile are the specification's values at the tile's keys. -/
theorem value_tile (X : A3) (b : Fin 16) (kr : Fin 512 → Fin 2048) (k : ℕ) (hk : k < 4)
    (hkr : ∀ j, (kr j).val = k * 512 + j.val) (x2 : Vec Ideal S1x512x512 .f32)
    (hx2 : ∀ j c', x2 (ix3 (0 : Fin 1) j c') = X (ix3 b (kr j) c')) (c' : Fin 512) (j : Fin 512) :
    x2 (ix3 (0 : Fin 1) j c') = vTile X b c' k j := by
  have hj : kr j = ⟨k * 512 + j.val, by have := j.isLt; omega⟩ := Fin.ext (hkr j)
  rw [hx2, vTile, dif_pos hk, ← hj]

/-- The reset at a first tile establishes the invariant with no tile seen. -/
theorem inv_reset (X XP : A3) (W : A2) (B : A1) (b : Fin 16) (qr : Fin 1024 → Fin 2048)
    (x0 : Vec Ideal S1x1024x512 .f32) (hx0 : ∀ r c', x0 (ix3 (0 : Fin 1) r c') = XP (ix3 b (qr r) c')) :
    ScratchInv X XP W B b qr 0 (k1_pay4 (F := Ideal)) (k1_pay5 (F := Ideal)) (k1_pay6 (F := Ideal))
      (k1_pay7 (F := Ideal) x0) := by
  intro r c'
  refine ⟨?_, ?_, ?_, ?_⟩
  · rw [pay7, hx0]
  · exact pay4 r
  · exact pay5 r
  · exact pay6 r c'

/-- One update carries the invariant from `k` tiles seen to `k + 1`, when the key tile holds the linear layer's
    output and the value tile the values at the keys `512 k, ..., 512 k + 511` of the batch. -/
theorem inv_step (X XP : A3) (W : A2) (B : A1) (b : Fin 16) (qr : Fin 1024 → Fin 2048) (kr : Fin 512 → Fin 2048)
    (k : ℕ) (hk : k < 4) (hkr : ∀ j, (kr j).val = k * 512 + j.val)
    (x1 : Vec Ideal S1x512x512 .bf16) (x2 : Vec Ideal S1x512x512 .f32) (s0 s1 : Vec Ideal S1024x1 .f32)
    (s2 : Vec Ideal S1024x512 .f32) (s3 : Vec Ideal S1024x512 .bf16)
    (hx1 : ∀ j c', x1 (ix3 (0 : Fin 1) j c') = Spec.q XP W B b (kr j) c')
    (hx2 : ∀ j c', x2 (ix3 (0 : Fin 1) j c') = X (ix3 b (kr j) c'))
    (h : ScratchInv X XP W B b qr k s0 s1 s2 s3) :
    ScratchInv X XP W B b qr (k + 1) (updI x1 x2 s0 s1 s2 s3).1 (updI x1 x2 s0 s1 s2 s3).2.1
      (updI x1 x2 s0 s1 s2 s3).2.2 s3 := by
  intro r c'
  obtain ⟨h3, hm, hl, hacc⟩ := h r c'
  obtain ⟨g1, g2, g3⟩ := updI_row x1 x2 s0 s1 s2 s3 r c' (sTile XP W B b (qr r) k) (vTile X b c' k) _ hm hl hacc
    (fun j => score_tile XP W B b qr kr k hk hkr x1 s3 hx1 (fun r c' => (h r c').1) r j)
    (fun j => value_tile X b kr k hk hkr x2 hx2 c' j)
  exact ⟨h3, g1, g2, g3⟩

section region

variable (V : (c : Dev nD) → (b : Ref sig .tc) → Buf (Elt Ideal) ((c : Thread nD τ).loc b)) (c : Dev nD)
variable (X XP : A3) (W : A2) (B : A1)

/-- Unless the next point opens a new query tile, two consecutive points share their batch -/
theorem bi_succ (n : ℕ) (hn : n + 1 < 128) (h0 : ¬(n + 1) % 4 = 0) :
    GridIdx.bi (n + 1) hn = GridIdx.bi n (by omega) := Fin.ext (by show (n + 1) / 8 = n / 8; omega)

/-- and their query rows, -/
theorem qrow_succ (n : ℕ) (h0 : ¬(n + 1) % 4 = 0) : GridIdx.qrow (n + 1) = GridIdx.qrow n :=
  funext fun r => Fin.ext (by show (n + 1) / 4 % 2 * 1024 + r.val = n / 4 % 2 * 1024 + r.val; omega)

/-- and the later one is the next key/value tile. -/
theorem mod_succ (n : ℕ) (h0 : ¬(n + 1) % 4 = 0) : (n + 1) % 4 = n % 4 + 1 := by omega

/-! The three cases of a point enter through the equations `hA`, `hB`, `hC` (what the buffers hold after a first, a
middle and a last tile, as updates of what they held before), and the three input blocks through `hx0`, `hx1`,
`hx2` (the query rows, the tile's rows of the linear layer's output, the tile's values). -/

variable
    (hA : ∀ (t : Fin cfg1.N) (h0 : cond1_0 (grid1.coords t)) (h1 : ¬cond1_1 (grid1.coords t)),
      caseA V c t h0 h1 = (noOut,
        (updI (iblk1 V c 1 t) (iblk1 V c 2 t) (k1_pay4 (F := Ideal)) (k1_pay5 (F := Ideal)) (k1_pay6 (F := Ideal)) (k1_pay7 (F := Ideal) (iblk1 V c 0 t))).1,
        (updI (iblk1 V c 1 t) (iblk1 V c 2 t) (k1_pay4 (F := Ideal)) (k1_pay5 (F := Ideal)) (k1_pay6 (F := Ideal)) (k1_pay7 (F := Ideal) (iblk1 V c 0 t))).2.1,
        (updI (iblk1 V c 1 t) (iblk1 V c 2 t) (k1_pay4 (F := Ideal)) (k1_pay5 (F := Ideal)) (k1_pay6 (F := Ideal)) (k1_pay7 (F := Ideal) (iblk1 V c 0 t))).2.2,
        k1_pay7 (F := Ideal) (iblk1 V c 0 t)))
    (hB : ∀ (t : Fin cfg1.N) (h0 : ¬cond1_0 (grid1.coords t)) (h1 : ¬cond1_1 (grid1.coords t))
        (p : Vec Ideal S1x1024x512 .f32 × Vec Ideal S1024x1 .f32 × Vec Ideal S1024x1 .f32 × Vec Ideal S1024x512 .f32 × Vec Ideal S1024x512 .bf16),
      caseB V c t h0 h1 p = (noOut,
        (updI (iblk1 V c 1 t) (iblk1 V c 2 t) p.2.1 p.2.2.1 p.2.2.2.1 p.2.2.2.2).1,
        (updI (iblk1 V c 1 t) (iblk1 V c 2 t) p.2.1 p.2.2.1 p.2.2.2.1 p.2.2.2.2).2.1,
        (updI (iblk1 V c 1 t) (iblk1 V c 2 t) p.2.1 p.2.2.1 p.2.2.2.1 p.2.2.2.2).2.2,
        p.2.2.2.2))
    (hC : ∀ (t : Fin cfg1.N) (h0 : ¬cond1_0 (grid1.coords t)) (h1 : cond1_1 (grid1.coords t))
        (p : Vec Ideal S1x1024x512 .f32 × Vec Ideal S1024x1 .f32 × Vec Ideal S1024x1 .f32 × Vec Ideal S1024x512 .f32 × Vec Ideal S1024x512 .bf16),
      caseC V c t h0 h1 p = (k1_pay3 (F := Ideal) (updI (iblk1 V c 1 t) (iblk1 V c 2 t) p.2.1 p.2.2.1 p.2.2.2.1 p.2.2.2.2).2.2
          (updI (iblk1 V c 1 t) (iblk1 V c 2 t) p.2.1 p.2.2.1 p.2.2.2.1 p.2.2.2.2).2.1,
        (updI (iblk1 V c 1 t) (iblk1 V c 2 t) p.2.1 p.2.2.1 p.2.2.2.1 p.2.2.2.2).1,
        (updI (iblk1 V c 1 t) (iblk1 V c 2 t) p.2.1 p.2.2.1 p.2.2.2.1 p.2.2.2.2).2.1,
        (updI (iblk1 V c 1 t) (iblk1 V c 2 t) p.2.1 p.2.2.1 p.2.2.2.1 p.2.2.2.2).2.2,
        p.2.2.2.2))
    (hx0 : ∀ (t : Fin cfg1.N) (r : Fin 1024) (c' : Fin 512), iblk1 V c 0 t (ix3 (0 : Fin 1) r c')
      = XP (ix3 (GridIdx.bi t.val (lt128 t.isLt)) (GridIdx.qrow t.val r) c'))
    (hx1 : ∀ (t : Fin cfg1.N) (j : Fin 512) (c' : Fin 512), iblk1 V c 1 t (ix3 (0 : Fin 1) j c')
      = Spec.q XP W B (GridIdx.bi t.val (lt128 t.isLt)) (GridIdx.krow t.val j) c')
    (hx2 : ∀ (t : Fin cfg1.N) (j : Fin 512) (c' : Fin 512), iblk1 V c 2 t (ix3 (0 : Fin 1) j c')
      = X (ix3 (GridIdx.bi t.val (lt128 t.isLt)) (GridIdx.krow t.val j) c'))

include hx1 hx2 in
/-- The update at point `n` carries the invariant of the point's batch and query tile from `n mod 4` tiles seen to
    `n mod 4 + 1`. -/
theorem point_step (n : ℕ) (hn : n < cfg1.N) (s0 s1 : Vec Ideal S1024x1 .f32) (s2 : Vec Ideal S1024x512 .f32)
    (s3 : Vec Ideal S1024x512 .bf16)
    (h : ScratchInv X XP W B (GridIdx.bi n (lt128 hn)) (GridIdx.qrow n) (n % 4) s0 s1 s2 s3) :
    ScratchInv X XP W B (GridIdx.bi n (lt128 hn)) (GridIdx.qrow n) (n % 4 + 1)
      (updI (iblk1 V c 1 ⟨n, hn⟩) (iblk1 V c 2 ⟨n, hn⟩) s0 s1 s2 s3).1
      (updI (iblk1 V c 1 ⟨n, hn⟩) (iblk1 V c 2 ⟨n, hn⟩) s0 s1 s2 s3).2.1
      (updI (iblk1 V c 1 ⟨n, hn⟩) (iblk1 V c 2 ⟨n, hn⟩) s0 s1 s2 s3).2.2 s3 :=
  inv_step X XP W B _ _ (GridIdx.krow n) (n % 4) (Nat.mod_lt _ (by norm_num)) (fun j => rfl) _ _ _ _ _ _
    (hx1 ⟨n, hn⟩) (hx2 ⟨n, hn⟩) h

/-- What point `m` left satisfies the invariant that point `m + 1` starts from, when `m + 1` does not open a new query
    tile. -/
theorem inv_carry (m : ℕ) (hn : m + 1 < cfg1.N) (h0 : ¬(m + 1) % 4 = 0)
    (s0 s1 : Vec Ideal S1024x1 .f32) (s2 : Vec Ideal S1024x512 .f32) (s3 : Vec Ideal S1024x512 .bf16)
    (h : ScratchInv X XP W B (GridIdx.bi m (lt128 (Nat.lt_of_succ_lt hn))) (GridIdx.qrow m) (m % 4 + 1) s0 s1 s2 s3) :
    ScratchInv X XP W B (GridIdx.bi (m + 1) (lt128 hn)) (GridIdx.qrow (m + 1)) ((m + 1) % 4) s0 s1 s2 s3 := by
  rw [bi_succ m (lt128 hn) h0, qrow_succ m h0, mod_succ m h0]
  exact h

include hA hB hC hx0 hx1 hx2 in
/-- After point `n` the scratch buffers satisfy the invariant of the point's batch and query tile with
    `n mod 4 + 1` tiles seen. -/
theorem inv_all : ∀ (n : ℕ) (hn : n < cfg1.N),
    ScratchInv X XP W B (GridIdx.bi n (lt128 hn)) (GridIdx.qrow n) (n % 4 + 1)
      (outsAt1 V c n hn).2.1 (outsAt1 V c n hn).2.2.1 (outsAt1 V c n hn).2.2.2.1 (outsAt1 V c n hn).2.2.2.2 := by
  have first : ∀ (n : ℕ) (hn : n < cfg1.N), n % 4 = 0 →
      ScratchInv X XP W B (GridIdx.bi n (lt128 hn)) (GridIdx.qrow n) (n % 4 + 1)
        (outsAt1 V c n hn).2.1 (outsAt1 V c n hn).2.2.1 (outsAt1 V c n hn).2.2.2.1 (outsAt1 V c n hn).2.2.2.2 := by
    intro n hn h0
    have e : outsAt1 V c n hn = _ := (outsAt1_A V c ⟨n, hn⟩ h0).trans (hA ⟨n, hn⟩ _ _)
    rw [e]
    refine point_step V c X XP W B hx1 hx2 n hn _ _ _ _ ?_
    rw [h0]
    exact inv_reset X XP W B _ _ _ (hx0 ⟨n, hn⟩)
  intro n
  induction n with
  | zero => intro hn; exact first 0 hn rfl
  | succ m ih =>
    intro hn
    by_cases h0 : (m + 1) % 4 = 0
    · exact first (m + 1) hn h0
    · have hm : m < cfg1.N := Nat.lt_of_succ_lt hn
      have IH := inv_carry X XP W B m hn h0 _ _ _ _ (ih hm)
      by_cases h3 : (m + 1) % 4 = 3
      · have e : outsAt1 V c (m + 1) hn = _ := (outsAt1_C V c ⟨m + 1, hn⟩ h0 h3).trans (hC ⟨m + 1, hn⟩ _ _ _)
        rw [e]
        exact point_step V c X XP W B hx1 hx2 (m + 1) hn _ _ _ _ IH
      · have e : outsAt1 V c (m + 1) hn = _ := (outsAt1_B V c ⟨m + 1, hn⟩ h0 h3).trans (hB ⟨m + 1, hn⟩ _ _ _)
        rw [e]
        exact point_step V c X XP W B hx1 hx2 (m + 1) hn _ _ _ _ IH

include hA hB hC hx0 hx1 hx2 in
/-- THE OUTPUT: at a last tile the stored output block is the specification's block of the point's batch and
    query tile, when every entry of the four argument arrays is a real number. -/
theorem out_inv (hXr : ∀ i, ∃ r : ℝ, X i = (r : EReal)) (hXPr : ∀ i, ∃ r : ℝ, XP i = (r : EReal))
    (hWr : ∀ i, ∃ r : ℝ, W i = (r : EReal)) (hBr : ∀ i, ∃ r : ℝ, B i = (r : EReal)) :
    ∀ (t : Fin cfg1.N), t.val % 4 = 3 → ∀ (r : Fin 1024) (c' : Fin 512),
      (outsAt1 V c t.val t.isLt).1 (ix3 (0 : Fin 1) r c')
        = G X XP W B (ix3 (GridIdx.bi t.val (lt128 t.isLt)) (GridIdx.qrow t.val r) c') := by
  intro t h3 r c'
  obtain ⟨n, hn⟩ := t
  cases n with
  | zero => exact absurd (show (0 : ℕ) % 4 = 3 from h3) (by decide)
  | succ m =>
    have h3' : (m + 1) % 4 = 3 := h3
    have h0 : ¬(m + 1) % 4 = 0 := by omega
    have hm : m < cfg1.N := Nat.lt_of_succ_lt hn
    have IH := inv_carry X XP W B m hn h0 _ _ _ _ (inv_all V c X XP W B hA hB hC hx0 hx1 hx2 m hm)
    have S := point_step V c X XP W B hx1 hx2 (m + 1) hn _ _ _ _ IH
    obtain ⟨-, -, sl, sacc⟩ := S r c'
    have e : outsAt1 V c (m + 1) hn = _ := (outsAt1_C V c ⟨m + 1, hn⟩ h0 h3').trans (hC ⟨m + 1, hn⟩ _ _ _)
    have h4 : (m + 1) % 4 + 1 = 4 := by omega
    rw [h4] at sl sacc
    show (outsAt1 V c (m + 1) hn).1 (ix3 (0 : Fin 1) r c') = _
    rw [e, G_apply, out_eq_run X XP W B hXr hXPr hWr hBr]
    refine (pay3 _ _ r c').trans ?_
    exact congrArg Ideal.tanh (congrArg₂ Ideal.div sacc sl)

end region

end Cert.KernelIdeal.Val

end
-- ==== Proof.KI.QFull.lean ====
/-
  The linear layer's result as the attention region finds it.

  Before the first region the host transposes the weights, writes the bias as one row, and flattens the queries'
  input [16, 2048, 512] to [32768, 512] (row 2048 b + t is row t of batch b). The region's grid has 16 points; point n
  reads rows 2048 n … 2048 n + 2047 of the flattened input, the whole transposed weights and the bias row, and writes
  rows 2048 n … 2048 n + 2047 of the result: each entry (R, d) the sum over c of input[R, c] * weightsᵀ[c, d], plus
  bias[d]. The sixteen blocks tile the result array, so after the region it holds that value at every entry. The host
  then unflattens the rows; read at (b, t, d) through the three layout changes this is the specification's
  q[b, t, d] = (sum_c x'[b, t, c] * W[d, c]) + bias[d] of the launch arguments. The two [16, 2048, 512] arguments
  are written by nothing on the way and reach the attention region as launched.
-/
import proofs.«142818_j42760694399404_2_alg».proof.Proof.KI.Run
import proofs.«142818_j42760694399404_2_alg».proof.Proof.Payloads
import proofs.«142818_j42760694399404_2_alg».proof.Proof.Spec
import proofs.«142818_j42760694399404_2_alg».proof.Proof.GridIdx
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.GridIdx

variable (m : (ℓ : Loc nD τ sig) → Buf (Elt Ideal) ℓ) (ρ : Dev nD → PrngReg) (c : Dev nD)

/-! ## The host's three operations before the linear layer -/

/-- The weights transposed. -/
theorem v0_eq : (Wa1 m ρ c (Proc.devRef .tc main_v0) : S512x512.Idx → EReal)
    = transpose S512x512 [1, 0] (m ((c : Thread nD τ).loc main_arg2)) transposes_S512x512_S512x512_1_0 := by
  dsimp only [Wa1, hostOps0]; after_results

/-- The bias as one row. -/
theorem v1_eq : (Wa1 m ρ c (Proc.devRef .tc main_v1) : S1x512.Idx → EReal)
    = shapeCast S1x512 (m ((c : Thread nD τ).loc main_arg3)) shapeCasts_S512_S1x512 := by
  dsimp only [Wa1, hostOps0]; after_results; rfl

/-- The queries' input with batch and position flattened into one row axis. -/
theorem v2_eq : (Wa1 m ρ c (Proc.devRef .tc main_v2) : S32768x512.Idx → EReal)
    = shapeCast S32768x512 (m ((c : Thread nD τ).loc main_arg1)) shapeCasts_S16x2048x512_S32768x512 := by
  dsimp only [Wa1, hostOps0]; after_results; rfl

/-- Entry (c', d) of the transposed weights is entry (d, c') of the weights. -/
theorem v0_apply (c' d : Fin 512) : (Wa1 m ρ c (Proc.devRef .tc main_v0) : S512x512.Idx → EReal) (ix2 c' d)
    = (m ((c : Thread nD τ).loc main_arg2) : S512x512.Idx → EReal) (ix2 d c') := by
  rw [v0_eq]; exact transpose_ix2_apply _ _ c' d

/-- Entry (0, d) of the bias row is entry d of the bias. -/
theorem v1_apply (u : Fin 1) (d : Fin 512) : (Wa1 m ρ c (Proc.devRef .tc main_v1) : S1x512.Idx → EReal) (ix2 u d)
    = (m ((c : Thread nD τ).loc main_arg3) : S512.Idx → EReal) (ix1 d) := by
  rw [v1_eq]; exact shapeCast_a_1a_apply _ _ u d

/-- Row 2048 b + t of the flattened input is row t of batch b. -/
theorem v2_apply (bi : Fin 16) (t : Fin 2048) (c' : Fin 512) :
    (Wa1 m ρ c (Proc.devRef .tc main_v2) : S32768x512.Idx → EReal) (ix2 (flatRow bi t) c')
    = (m ((c : Thread nD τ).loc main_arg1) : S16x2048x512.Idx → EReal) (ix3 bi t c') := by
  rw [v2_eq]
  refine shapeCast_apply _ _ _ _ ?_
  show (S16x2048x512.rowMajor (ix3 bi t c')).val = (S32768x512.rowMajor (ix2 (flatRow bi t) c')).val
  rw [Shape.rowMajor_val_three, Shape.rowMajor_val_two]
  show (bi.val * 2048 + t.val) * 512 + c'.val = (bi.val * 2048 + t.val) * 512 + c'.val
  rfl

/-! ## The linear layer's region, block by block -/

theorem hz : (![0, 0] : Fin 2 → Nat) = fun _ => 0 := funext fun a => by fin_cases a <;> rfl

/-- The index maps over the grid: point t is handed block (t, 0) of the rows and writes block (t, 0) of the
    result; the weights and the bias row are block (0, 0), the whole array, at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point of the grid is below 16. -/
theorem lt16 (t : Fin cfg0.N) : t.val < 16 := by
  have h : t.val < grid0.N := t.isLt
  rw [N_0] at h; exact h

section Blocks
variable (V : (c : Dev nD) → (b : Ref sig .tc) → Buf (Elt Ideal) ((c : Thread nD τ).loc b))

/-- Row r of point t's input block is row 2048 t + r of the flattened input. -/
theorem iblk0_0_apply (t : Fin cfg0.N) (j : S2048x512.Idx) (k : S32768x512.Idx)
    (hk0 : (k 0).val = t.val * 2048 + (j 0).val) (hk1 : (k 1).val = (j 1).val) :
    (iblk0 V c 0 t : S2048x512.Idx → EReal) j = (V c main_v2 : S32768x512.Idx → EReal) k := by
  obtain ⟨e0, e1, -⟩ := idx_facts0 t
  unfold iblk0
  rw [View.read_apply]
  show (V c main_v2 : S32768x512.Idx → EReal) _ = V c main_v2 _
  congr 1
  funext a; apply Fin.ext
  match a with
  | ⟨0, _⟩ => show win0_0.index t (0 : Fin 2) * 2048 + 1 * (j 0).val = (k 0).val; rw [e0, hk0]; omega
  | ⟨1, _⟩ => show win0_0.index t (1 : Fin 2) * 512 + 1 * (j 1).val = (k 1).val; rw [e1, hk1]; omega

/-- The weights' block is the whole transposed matrix at every point. -/
theorem iblk0_1_apply (t : Fin cfg0.N) (j : S512x512.Idx) :
    (iblk0 V c 1 t : S512x512.Idx → EReal) j = (V c main_v0 : S512x512.Idx → EReal) j := by
  obtain ⟨-, -, e2, e3, -⟩ := idx_facts0 t
  unfold iblk0
  rw [View.read_apply]
  show (V c main_v0 : S512x512.Idx → EReal) _ = V c main_v0 _
  congr 1
  funext a; apply Fin.ext
  match a with
  | ⟨0, _⟩ => show win0_1.index t (0 : Fin 2) * 512 + 1 * (j 0).val = (j 0).val; rw [e2]; omega
  | ⟨1, _⟩ => show win0_1.index t (1 : Fin 2) * 512 + 1 * (j 1).val = (j 1).val; rw [e3]; omega

/-- The bias block is the whole bias row at every point. -/
theorem iblk0_2_apply (t : Fin cfg0.N) (j : S1x512.Idx) :
    (iblk0 V c 2 t : S1x512.Idx → EReal) j = (V c main_v1 : S1x512.Idx → EReal) j := by
  obtain ⟨-, -, -, -, e4, e5, -⟩ := idx_facts0 t
  unfold iblk0
  rw [View.read_apply]
  show (V c main_v1 : S1x512.Idx → EReal) _ = V c main_v1 _
  congr 1
  funext a; apply Fin.ext
  match a with
  | ⟨0, _⟩ => show win0_2.index t (0 : Fin 2) * 1 + 1 * (j 0).val = (j 0).val; rw [e4]; omega
  | ⟨1, _⟩ => show win0_2.index t (1 : Fin 2) * 512 + 1 * (j 1).val = (j 1).val; rw [e5]; omega

end Blocks

/-! ## What the region leaves in its result array -/

/-- The linear layer on flattened rows: row R of the input against column d of the transposed weights, plus the bias
    row's entry d. -/
def lin (A : S32768x512.Idx → EReal) (Wt : S512x512.Idx → EReal) (B : S1x512.Idx → EReal) (R : Fin 32768) (d : Fin 512) : EReal :=
  (∑ c' : Fin 512, A (ix2 R c') * Wt (ix2 c' d)) + B (ix2 (0 : Fin 1) d)

/-- … as an array. -/
def G0 (A : S32768x512.Idx → EReal) (Wt : S512x512.Idx → EReal) (B : S1x512.Idx → EReal) : S32768x512.Idx → EReal :=
  fun i => lin A Wt B (i 0) (i 1)

section Blocks
variable (V : (c : Dev nD) → (b : Ref sig .tc) → Buf (Elt Ideal) ((c : Thread nD τ).loc b))

/-- What point t writes back is block t of that array. -/
theorem flushed0_3_eq (t : Fin cfg0.N) :
    (dat0 V c).flushed 3 t = ((cfg0.win 3).blk t).view.read (Elt Ideal) (G0 (V c main_v2) (V c main_v0) (V c main_v1)) := by
  show (cfg0.win 3).cut (grid0.coords t) ((dat0 V c).after 3 t) = _
  rw [after0_3]
  unfold out0_3
  rw [View.canon_unit_zero hz]
  simp only [View.ld_unit_zero (S := S2048x512) hz, View.ld_unit_zero (S := S512x512) hz, View.ld_unit_zero (S := S1x512) hz]
  obtain ⟨-, -, -, -, -, -, e6, e7⟩ := idx_facts0 t
  funext j
  show k0_pay1 (F := Ideal) (iblk0 V c 0 t) (iblk0 V c 1 t) (iblk0 V c 2 t) j
    = G0 (V c main_v2) (V c main_v0) (V c main_v1) (((cfg0.win 3).blk t).view.emb j)
  revert j
  show ∀ j : S2048x512.Idx, k0_pay1 (F := Ideal) (iblk0 V c 0 t) (iblk0 V c 1 t) (iblk0 V c 2 t) j
    = G0 (V c main_v2) (V c main_v0) (V c main_v1) (((cfg0.win 3).blk t).view.emb j)
  intro j
  obtain ⟨r, d, rfl⟩ : ∃ (r : Fin 2048) (d : Fin 512), j = ix2 r d := ⟨j 0, j 1, eq_ix2 j⟩
  rw [Cert.KernelIdeal.Pay.pay0]
  have hemb : ((cfg0.win 3).blk t).view.emb (ix2 r d) = (ix2 (lrow t.val (lt16 t) r) d : S32768x512.Idx) := by
    funext a; apply Fin.ext
    match a with
    | ⟨0, _⟩ => show win0_3.index t (0 : Fin 2) * 2048 + 1 * r.val = t.val * 2048 + r.val; rw [e6]; omega
    | ⟨1, _⟩ => show win0_3.index t (1 : Fin 2) * 512 + 1 * d.val = d.val; rw [e7]; omega
  rw [hemb]
  show _ = lin (V c main_v2) (V c main_v0) (V c main_v1) _ d
  unfold lin
  congr 1
  · refine Finset.sum_congr rfl fun c' _ => ?_
    rw [iblk0_0_apply c V t (ix2 r c') (ix2 (lrow t.val _ r) c') rfl rfl, iblk0_1_apply c V t (ix2 c' d)]
  · exact iblk0_2_apply c V t (ix2 (0 : Fin 1) d)

end Blocks

section Blocks
variable (V : (c : Dev nD) → (b : Ref sig .tc) → Buf (Elt Ideal) ((c : Thread nD τ).loc b))

/-- An index of the result array is in point t's block iff each coordinate is in the block's range on its axis. -/
theorem mem_blk0_3 (t : Fin cfg0.N) (i : S32768x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v3).slice (win0_3.rect t)).set ↔ _
  rw [View.set_slice_whole, Rect.mem_set_unit]
  exact Iff.rfl

/-- Row R of the result array is written by point R / 2048: the sixteen blocks tile the array. -/
theorem cover0 (i : S32768x512.Idx) : ∃ t : Fin cfg0.N, (cfg0.win 3).flush t = true ∧ i ∈ ((cfg0.win 3).blk t).view.set := by
  have hi0 : (i 0).val < 32768 := (i 0).isLt
  have hi1 : (i 1).val < 512 := (i 1).isLt
  have hN : grid0.N = 16 := N_0
  have ht : (i 0).val / 2048 < cfg0.N := by show _ < grid0.N; rw [hN]; omega
  obtain ⟨-, -, -, -, -, -, e6, e7⟩ := idx_facts0 ⟨(i 0).val / 2048, ht⟩
  refine ⟨⟨(i 0).val / 2048, ht⟩, flush0_3 _, ?_⟩
  rw [mem_blk0_3]
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    rw [e6]; show (i 0).val / 2048 * 2048 ≤ (i 0).val ∧ (i 0).val < (i 0).val / 2048 * 2048 + 2048; omega
  | ⟨1, _⟩ =>
    show win0_3.index ⟨(i 0).val / 2048, ht⟩ (1 : Fin 2) * 512 ≤ (i 1).val ∧ (i 1).val < win0_3.index ⟨(i 0).val / 2048, ht⟩ (1 : Fin 2) * 512 + 512
    rw [e7]; omega

/-- So the region leaves the linear layer of its three arrays in its result array. -/
theorem final0 : (dat0 V c).arrAt 3 cfg0.N = G0 (V c main_v2) (V c main_v0) (V c main_v1) :=
  (dat0 V c).arrAt_eq_of_cover 3 _ (fun t _ => flushed0_3_eq c V t) cover0

end Blocks

/-! ## The result array, the reshape after it, and the arguments -/

/-- The region's result array after the region. -/
theorem v3_eq : (Wa2 m ρ c (Proc.devRef .tc main_v3) : S32768x512.Idx → EReal)
    = G0 (Wa1 m ρ c (Proc.devRef .tc main_v2)) (Wa1 m ρ c (Proc.devRef .tc main_v0)) (Wa1 m ρ c (Proc.devRef .tc main_v1)) :=
  (Wa2_arr m ρ c 3).trans (final0 c (Va1 m ρ))

/-- Its rows unflattened by the host. -/
theorem v4_shape : (Wa3 m ρ c (Proc.devRef .tc main_v4) : S16x2048x512.Idx → EReal)
    = shapeCast S16x2048x512 (Wa2 m ρ c (Proc.devRef .tc main_v3) : S32768x512.Idx → EReal) shapeCasts_S32768x512_S16x2048x512 := by
  dsimp only [Wa3, hostOps1]; after_results; rfl

/-- THE LINEAR LAYER: the array the attention region reads as its keys is the specification's q of the launch
    arguments, entry by entry. -/
theorem v4_eq (bi : Fin 16) (t : Fin 2048) (d : Fin 512) :
    (Va3 m ρ c main_v4 : S16x2048x512.Idx → EReal) (ix3 bi t d)
      = Cert.Spec.q (m ((c : Thread nD τ).loc main_arg1)) (m ((c : Thread nD τ).loc main_arg2)) (m ((c : Thread nD τ).loc main_arg3)) bi t d := by
  show (Wa3 m ρ c (Proc.devRef .tc main_v4) : S16x2048x512.Idx → EReal) (ix3 bi t d) = _
  rw [v4_shape]
  refine (shapeCast_apply _ _ (ix3 bi t d) (ix2 (flatRow bi t) d) ?_).trans ?_
  · show (S32768x512.rowMajor (ix2 (flatRow bi t) d)).val = (S16x2048x512.rowMajor (ix3 bi t d)).val
    rw [Shape.rowMajor_val_three, Shape.rowMajor_val_two]
    show (bi.val * 2048 + t.val) * 512 + d.val = (bi.val * 2048 + t.val) * 512 + d.val
    rfl
  rw [v3_eq]
  show lin _ _ _ (flatRow bi t) d = _
  unfold lin Cert.Spec.q
  congr 1
  · refine Finset.sum_congr rfl fun c' _ => ?_
    rw [v2_apply, v0_apply]
  · exact v1_apply m ρ c 0 d

/-- The values' array reaches the attention region as launched: no host operation and no window of the linear
    layer's region writes it. -/
theorem va3_arg0 : Va3 m ρ c main_arg0 = m ((c : Thread nD τ).loc main_arg0) :=
  calc Wa3 m ρ c (Proc.devRef .tc main_arg0)
    _ = Wa2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa1 m ρ c (Proc.devRef .tc main_arg0) := Wa2_of_ne m ρ c main_arg0 (by decide)
    _ = Wa0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- So does the queries' input. -/
theorem va3_arg1 : Va3 m ρ c main_arg1 = m ((c : Thread nD τ).loc main_arg1) :=
  calc Wa3 m ρ c (Proc.devRef .tc main_arg1)
    _ = Wa2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa1 m ρ c (Proc.devRef .tc main_arg1) := Wa2_of_ne m ρ c main_arg1 (by decide)
    _ = Wa0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

end Cert.KernelIdeal.Val

end
-- ==== Proof.Finite.lean ====
/-
  The precondition "every entry of the four inputs is finite", read back.

  The predicate is the conjunction of four tests, one per array: every entry's absolute value compares below plus
  infinity. When the predicate holds, each conjunct holds, each conjunct holds at every entry, and an extended real
  whose absolute value is below plus infinity is neither infinity: it is a real number.
-/
import proofs.«142818_j42760694399404_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The shape without axes has one index. -/
instance : Subsingleton Cert.Pre_finite_inputs.S_.Idx := ⟨fun a b => funext fun d => d.elim0⟩

/-- The bit pattern of plus infinity is the top of the extended reals. -/
theorem ofBits_posInf : Ideal.ofBits .f32 0x7F800000#32 = (⊤ : EReal) := by simp [Ideal.ofBits, Ideal.ieee]

/-- An extended real whose absolute value compares below plus infinity is a real number. -/
theorem real_of_abs_lt (x : EReal)
    (hx : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  rw [Ideal.cmpf_def, Ideal.hostAbsf_def, Ideal.absf_def, Ideal.ofBits_def, ofBits_posInf] at hx
  induction x using EReal.rec with
  | bot => simp [Ideal.cmp] at hx
  | top => simp [Ideal.cmp] at hx
  | coe r => exact ⟨r, rfl⟩

/-- Under the precondition every entry of the four inputs is a real number. -/
theorem real_of_pre (a0 a1 : (⟨3, ![16, 2048, 512]⟩ : Shape).Idx → EReal) (a2 : (⟨2, ![512, 512]⟩ : Shape).Idx → EReal)
    (a3 : (⟨1, ![512]⟩ : Shape).Idx → EReal)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ix0
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_abs_lt (a0 i) (Host.reduce_andi_all _ _ _ _ _ h1 i),
    fun i => real_of_abs_lt (a1 i) (Host.reduce_andi_all _ _ _ _ _ h2 i),
    fun i => real_of_abs_lt (a2 i) (Host.reduce_andi_all _ _ _ _ _ h3 i),
    fun i => real_of_abs_lt (a3 i) (Host.reduce_andi_all _ _ _ _ _ h4 i)⟩

end Cert.Finite

end
-- ==== Proof.KI.Final.lean ====
/-
  The attention region's output array is the specification.

  The region's result array is what its write-backs leave: the block of query tile (b, q) is written back once, at the
  tile's last key/value point, and those blocks tile the array. At that point the block holds, entry by entry,
  tanh of the running weighted sum over the running normaliser after all four key/value tiles, which is the
  specification's entry (the running sums are the whole row's softmax sums) provided every input is a real
  number, which the precondition says. The key blocks the region reads are the linear layer's output, itself
  the specification's `q`; the query and value blocks are the argument arrays.
-/
import proofs.«142818_j42760694399404_2_alg».proof.Proof.KI.Run
import proofs.«142818_j42760694399404_2_alg».proof.Proof.KI.Pieces
import proofs.«142818_j42760694399404_2_alg».proof.Proof.KI.Blocks1
import proofs.«142818_j42760694399404_2_alg».proof.Proof.KI.Invariant
import proofs.«142818_j42760694399404_2_alg».proof.Proof.KI.QFull
import proofs.«142818_j42760694399404_2_alg».proof.Proof.Finite
import proofs.«142818_j42760694399404_2_alg».proof.Proof.Spec
import proofs.«142818_j42760694399404_2_alg».proof.Proof.Gen.Pre_finite_inputs
import Idealize.ShloMosaic.PureOps.Ideal

noncomputable section

namespace Cert.KernelIdeal.Val

open Cert.KernelIdeal Cert.KernelIdeal.Gen
open Idealize.ShloMosaic Idealize.ShloMosaic.TcCoe Idealize.SL.Sem

theorem final (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    (Cert.KernelIdeal.Fr.dat1 (Cert.KernelIdeal.Fr.Va3 m ρ) c).arrAt 3 cfg1.N
      = Cert.Spec.G (m ((c.tc : Thread nD τ).loc main_arg0)) (m ((c.tc : Thread nD τ).loc main_arg1))
          (m ((c.tc : Thread nD τ).loc main_arg2)) (m ((c.tc : Thread nD τ).loc main_arg3)) := by
  obtain ⟨hXr, hXPr, hWr, hBr⟩ := Cert.Finite.real_of_pre _ _ _ _ hpre
  refine Cert.KernelIdeal.Fr.arrAt_out (Cert.KernelIdeal.Fr.Va3 m ρ) c _ ?_
  exact out_inv (Cert.KernelIdeal.Fr.Va3 m ρ) c
    (m ((c.tc : Thread nD τ).loc main_arg0)) (m ((c.tc : Thread nD τ).loc main_arg1))
    (m ((c.tc : Thread nD τ).loc main_arg2)) (m ((c.tc : Thread nD τ).loc main_arg3))
    (fun t h0 h1 => Cert.KernelIdeal.Fr.caseA_eq (Cert.KernelIdeal.Fr.Va3 m ρ) c t h0 h1)
    (fun t h0 h1 p => Cert.KernelIdeal.Fr.caseB_eq (Cert.KernelIdeal.Fr.Va3 m ρ) c t h0 h1 p)
    (fun t h0 h1 p => Cert.KernelIdeal.Fr.caseC_eq (Cert.KernelIdeal.Fr.Va3 m ρ) c t h0 h1 p)
    (fun t r c' => (Cert.KernelIdeal.Fr.iblk1_0_apply (Cert.KernelIdeal.Fr.Va3 m ρ) c t r c').trans (congrFun (va3_arg1 m ρ c) _))
    (fun t j c' => (Cert.KernelIdeal.Fr.iblk1_1_apply (Cert.KernelIdeal.Fr.Va3 m ρ) c t j c').trans (v4_eq m ρ c _ _ _))
    (fun t j c' => (Cert.KernelIdeal.Fr.iblk1_2_apply (Cert.KernelIdeal.Fr.Va3 m ρ) c t j c').trans (congrFun (va3_arg0 m ρ c) _))
    hXr hXPr hWr hBr

end Cert.KernelIdeal.Val

end
-- ==== Proof.RefIsSpec.lean ====
/-
  The reference program's result, entry by entry, is the array `Cert.Spec.G` of the specification.

  Each stage of the reference is read at an index given by its coordinates:
    the linear layer            v3[bi, t, d]  = q[bi, t, d]
    the scores                  v5[bi, r, t]  = score[bi, r, t]
    the row maximum             v8[bi, r]     = max (-inf) (max_t score[bi, r, t])
    the shifted exponentials    v12[bi, r, t] = exp (score[bi, r, t] - v8[bi, r])
    the normaliser              v13[bi, r]    = 0 + sum_u v12[bi, r, u]
    the weights                 v16[bi, r, t] = v12[bi, r, t] / v13[bi, r]
    the result                  v18[bi, r, c] = tanh (sum_t v16[bi, r, t] * x[bi, t, c])
  which is the specification's `out`, the softmax-weighted sum being written exactly as `OnlineSoftmax.refRow` has it.
-/
import proofs.«142818_j42760694399404_2_alg».proof.Proof.Gen.ReferenceIdeal.Read
import proofs.«142818_j42760694399404_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo

/-- The bit pattern of minus infinity is the bottom of the extended reals. -/
theorem ofBits_negInf : Ideal.ofBits .f32 0xFF800000#32 = (⊥ : EReal) := by simp [Ideal.ofBits, Ideal.ieee]

abbrev X3 : Type := (⟨S16x2048x512, .f32⟩ : BufTy).Contents (Elt Ideal)
abbrev X2 : Type := (⟨S512x512, .f32⟩ : BufTy).Contents (Elt Ideal)
abbrev X1 : Type := (⟨S512, .f32⟩ : BufTy).Contents (Elt Ideal)

/-- The linear layer at (bi, t, d). -/
theorem v3_ix (x1 : X3) (x2 : X2) (x3 : X1) (bi : Fin 16) (t : Fin 2048) (d : Fin 512) :
    val_main_v3 (F := Ideal) x1 x2 x3 (ix3 bi t d) = Cert.Spec.q x1 x2 x3 bi t d := by
  rw [val_main_v3_apply, val_main_v0_apply, val_main_v2_apply, val_main_v1_apply]
  have e1 : ∀ k : Fin 512, lidx_main_v0 (ix3 bi t d) k = ix3 bi t k := fun k =>
    funext fun a => Fin.ext (by match a with | ⟨0, _⟩ => rfl | ⟨1, _⟩ => rfl | ⟨2, _⟩ => rfl)
  have e2 : ∀ k : Fin 512, ridx_main_v0 (ix3 bi t d) k = ix2 d k := fun k =>
    funext fun a => Fin.ext (by match a with | ⟨0, _⟩ => rfl | ⟨1, _⟩ => rfl)
  have e3 : idx_main_v1 (idx_main_v2 (ix3 bi t d)) = ix1 d :=
    funext fun a => Fin.ext (by match a with | ⟨0, _⟩ => rfl)
  simp only [e1, e2, e3, Ideal.addf_def]
  rfl

/-- The attention score at (bi, r, t). -/
theorem v5_ix (x1 : X3) (x2 : X2) (x3 : X1) (bi : Fin 16) (r t : Fin 2048) :
    val_main_v5 (F := Ideal) x1 x2 x3 (ix3 bi r t) = Cert.Spec.score x1 x2 x3 bi r t := by
  rw [val_main_v5_apply]
  unfold Cert.Spec.score
  refine Finset.sum_congr rfl fun k _ => ?_
  have e1 : lidx_main_v5 (ix3 bi r t) k = ix3 bi r k :=
    funext fun a => Fin.ext (by match a with | ⟨0, _⟩ => rfl | ⟨1, _⟩ => rfl | ⟨2, _⟩ => rfl)
  have e2 : ridx_main_v5 (ix3 bi r t) k = ix3 bi t k :=
    funext fun a => Fin.ext (by match a with | ⟨0, _⟩ => rfl | ⟨1, _⟩ => rfl | ⟨2, _⟩ => rfl)
  rw [e1, e2, v3_ix, val_main_v4_apply, Ideal.hostUnary_tanh_def]

/-- The row's maximum, as the reference takes it: the fold of `max` from minus infinity over the 2048 keys. -/
theorem v6_ix (x1 : X3) (x2 : X2) (x3 : X1) (bi : Fin 16) (r : Fin 2048) :
    val_main_v6 (F := Ideal) x1 x2 x3 (ix2 bi r)
      = Finset.univ.fold max ⊥ (fun t : Fin 2048 => Cert.Spec.score x1 x2 x3 bi r t) := by
  unfold val_main_v6
  have h : S16x2048x2048.Reduces [2] S16x2048 := by decide
  rw [Host.reduce_eq_fold_single FloatOps.maximumf _ _ reducesTo_S16x2048x2048_S16x2048_d2 h h_S_]
  have hl : ∀ k : Fin 2048, h.lift (ix2 bi r) k = ix3 bi r k := fun k =>
    funext fun a => Fin.ext (by match a with | ⟨0, _⟩ => rfl | ⟨1, _⟩ => rfl | ⟨2, _⟩ => rfl)
  have hf : (val_main_v5 (F := Ideal) x1 x2 x3 ∘ h.lift (ix2 bi r))
      = fun t : Fin 2048 => Cert.Spec.score x1 x2 x3 bi r t :=
    funext fun k => (congrArg (val_main_v5 (F := Ideal) x1 x2 x3) (hl k)).trans (v5_ix x1 x2 x3 bi r k)
  rw [hf, val_main_cst_apply, Ideal.ofBits_def, ofBits_negInf]
  rfl

/-- The maximum the exponentials are shifted by: minus infinity joined with the row's maximum. -/
theorem v8_ix (x1 : X3) (x2 : X2) (x3 : X1) (bi : Fin 16) (r : Fin 2048) :
    val_main_v8 (F := Ideal) x1 x2 x3 (ix2 bi r)
      = max ⊥ (Finset.univ.fold max ⊥ (fun t : Fin 2048 => Cert.Spec.score x1 x2 x3 bi r t)) := by
  rw [val_main_v8_apply, val_main_v7_apply, val_main_cst_0_apply, v6_ix, Ideal.maximumf_def, Ideal.ofBits_def,
    ofBits_negInf]

/-- The shifted exponential at (bi, r, t). -/
theorem v12_ix (x1 : X3) (x2 : X2) (x3 : X1) (bi : Fin 16) (r t : Fin 2048) :
    val_main_v12 (F := Ideal) x1 x2 x3 (ix3 bi r t)
      = Ideal.exp (Cert.Spec.score x1 x2 x3 bi r t
          - max ⊥ (Finset.univ.fold max ⊥ (fun u : Fin 2048 => Cert.Spec.score x1 x2 x3 bi r u))) := by
  have e : idx_main_v9 (idx_main_v10 (ix3 bi r t)) = ix2 bi r :=
    funext fun a => Fin.ext (by match a with | ⟨0, _⟩ => rfl | ⟨1, _⟩ => rfl)
  rw [val_main_v12_apply, val_main_v11_apply, val_main_v10_apply, val_main_v9_apply, e, v5_ix, v8_ix,
    Ideal.hostUnary_exp_def, Ideal.subf_def]

/-- The normaliser of row (bi, r). -/
theorem v13_ix (x1 : X3) (x2 : X2) (x3 : X1) (bi : Fin 16) (r : Fin 2048) :
    val_main_v13 (F := Ideal) x1 x2 x3 (ix2 bi r)
      = 0 + ∑ u : Fin 2048, Ideal.exp (Cert.Spec.score x1 x2 x3 bi r u
          - max ⊥ (Finset.univ.fold max ⊥ (fun u : Fin 2048 => Cert.Spec.score x1 x2 x3 bi r u))) := by
  rw [val_main_v13_apply, val_main_cst_1_apply, Ideal.ofBits_def, Ideal.ofBits_zero_f32]
  refine congrArg (0 + ·) (Finset.sum_congr rfl fun k _ => ?_)
  have e : idx_main_v13 (ix2 bi r) k = ix3 bi r k :=
    funext fun a => Fin.ext (by match a with | ⟨0, _⟩ => rfl | ⟨1, _⟩ => rfl | ⟨2, _⟩ => rfl)
  rw [e, v12_ix]

/-- The softmax weight at (bi, r, t). -/
theorem v16_ix (x1 : X3) (x2 : X2) (x3 : X1) (bi : Fin 16) (r t : Fin 2048) :
    val_main_v16 (F := Ideal) x1 x2 x3 (ix3 bi r t)
      = Ideal.div (Ideal.exp (Cert.Spec.score x1 x2 x3 bi r t
            - max ⊥ (Finset.univ.fold max ⊥ (fun u : Fin 2048 => Cert.Spec.score x1 x2 x3 bi r u))))
          (0 + ∑ u : Fin 2048, Ideal.exp (Cert.Spec.score x1 x2 x3 bi r u
            - max ⊥ (Finset.univ.fold max ⊥ (fun u : Fin 2048 => Cert.Spec.score x1 x2 x3 bi r u)))) := by
  have e : idx_main_v14 (idx_main_v15 (ix3 bi r t)) = ix2 bi r :=
    funext fun a => Fin.ext (by match a with | ⟨0, _⟩ => rfl | ⟨1, _⟩ => rfl)
  rw [val_main_v16_apply, val_main_v15_apply, val_main_v14_apply, e, v12_ix, v13_ix, Ideal.hostDivf_def]

/-- The weighted sum of the values at (bi, r, c) is the specification's softmax-weighted row sum. -/
theorem v17_ix (x0 x1 : X3) (x2 : X2) (x3 : X1) (bi : Fin 16) (r : Fin 2048) (c : Fin 512) :
    val_main_v17 (F := Ideal) x0 x1 x2 x3 (ix3 bi r c)
      = Cert.OnlineSoftmax.refRow (fun t : Fin 2048 => Cert.Spec.score x1 x2 x3 bi r t)
          (fun t : Fin 2048 => x0 (ix3 bi t c)) := by
  rw [val_main_v17_apply]
  unfold Cert.OnlineSoftmax.refRow
  refine Finset.sum_congr rfl fun k _ => ?_
  have e1 : lidx_main_v17 (ix3 bi r c) k = ix3 bi r k :=
    funext fun a => Fin.ext (by match a with | ⟨0, _⟩ => rfl | ⟨1, _⟩ => rfl | ⟨2, _⟩ => rfl)
  have e2 : ridx_main_v17 (ix3 bi r c) k = ix3 bi k c :=
    funext fun a => Fin.ext (by match a with | ⟨0, _⟩ => rfl | ⟨1, _⟩ => rfl | ⟨2, _⟩ => rfl)
  rw [e1, e2, v16_ix]

/-- The reference program's result is the specification's array. -/
theorem ref_eq (x0 x1 : (⟨Cert.ReferenceIdeal.S16x2048x512, .f32⟩ : BufTy).Contents (Elt Ideal))
    (x2 : (⟨Cert.ReferenceIdeal.S512x512, .f32⟩ : BufTy).Contents (Elt Ideal))
    (x3 : (⟨Cert.ReferenceIdeal.S512, .f32⟩ : BufTy).Contents (Elt Ideal)) :
    Cert.ReferenceIdeal.Read.val_main_v18 (F := Ideal) x0 x1 x2 x3 = Cert.Spec.G x0 x1 x2 x3 := by
  funext i
  obtain ⟨bi, r, c, rfl⟩ : ∃ (bi : Fin 16) (r : Fin 2048) (c : Fin 512), i = ix3 bi r c := ⟨i 0, i 1, i 2, eq_ix3 i⟩
  rw [val_main_v18_apply, v17_ix, Ideal.hostUnary_tanh_def]
  rfl

end Cert.ReferenceIdeal.RefValue

end
-- ==== Proof.lean ====
/-
  A tiled attention kernel with a running softmax against plain softmax attention.

  The kernel runs two regions: a linear layer `q = x' Wᵀ + b` (stored in a narrower float format, which is the identity
  over the extended reals), and attention proper, which for each batch and each tile of 1024 query rows walks the 2048
  keys in four tiles of 512, keeping in scratch a running maximum, a running normaliser and a running weighted sum
  that it rescales at every tile, and at the last tile divides and applies tanh. The reference computes
  `tanh (softmax (tanh x' · qᵀ) · x)` with the whole row's maximum subtracted. Over the extended reals and for finite
  inputs the two are the same function of the four argument arrays (the running sums are the whole row's sums,
  each term rescaled to the final maximum), which is the value claim; the three frame claims are each program's
  run with the result forgotten; the idealized kernel is the word-level kernel's own text, so nothing is owed for it.
-/
import proofs.«142818_j42760694399404_2_alg».proof.Defs
import proofs.«142818_j42760694399404_2_alg».proof.Proof.Gen.Kernel
import proofs.«142818_j42760694399404_2_alg».proof.Proof.Gen.KernelIdeal
import proofs.«142818_j42760694399404_2_alg».proof.Proof.Gen.ReferenceIdeal
import proofs.«142818_j42760694399404_2_alg».proof.Proof.Gen.ReferenceIdeal.Run
import proofs.«142818_j42760694399404_2_alg».proof.Proof.Gen.ReferenceIdeal.Read
import proofs.«142818_j42760694399404_2_alg».proof.Proof.Gen.Pre_finite_inputs
import proofs.«142818_j42760694399404_2_alg».proof.Proof.K.Run
import proofs.«142818_j42760694399404_2_alg».proof.Proof.KI.Run
import proofs.«142818_j42760694399404_2_alg».proof.Proof.KI.Final
import proofs.«142818_j42760694399404_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Fr.frame (F := Bits) m ρ

/-- So does its reading over the extended reals. -/
theorem frame_ki : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the result array at the specification `Spec.G` of the (agreeing) argument arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Val.final m ρ c (hpre c)), (h c).2⟩)
      (Cert.KernelIdeal.Fr.run_value (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v18_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
